-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v115)) (v1 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024x1x1 : Shape := ⟨4, ![8192, 1024, 1, 1]⟩
abbrev S512x128x8 : Shape := ⟨3, ![512, 128, 8]⟩
abbrev S512 : Shape := ⟨1, ![512]⟩
abbrev S128x512x8 : Shape := ⟨3, ![128, 512, 8]⟩
abbrev S128 : Shape := ⟨1, ![128]⟩
abbrev S_ : Shape := ⟨0, ![]⟩

class Facts : Prop where
  bcast_S_S8192x1024x1x1 : S_.BroadcastsInDim S8192x1024x1x1 (![] : Fin 0 → Fin S8192x1024x1x1.rank)
  reducesTo_S8192x1024x1x1_S_d0_1_2_3 : S8192x1024x1x1.ReducesTo [0, 1, 2, 3] S_
  h_S_ : 0 < S_.numel
  bcast_S_S512x128x8 : S_.BroadcastsInDim S512x128x8 (![] : Fin 0 → Fin S512x128x8.rank)
  reducesTo_S512x128x8_S_d0_1_2 : S512x128x8.ReducesTo [0, 1, 2] S_
  bcast_S_S512 : S_.BroadcastsInDim S512 (![] : Fin 0 → Fin S512.rank)
  reducesTo_S512_S_d0 : S512.ReducesTo [0] S_
  bcast_S_S128x512x8 : S_.BroadcastsInDim S128x512x8 (![] : Fin 0 → Fin S128x512x8.rank)
  reducesTo_S128x512x8_S_d0_1_2 : S128x512x8.ReducesTo [0, 1, 2] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S512x128x8 .f32) (main_arg8 : FVec F S512 .f32) (main_arg9 : FVec F S128x512x8 .f32) (main_arg10 : FVec F S128 .f32) (main_v33 : IVec S_ 1) : IVec S_ 1 :=
  let main_v34 : FVec F S512x128x8 .f32 := Host.absf main_arg7
  let main_cst_12 : FVec F S_ .f32 := constant S_ .f32 0x7F800000#32
  let main_v35 : FVec F S512x128x8 .f32 := broadcastInDim S512x128x8 ![] bcast_S_S512x128x8 main_cst_12
  let main_v36 : IVec S512x128x8 1 := cmpf .olt main_v34 main_v35
  let main_c_13 : IVec S_ 1 := constantI S_ 1 1#1
  let main_v37 : IVec S_ 1 := (fun x v => Host.reduce IntOp.andi x v reducesTo_S512x128x8_S_d0_1_2 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S128x512x8 .f32 := Host.absf main_arg9
  let main_cst_16 : FVec F S_ .f32 := constant S_ .f32 0x7F800000#32
  let main_v45 : FVec F S128x512x8 .f32 := broadcastInDim S128x512x8 ![] bcast_S_S128x512x8 main_cst_16
  let main_v46 : IVec S128x512x8 1 := cmpf .olt main_v44 main_v45
  let main_c_17 : IVec S_ 1 := constantI S_ 1 1#1
  let main_v47 : IVec S_ 1 := (fun x v => Host.reduce IntOp.andi x v reducesTo_S128x512x8_S_d0_1_2 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S512 .f32) (main_arg5 : FVec F S512x128x8 .f32) (main_arg6 : FVec F S512 .f32) (main_arg7 : FVec F S512x128x8 .f32) (main_arg8 : FVec F S512 .f32) (main_arg9 : FVec F S128x512x8 .f32) (main_arg10 : FVec F S128 .f32) (main_v13 : IVec S_ 1) (main_v16 : IVec S512x128x8 1) : IVec S_ 1 :=
  let main_c_5 : IVec S_ 1 := constantI S_ 1 1#1
  let main_v17 : IVec S_ 1 := (fun x v => Host.reduce IntOp.andi x v reducesTo_S512x128x8_S_d0_1_2 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128x8 .f32 := Host.absf main_arg5
  let main_cst_8 : FVec F S_ .f32 := constant S_ .f32 0x7F800000#32
  let main_v25 : FVec F S512x128x8 .f32 := broadcastInDim S512x128x8 ![] bcast_S_S512x128x8 main_cst_8
  let main_v26 : IVec S512x128x8 1 := cmpf .olt main_v24 main_v25
  let main_c_9 : IVec S_ 1 := constantI S_ 1 1#1
  let main_v27 : IVec S_ 1 := (fun x v => Host.reduce IntOp.andi x v reducesTo_S512x128x8_S_d0_1_2 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024x1x1 .f32) (main_arg1 : FVec F S8192x1024x1x1 .f32) (main_arg2 : FVec F S8192x1024x1x1 .f32) (main_arg3 : FVec F S512x128x8 .f32) (main_arg4 : FVec F S512 .f32) (main_arg5 : FVec F S512x128x8 .f32) (main_arg6 : FVec F S512 .f32) (main_arg7 : FVec F S512x128x8 .f32) (main_arg8 : FVec F S512 .f32) (main_arg9 : FVec F S128x512x8 .f32) (main_arg10 : FVec F S128 .f32) : IVec S_ 1 :=
  let main_v0 : FVec F S8192x1024x1x1 .f32 := Host.absf main_arg0
  let main_cst : FVec F S_ .f32 := constant S_ .f32 0x7F800000#32
  let main_v1 : FVec F S8192x1024x1x1 .f32 := broadcastInDim S8192x1024x1x1 ![] bcast_S_S8192x1024x1x1 main_cst
  let main_v2 : IVec S8192x1024x1x1 1 := cmpf .olt main_v0 main_v1
  let main_c : IVec S_ 1 := constantI S_ 1 1#1
  let main_v3 : IVec S_ 1 := (fun x v => Host.reduce IntOp.andi x v reducesTo_S8192x1024x1x1_S_d0_1_2_3 h_S_) main_v2 main_c
  let main_v4 : FVec F S8192x1024x1x1 .f32 := Host.absf main_arg1
  let main_cst_0 : FVec F S_ .f32 := constant S_ .f32 0x7F800000#32
  let main_v5 : FVec F S8192x1024x1x1 .f32 := broadcastInDim S8192x1024x1x1 ![] bcast_S_S8192x1024x1x1 main_cst_0
  let main_v6 : IVec S8192x1024x1x1 1 := cmpf .olt main_v4 main_v5
  let main_c_1 : IVec S_ 1 := constantI S_ 1 1#1
  let main_v7 : IVec S_ 1 := (fun x v => Host.reduce IntOp.andi x v reducesTo_S8192x1024x1x1_S_d0_1_2_3 h_S_) main_v6 main_c_1
  let main_v8 : IVec S_ 1 := andi main_v3 main_v7
  let main_v9 : FVec F S8192x1024x1x1 .f32 := Host.absf main_arg2
  let main_cst_2 : FVec F S_ .f32 := constant S_ .f32 0x7F800000#32
  let main_v10 : FVec F S8192x1024x1x1 .f32 := broadcastInDim S8192x1024x1x1 ![] bcast_S_S8192x1024x1x1 main_cst_2
  let main_v11 : IVec S8192x1024x1x1 1 := cmpf .olt main_v9 main_v10
  let main_c_3 : IVec S_ 1 := constantI S_ 1 1#1
  let main_v12 : IVec S_ 1 := (fun x v => Host.reduce IntOp.andi x v reducesTo_S8192x1024x1x1_S_d0_1_2_3 h_S_) main_v11 main_c_3
  let main_v13 : IVec S_ 1 := andi main_v8 main_v12
  let main_v14 : FVec F S512x128x8 .f32 := Host.absf main_arg3
  let main_cst_4 : FVec F S_ .f32 := constant S_ .f32 0x7F800000#32
  let main_v15 : FVec F S512x128x8 .f32 := broadcastInDim S512x128x8 ![] bcast_S_S512x128x8 main_cst_4
  let main_v16 : IVec S512x128x8 1 := cmpf .olt main_v14 main_v15
  fn_part1 (F := F) main_arg4 main_arg5 main_arg6 main_arg7 main_arg8 main_arg9 main_arg10 main_v13 main_v16
-- ==== Kernel.lean ====
abbrev S8192x1024x1x1 : Shape := ⟨4, ![8192, 1024, 1, 1]⟩
abbrev S512x128x8 : Shape := ⟨3, ![512, 128, 8]⟩
abbrev S512 : Shape := ⟨1, ![512]⟩
abbrev S128x512x8 : Shape := ⟨3, ![128, 512, 8]⟩
abbrev S128 : Shape := ⟨1, ![128]⟩
abbrev S8192x1024 : Shape := ⟨2, ![8192, 1024]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S_ : Shape := ⟨0, ![]⟩
abbrev S8x8x1 : Shape := ⟨3, ![8, 8, 1]⟩
abbrev S512x128x8x8 : Shape := ⟨4, ![512, 128, 8, 8]⟩
abbrev S512x8x128x8 : Shape := ⟨4, ![512, 8, 128, 8]⟩
abbrev S4096x1024 : Shape := ⟨2, ![4096, 1024]⟩
abbrev S1024x4096 : Shape := ⟨2, ![1024, 4096]⟩
abbrev S512x8 : Shape := ⟨2, ![512, 8]⟩
abbrev S4096 : Shape := ⟨1, ![4096]⟩
abbrev S1x4096 : Shape := ⟨2, ![1, 4096]⟩
abbrev S128x512x8x8 : Shape := ⟨4, ![128, 512, 8, 8]⟩
abbrev S128x8x512x8 : Shape := ⟨4, ![128, 8, 512, 8]⟩
abbrev S128x8 : Shape := ⟨2, ![128, 8]⟩
abbrev S1024 : Shape := ⟨1, ![1024]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S8192x8x8x64 : Shape := ⟨4, ![8192, 8, 8, 64]⟩
abbrev S8192x8x8x8 : Shape := ⟨4, ![8192, 8, 8, 8]⟩
abbrev S8192x8x8 : Shape := ⟨3, ![8192, 8, 8]⟩
abbrev S8192x8x8x1 : Shape := ⟨4, ![8192, 8, 8, 1]⟩

abbrev nBuf : Space → Nat
  | .hbm => 223
  | .vmem => 24
  | .smem => 0
  | _ => 0

abbrev hbmTy0_0 (i : Nat) : BufTy := match i % 128 with
  | 0 => ⟨S8192x1024x1x1, .f32⟩
  | 1 => ⟨S8192x1024x1x1, .f32⟩
  | 2 => ⟨S8192x1024x1x1, .f32⟩
  | 3 => ⟨S512x128x8, .f32⟩
  | 4 => ⟨S512, .f32⟩
  | 5 => ⟨S512x128x8, .f32⟩
  | 6 => ⟨S512, .f32⟩
  | 7 => ⟨S512x128x8, .f32⟩
  | 8 => ⟨S512, .f32⟩
  | 9 => ⟨S128x512x8, .f32⟩
  | 10 => ⟨S128, .f32⟩
  | 11 => ⟨S8192x1024, .f32⟩
  | 12 => ⟨S8192x1024, .f32⟩
  | 13 => ⟨S8192x1024, .f32⟩
  | 14 => ⟨S8, .i32⟩
  | 15 => ⟨S8x1, .i32⟩
  | 16 => ⟨S1x8, .i32⟩
  | 17 => ⟨S8x8, .i32⟩
  | 18 => ⟨S8x8, .i32⟩
  | 19 => ⟨S8x8, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S8x8, .i32⟩
  | 27 => ⟨S8x8, .i32⟩
  | 28 => ⟨S_, .i32⟩
  | 29 => ⟨S8x8, .i32⟩
  | 30 => ⟨S8x8, .i1⟩
  | 31 => ⟨S_, .i32⟩
  | 32 => ⟨S8x8, .i32⟩
  | 33 => ⟨S8x8, .i1⟩
  | 34 => ⟨S_, .i32⟩
  | 35 => ⟨S_, .i1⟩
  | 36 => ⟨S8x8, .i1⟩
  | 37 => ⟨S8x8, .i1⟩
  | 38 => ⟨S8x8, .i1⟩
  | 39 => ⟨S8x8, .i32⟩
  | 40 => ⟨S8x8, .i32⟩
  | 41 => ⟨S8x8, .i32⟩
  | 42 => ⟨S_, .i32⟩
  | 43 => ⟨S8x8, .i32⟩
  | 44 => ⟨S8x8, .i1⟩
  | 45 => ⟨S_, .i32⟩
  | 46 => ⟨S8x8, .i32⟩
  | 47 => ⟨S8x8, .i32⟩
  | 48 => ⟨S8x8, .i32⟩
  | 49 => ⟨S8x8x1, .i32⟩
  | 50 => ⟨S512x128x8x8, .f32⟩
  | 51 => ⟨S512x8x128x8, .f32⟩
  | 52 => ⟨S4096x1024, .f32⟩
  | 53 => ⟨S1024x4096, .f32⟩
  | 54 => ⟨S1024x4096, .bf16⟩
  | 55 => ⟨S512x8, .f32⟩
  | 56 => ⟨S4096, .f32⟩
  | 57 => ⟨S1x4096, .f32⟩
  | 58 => ⟨S8, .i32⟩
  | 59 => ⟨S8x1, .i32⟩
  | 60 => ⟨S1x8, .i32⟩
  | 61 => ⟨S8x8, .i32⟩
  | 62 => ⟨S8x8, .i32⟩
  | 63 => ⟨S8x8, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S8x8, .i32⟩
  | 71 => ⟨S8x8, .i32⟩
  | 72 => ⟨S_, .i32⟩
  | 73 => ⟨S8x8, .i32⟩
  | 74 => ⟨S8x8, .i1⟩
  | 75 => ⟨S_, .i32⟩
  | 76 => ⟨S8x8, .i32⟩
  | 77 => ⟨S8x8, .i1⟩
  | 78 => ⟨S_, .i32⟩
  | 79 => ⟨S_, .i1⟩
  | 80 => ⟨S8x8, .i1⟩
  | 81 => ⟨S8x8, .i1⟩
  | 82 => ⟨S8x8, .i1⟩
  | 83 => ⟨S8x8, .i32⟩
  | 84 => ⟨S8x8, .i32⟩
  | 85 => ⟨S8x8, .i32⟩
  | 86 => ⟨S_, .i32⟩
  | 87 => ⟨S8x8, .i32⟩
  | 88 => ⟨S8x8, .i1⟩
  | 89 => ⟨S_, .i32⟩
  | 90 => ⟨S8x8, .i32⟩
  | 91 => ⟨S8x8, .i32⟩
  | 92 => ⟨S8x8, .i32⟩
  | 93 => ⟨S8x8x1, .i32⟩
  | 94 => ⟨S512x128x8x8, .f32⟩
  | 95 => ⟨S512x8x128x8, .f32⟩
  | 96 => ⟨S4096x1024, .f32⟩
  | 97 => ⟨S1024x4096, .f32⟩
  | 98 => ⟨S1024x4096, .bf16⟩
  | 99 => ⟨S512x8, .f32⟩
  | 100 => ⟨S4096, .f32⟩
  | 101 => ⟨S1x4096, .f32⟩
  | 102 => ⟨S8, .i32⟩
  | 103 => ⟨S8x1, .i32⟩
  | 104 => ⟨S1x8, .i32⟩
  | 105 => ⟨S8x8, .i32⟩
  | 106 => ⟨S8x8, .i32⟩
  | 107 => ⟨S8x8, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S8x8, .i32⟩
  | 115 => ⟨S8x8, .i32⟩
  | 116 => ⟨S_, .i32⟩
  | 117 => ⟨S8x8, .i32⟩
  | 118 => ⟨S8x8, .i1⟩
  | 119 => ⟨S_, .i32⟩
  | 120 => ⟨S8x8, .i32⟩
  | 121 => ⟨S8x8, .i1⟩
  | 122 => ⟨S_, .i32⟩
  | 123 => ⟨S_, .i1⟩
  | 124 => ⟨S8x8, .i1⟩
  | 125 => ⟨S8x8, .i1⟩
  | 126 => ⟨S8x8, .i1⟩
  | 127 => ⟨S8x8, .i32⟩
  | _ => ⟨S8192x1024x1x1, .f32⟩

abbrev hbmTy0_1 (i : Nat) : BufTy := match i % 128 with
  | 0 => ⟨S8x8, .i32⟩
  | 1 => ⟨S8x8, .i32⟩
  | 2 => ⟨S_, .i32⟩
  | 3 => ⟨S8x8, .i32⟩
  | 4 => ⟨S8x8, .i1⟩
  | 5 => ⟨S_, .i32⟩
  | 6 => ⟨S8x8, .i32⟩
  | 7 => ⟨S8x8, .i32⟩
  | 8 => ⟨S8x8, .i32⟩
  | 9 => ⟨S8x8x1, .i32⟩
  | 10 => ⟨S512x128x8x8, .f32⟩
  | 11 => ⟨S512x8x128x8, .f32⟩
  | 12 => ⟨S4096x1024, .f32⟩
  | 13 => ⟨S1024x4096, .f32⟩
  | 14 => ⟨S1024x4096, .bf16⟩
  | 15 => ⟨S512x8, .f32⟩
  | 16 => ⟨S4096, .f32⟩
  | 17 => ⟨S1x4096, .f32⟩
  | 18 => ⟨S8, .i32⟩
  | 19 => ⟨S8x1, .i32⟩
  | 20 => ⟨S1x8, .i32⟩
  | 21 => ⟨S8x8, .i32⟩
  | 22 => ⟨S8x8, .i32⟩
  | 23 => ⟨S8x8, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S8x8, .i32⟩
  | 31 => ⟨S8x8, .i32⟩
  | 32 => ⟨S_, .i32⟩
  | 33 => ⟨S8x8, .i32⟩
  | 34 => ⟨S8x8, .i1⟩
  | 35 => ⟨S_, .i32⟩
  | 36 => ⟨S8x8, .i32⟩
  | 37 => ⟨S8x8, .i1⟩
  | 38 => ⟨S_, .i32⟩
  | 39 => ⟨S_, .i1⟩
  | 40 => ⟨S8x8, .i1⟩
  | 41 => ⟨S8x8, .i1⟩
  | 42 => ⟨S8x8, .i1⟩
  | 43 => ⟨S8x8, .i32⟩
  | 44 => ⟨S8x8, .i32⟩
  | 45 => ⟨S8x8, .i32⟩
  | 46 => ⟨S_, .i32⟩
  | 47 => ⟨S8x8, .i32⟩
  | 48 => ⟨S8x8, .i1⟩
  | 49 => ⟨S_, .i32⟩
  | 50 => ⟨S8x8, .i32⟩
  | 51 => ⟨S8x8, .i32⟩
  | 52 => ⟨S8x8, .i32⟩
  | 53 => ⟨S8x8x1, .i32⟩
  | 54 => ⟨S128x512x8x8, .f32⟩
  | 55 => ⟨S128x8x512x8, .f32⟩
  | 56 => ⟨S1024x4096, .f32⟩
  | 57 => ⟨S4096x1024, .f32⟩
  | 58 => ⟨S4096x1024, .bf16⟩
  | 59 => ⟨S128x8, .f32⟩
  | 60 => ⟨S1024, .f32⟩
  | 61 => ⟨S1x1024, .f32⟩
  | 62 => ⟨S8192x4096, .f32⟩
  | 63 => ⟨S8192x4096, .f32⟩
  | 64 => ⟨S8192x4096, .f32⟩
  | 65 => ⟨S8192x8x8x64, .f32⟩
  | 66 => ⟨S8192x8x8x64, .f32⟩
  | 67 => ⟨S8192x8x8x64, .f32⟩
  | 68 => ⟨S8192x8x8x64, .f32⟩
  | 69 => ⟨S8192x8x8x64, .f32⟩
  | 70 => ⟨S8192x8x8x64, .f32⟩
  | 71 => ⟨S_, .f32⟩
  | 72 => ⟨S8192x8x8x64, .f32⟩
  | 73 => ⟨S8192x8x8x64, .f32⟩
  | 74 => ⟨S8192x8x8x8, .f32⟩
  | 75 => ⟨S_, .f32⟩
  | 76 => ⟨S8192x8x8, .f32⟩
  | 77 => ⟨S_, .f32⟩
  | 78 => ⟨S8192x8x8, .f32⟩
  | 79 => ⟨S8192x8x8, .f32⟩
  | 80 => ⟨S8192x8x8x1, .f32⟩
  | 81 => ⟨S8192x8x8x8, .f32⟩
  | 82 => ⟨S8192x8x8x8, .f32⟩
  | 83 => ⟨S8192x8x8x8, .f32⟩
  | 84 => ⟨S_, .f32⟩
  | 85 => ⟨S8192x8x8, .f32⟩
  | 86 => ⟨S8192x8x8x1, .f32⟩
  | 87 => ⟨S8192x8x8x8, .f32⟩
  | 88 => ⟨S8192x8x8x8, .f32⟩
  | 89 => ⟨S8192x8x8x64, .f32⟩
  | 90 => ⟨S8192x8x8x64, .f32⟩
  | 91 => ⟨S8192x4096, .f32⟩
  | 92 => ⟨S8192x1024, .f32⟩
  | 93 => ⟨S8192x1024x1x1, .f32⟩
  | 94 => ⟨S8192x1024x1x1, .f32⟩
  | _ => ⟨S8192x1024x1x1, .f32⟩

abbrev hbmTy (i : Nat) : BufTy := match i / 128 with
  | 0 => hbmTy0_0 i
  | 1 => hbmTy0_1 i
  | _ => ⟨S8192x1024x1x1, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | .local _ .vmem, ⟨6, _⟩ => ⟨S512x1024, .f32⟩
  | .local _ .vmem, ⟨7, _⟩ => ⟨S512x1024, .f32⟩
  | .local _ .vmem, ⟨8, _⟩ => ⟨S1024x4096, .bf16⟩
  | .local _ .vmem, ⟨9, _⟩ => ⟨S1x4096, .f32⟩
  | .local _ .vmem, ⟨10, _⟩ => ⟨S512x4096, .f32⟩
  | .local _ .vmem, ⟨11, _⟩ => ⟨S512x4096, .f32⟩
  | .local _ .vmem, ⟨12, _⟩ => ⟨S512x1024, .f32⟩
  | .local _ .vmem, ⟨13, _⟩ => ⟨S512x1024, .f32⟩
  | .local _ .vmem, ⟨14, _⟩ => ⟨S1024x4096, .bf16⟩
  | .local _ .vmem, ⟨15, _⟩ => ⟨S1x4096, .f32⟩
  | .local _ .vmem, ⟨16, _⟩ => ⟨S512x4096, .f32⟩
  | .local _ .vmem, ⟨17, _⟩ => ⟨S512x4096, .f32⟩
  | .local _ .vmem, ⟨18, _⟩ => ⟨S512x4096, .f32⟩
  | .local _ .vmem, ⟨19, _⟩ => ⟨S512x4096, .f32⟩
  | .local _ .vmem, ⟨20, _⟩ => ⟨S4096x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S8192x1024x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v9 : Ref sig .tc := ⟨.hbm, 41, rfl⟩
abbrev main_c_0 : Ref sig .tc := ⟨.hbm, 42, rfl⟩
abbrev main_v10 : Ref sig .tc := ⟨.hbm, 43, rfl⟩
abbrev main_v11 : Ref sig .tc := ⟨.hbm, 44, rfl⟩
abbrev main_c_1 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_2 : Ref sig .tc := ⟨.hbm, 64, rfl⟩
abbrev main_call1_v0 : Ref sig .tc := ⟨.hbm, 65, rfl⟩
abbrev main_call1_c : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_c_1 : Ref sig .tc := ⟨.hbm, 72, rfl⟩
abbrev main_call1_v5 : Ref sig .tc := ⟨.hbm, 73, rfl⟩
abbrev main_call1_v6 : Ref sig .tc := ⟨.hbm, 74, rfl⟩
abbrev main_call1_c_2 : Ref sig .tc := ⟨.hbm, 75, rfl⟩
abbrev main_call1_v7 : Ref sig .tc := ⟨.hbm, 76, rfl⟩
abbrev main_call1_v8 : Ref sig .tc := ⟨.hbm, 77, rfl⟩
abbrev main_call1_c_3 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_v30 : Ref sig .tc := ⟨.hbm, 85, rfl⟩
abbrev main_c_3 : Ref sig .tc := ⟨.hbm, 86, rfl⟩
abbrev main_v31 : Ref sig .tc := ⟨.hbm, 87, rfl⟩
abbrev main_v32 : Ref sig .tc := ⟨.hbm, 88, rfl⟩
abbrev main_c_4 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_c_5 : Ref sig .tc := ⟨.hbm, 108, rfl⟩
abbrev main_call2_v0 : Ref sig .tc := ⟨.hbm, 109, rfl⟩
abbrev main_call2_c : Ref sig .tc := ⟨.hbm, 110, rfl⟩
abbrev main_call2_v1 : Ref sig .tc := ⟨.hbm, 111, rfl⟩
abbrev main_call2_c_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_c_1 : Ref sig .tc := ⟨.hbm, 116, rfl⟩
abbrev main_call2_v5 : Ref sig .tc := ⟨.hbm, 117, rfl⟩
abbrev main_call2_v6 : Ref sig .tc := ⟨.hbm, 118, rfl⟩
abbrev main_call2_c_2 : Ref sig .tc := ⟨.hbm, 119, rfl⟩
abbrev main_call2_v7 : Ref sig .tc := ⟨.hbm, 120, rfl⟩
abbrev main_call2_v8 : Ref sig .tc := ⟨.hbm, 121, rfl⟩
abbrev main_call2_c_3 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_v12 : Ref sig .tc := ⟨.hbm, 126, rfl⟩
abbrev main_call2_v13 : Ref sig .tc := ⟨.hbm, 127, rfl⟩
abbrev main_call2_v14 : Ref sig .tc := ⟨.hbm, 128, rfl⟩
abbrev main_v51 : Ref sig .tc := ⟨.hbm, 129, rfl⟩
abbrev main_c_6 : Ref sig .tc := ⟨.hbm, 130, rfl⟩
abbrev main_v52 : Ref sig .tc := ⟨.hbm, 131, rfl⟩
abbrev main_v53 : Ref sig .tc := ⟨.hbm, 132, rfl⟩
abbrev main_c_7 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_c_8 : Ref sig .tc := ⟨.hbm, 152, rfl⟩
abbrev main_call3_v0 : Ref sig .tc := ⟨.hbm, 153, rfl⟩
abbrev main_call3_c : Ref sig .tc := ⟨.hbm, 154, rfl⟩
abbrev main_call3_v1 : Ref sig .tc := ⟨.hbm, 155, rfl⟩
abbrev main_call3_c_0 : Ref sig .tc := ⟨.hbm, 156, rfl⟩
abbrev main_call3_v2 : Ref sig .tc := ⟨.hbm, 157, rfl⟩
abbrev main_call3_v3 : Ref sig .tc := ⟨.hbm, 158, rfl⟩
abbrev main_call3_v4 : Ref sig .tc := ⟨.hbm, 159, rfl⟩
abbrev main_call3_c_1 : Ref sig .tc := ⟨.hbm, 160, rfl⟩
abbrev main_call3_v5 : Ref sig .tc := ⟨.hbm, 161, rfl⟩
abbrev main_call3_v6 : Ref sig .tc := ⟨.hbm, 162, rfl⟩
abbrev main_call3_c_2 : Ref sig .tc := ⟨.hbm, 163, rfl⟩
abbrev main_call3_v7 : Ref sig .tc := ⟨.hbm, 164, rfl⟩
abbrev main_call3_v8 : Ref sig .tc := ⟨.hbm, 165, rfl⟩
abbrev main_call3_c_3 : Ref sig .tc := ⟨.hbm, 166, rfl⟩
abbrev main_call3_v9 : Ref sig .tc := ⟨.hbm, 167, rfl⟩
abbrev main_call3_v10 : Ref sig .tc := ⟨.hbm, 168, rfl⟩
abbrev main_call3_v11 : Ref sig .tc := ⟨.hbm, 169, rfl⟩
abbrev main_call3_v12 : Ref sig .tc := ⟨.hbm, 170, rfl⟩
abbrev main_call3_v13 : Ref sig .tc := ⟨.hbm, 171, rfl⟩
abbrev main_call3_v14 : Ref sig .tc := ⟨.hbm, 172, rfl⟩
abbrev main_v72 : Ref sig .tc := ⟨.hbm, 173, rfl⟩
abbrev main_c_9 : Ref sig .tc := ⟨.hbm, 174, rfl⟩
abbrev main_v73 : Ref sig .tc := ⟨.hbm, 175, rfl⟩
abbrev main_v74 : Ref sig .tc := ⟨.hbm, 176, rfl⟩
abbrev main_c_10 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_v78 : Ref sig .tc := ⟨.hbm, 181, rfl⟩
abbrev main_v79 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_cst : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_cst_11 : Ref sig .tc := ⟨.hbm, 203, rfl⟩
abbrev main_v99 : Ref sig .tc := ⟨.hbm, 204, rfl⟩
abbrev main_cst_12 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_cst_13 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S8192x1024x1x1_S8192x1024 : S8192x1024x1x1.ShapeCasts S8192x1024
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S_S8x8 : S_.BroadcastsInDim S8x8 (![] : Fin 0 → Fin S8x8.rank)
  bcast_S8x8_S8x8x1_0_1 : S8x8.BroadcastsInDim S8x8x1 (![0, 1] : Fin 2 → Fin S8x8x1.rank)
  transposes_S512x128x8x8_S512x8x128x8_0_2_1_3 : S512x128x8x8.Transposes [0, 2, 1, 3] S512x8x128x8
  shapeCasts_S512x8x128x8_S4096x1024 : S512x8x128x8.ShapeCasts S4096x1024
  transposes_S4096x1024_S1024x4096_1_0 : S4096x1024.Transposes [1, 0] S1024x4096
  bitsLt_bf16_f32 : FTy.bits .bf16 < FTy.bits .f32
  bcast_S512_S512x8_0 : S512.BroadcastsInDim S512x8 (![0] : Fin 1 → Fin S512x8.rank)
  shapeCasts_S512x8_S4096 : S512x8.ShapeCasts S4096
  shapeCasts_S4096_S1x4096 : S4096.ShapeCasts S1x4096
  transposes_S128x512x8x8_S128x8x512x8_0_2_1_3 : S128x512x8x8.Transposes [0, 2, 1, 3] S128x8x512x8
  shapeCasts_S128x8x512x8_S1024x4096 : S128x8x512x8.ShapeCasts S1024x4096
  transposes_S1024x4096_S4096x1024_1_0 : S1024x4096.Transposes [1, 0] S4096x1024
  bcast_S128_S128x8_0 : S128.BroadcastsInDim S128x8 (![0] : Fin 1 → Fin S128x8.rank)
  shapeCasts_S128x8_S1024 : S128x8.ShapeCasts S1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  shapeCasts_S8192x4096_S8192x8x8x64 : S8192x4096.ShapeCasts S8192x8x8x64
  transposes_S8192x8x8x64_S8192x8x8x64_0_2_1_3 : S8192x8x8x64.Transposes [0, 2, 1, 3] S8192x8x8x64
  bcast_S_S8192x8x8x64 : S_.BroadcastsInDim S8192x8x8x64 (![] : Fin 0 → Fin S8192x8x8x64.rank)
  reducesTo_S8192x8x8x8_S8192x8x8_d3 : S8192x8x8x8.ReducesTo [3] S8192x8x8
  h_S_ : 0 < S_.numel
  bcast_S_S8192x8x8 : S_.BroadcastsInDim S8192x8x8 (![] : Fin 0 → Fin S8192x8x8.rank)
  bcast_S8192x8x8_S8192x8x8x1_0_1_2 : S8192x8x8.BroadcastsInDim S8192x8x8x1 (![0, 1, 2] : Fin 3 → Fin S8192x8x8x1.rank)
  bcast_S8192x8x8x1_S8192x8x8x8_0_1_2_3 : S8192x8x8x1.BroadcastsInDim S8192x8x8x8 (![0, 1, 2, 3] : Fin 4 → Fin S8192x8x8x8.rank)
  shapeCasts_S8192x8x8x64_S8192x4096 : S8192x8x8x64.ShapeCasts S8192x4096
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S8192x1024x1x1 : S8192x1024.ShapeCasts S8192x1024x1x1
  gather_S512x128x8_S8x8x1_S512x128x8x8_01_2_n_n_2_2_5121281_wf : GatherDims.WF S512x128x8 S8x8x1 S512x128x8x8 [0, 1] [2] [] [2] [] 2 ![512, 128, 1]
  gather_S128x512x8_S8x8x1_S128x512x8x8_01_2_n_n_2_2_1285121_wf : GatherDims.WF S128x512x8 S8x8x1 S128x512x8x8 [0, 1] [2] [] [2] [] 2 ![128, 512, 1]
  dot_S512x1024_S1024x4096_S512x4096_1_0_0_1_n_n_wf : DotDims.WF S512x1024 S1024x4096 S512x4096 [1] [0] [0] [1] [] []
  dot_S8192x8x8x64_S8192x8x8x64_S8192x8x8x8_3_3_2_2_01_01_wf : DotDims.WF S8192x8x8x64 S8192x8x8x64 S8192x8x8x8 [3] [3] [2] [2] [0, 1] [0, 1]
  dot_S8192x8x8x8_S8192x8x8x64_S8192x8x8x64_3_2_2_3_01_01_wf : DotDims.WF S8192x8x8x8 S8192x8x8x64 S8192x8x8x64 [3] [2] [2] [3] [0, 1] [0, 1]
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S8192x4096.size a
  hwx1_3 : ∀ i : grid1.Coords, EltTy.bits .f32 = 32 ∨ (Rect.block (s := S8192x4096) S512x4096.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S1024x4096.size a
  hwx2_1 : ∀ i : grid2.Coords, EltTy.bits .bf16 = 32 ∨ (Rect.block (s := S1024x4096) S1024x4096.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4096.size a ≤ S1x4096.size a
  hwx2_2 : ∀ i : grid2.Coords, EltTy.bits .f32 = 32 ∨ (Rect.block (s := S1x4096) S1x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x4096.size a ≤ S8192x4096.size a
  hwx2_3 : ∀ i : grid2.Coords, EltTy.bits .f32 = 32 ∨ (Rect.block (s := S8192x4096) S512x4096.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S8192x4096.size a
  hwx3_0 : ∀ i : grid3.Coords, EltTy.bits .f32 = 32 ∨ (Rect.block (s := S8192x4096) S512x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x1024.size a ≤ S4096x1024.size a
  hwx3_1 : ∀ i : grid3.Coords, EltTy.bits .bf16 = 32 ∨ (Rect.block (s := S4096x1024) S4096x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S8192x1024.size a
  hwx3_3 : ∀ i : grid3.Coords, EltTy.bits .f32 = 32 ∨ (Rect.block (s := S8192x1024) S512x1024.size (cc3_transform_3 i) (hinb3_3 i)).WholeWords (EltTy.packing .f32)

variable [Facts₀]

def gather_S512x128x8_S8x8x1_S512x128x8x8_01_2_n_n_2_2_5121281 : GatherDims S512x128x8 S8x8x1 S512x128x8x8 where
  offsetDims := [0, 1]
  collapsedSliceDims := [2]
  operandBatchingDims := []
  startIndicesBatchingDims := []
  startIndexMap := [2]
  indexVectorDim := 2
  sliceSizes := ![512, 128, 1]
  wf := gather_S512x128x8_S8x8x1_S512x128x8x8_01_2_n_n_2_2_5121281_wf
def gather_S128x512x8_S8x8x1_S128x512x8x8_01_2_n_n_2_2_1285121 : GatherDims S128x512x8 S8x8x1 S128x512x8x8 where
  offsetDims := [0, 1]
  collapsedSliceDims := [2]
  operandBatchingDims := []
  startIndicesBatchingDims := []
  startIndexMap := [2]
  indexVectorDim := 2
  sliceSizes := ![128, 512, 1]
  wf := gather_S128x512x8_S8x8x1_S128x512x8x8_01_2_n_n_2_2_1285121_wf
def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf
def dot_S8192x8x8x64_S8192x8x8x64_S8192x8x8x8_3_3_2_2_01_01 : DotDims S8192x8x8x64 S8192x8x8x64 S8192x8x8x8 where
  lhsContracting := [3]
  rhsContracting := [3]
  lhsNonContracting := [2]
  rhsNonContracting := [2]
  lhsBatch := [0, 1]
  rhsBatch := [0, 1]
  wf := dot_S8192x8x8x64_S8192x8x8x64_S8192x8x8x8_3_3_2_2_01_01_wf
def dot_S8192x8x8x8_S8192x8x8x64_S8192x8x8x64_3_2_2_3_01_01 : DotDims S8192x8x8x8 S8192x8x8x64 S8192x8x8x64 where
  lhsContracting := [3]
  rhsContracting := [2]
  lhsNonContracting := [2]
  rhsNonContracting := [3]
  lhsBatch := [0, 1]
  rhsBatch := [0, 1]
  wf := dot_S8192x8x8x8_S8192x8x8x64_S8192x8x8x64_3_2_2_3_01_01_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v87) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v88) S512x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1024x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v89) S512x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v112) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S4096x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v113) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8192x1024x1x1 : Shape := ⟨4, ![8192, 1024, 1, 1]⟩
abbrev S512x128x8 : Shape := ⟨3, ![512, 128, 8]⟩
abbrev S512 : Shape := ⟨1, ![512]⟩
abbrev S128x512x8 : Shape := ⟨3, ![128, 512, 8]⟩
abbrev S128 : Shape := ⟨1, ![128]⟩
abbrev S8192x1024 : Shape := ⟨2, ![8192, 1024]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S_ : Shape := ⟨0, ![]⟩
abbrev S8x8x1 : Shape := ⟨3, ![8, 8, 1]⟩
abbrev S512x128x8x8 : Shape := ⟨4, ![512, 128, 8, 8]⟩
abbrev S512x8x128x8 : Shape := ⟨4, ![512, 8, 128, 8]⟩
abbrev S4096x1024 : Shape := ⟨2, ![4096, 1024]⟩
abbrev S512x8 : Shape := ⟨2, ![512, 8]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S8192x8x8x64 : Shape := ⟨4, ![8192, 8, 8, 64]⟩
abbrev S8192x8x8x8 : Shape := ⟨4, ![8192, 8, 8, 8]⟩
abbrev S8192x8x8 : Shape := ⟨3, ![8192, 8, 8]⟩
abbrev S8192x8x8x1 : Shape := ⟨4, ![8192, 8, 8, 1]⟩
abbrev S128x512x8x8 : Shape := ⟨4, ![128, 512, 8, 8]⟩
abbrev S128x8x512x8 : Shape := ⟨4, ![128, 8, 512, 8]⟩
abbrev S128x8 : Shape := ⟨2, ![128, 8]⟩
abbrev S1024 : Shape := ⟨1, ![1024]⟩
abbrev S1x1024 : Shape := ⟨2, ![1, 1024]⟩

abbrev nBuf : Space → Nat
  | .hbm => 227
  | .vmem => 0
  | .smem => 0
  | _ => 0

abbrev hbmTy0_0 (i : Nat) : BufTy := match i % 128 with
  | 0 => ⟨S8192x1024x1x1, .f32⟩
  | 1 => ⟨S8192x1024x1x1, .f32⟩
  | 2 => ⟨S8192x1024x1x1, .f32⟩
  | 3 => ⟨S512x128x8, .f32⟩
  | 4 => ⟨S512, .f32⟩
  | 5 => ⟨S512x128x8, .f32⟩
  | 6 => ⟨S512, .f32⟩
  | 7 => ⟨S512x128x8, .f32⟩
  | 8 => ⟨S512, .f32⟩
  | 9 => ⟨S128x512x8, .f32⟩
  | 10 => ⟨S128, .f32⟩
  | 11 => ⟨S8192x1024, .f32⟩
  | 12 => ⟨S8192x1024, .f32⟩
  | 13 => ⟨S8192x1024, .f32⟩
  | 14 => ⟨S8, .i32⟩
  | 15 => ⟨S8x1, .i32⟩
  | 16 => ⟨S1x8, .i32⟩
  | 17 => ⟨S8x8, .i32⟩
  | 18 => ⟨S8x8, .i32⟩
  | 19 => ⟨S8x8, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S8x8, .i32⟩
  | 27 => ⟨S8x8, .i32⟩
  | 28 => ⟨S_, .i32⟩
  | 29 => ⟨S8x8, .i32⟩
  | 30 => ⟨S8x8, .i1⟩
  | 31 => ⟨S_, .i32⟩
  | 32 => ⟨S8x8, .i32⟩
  | 33 => ⟨S8x8, .i1⟩
  | 34 => ⟨S_, .i32⟩
  | 35 => ⟨S_, .i1⟩
  | 36 => ⟨S8x8, .i1⟩
  | 37 => ⟨S8x8, .i1⟩
  | 38 => ⟨S8x8, .i1⟩
  | 39 => ⟨S8x8, .i32⟩
  | 40 => ⟨S8x8, .i32⟩
  | 41 => ⟨S8x8, .i32⟩
  | 42 => ⟨S_, .i32⟩
  | 43 => ⟨S8x8, .i32⟩
  | 44 => ⟨S8x8, .i1⟩
  | 45 => ⟨S_, .i32⟩
  | 46 => ⟨S8x8, .i32⟩
  | 47 => ⟨S8x8, .i32⟩
  | 48 => ⟨S8x8, .i32⟩
  | 49 => ⟨S8x8x1, .i32⟩
  | 50 => ⟨S512x128x8x8, .f32⟩
  | 51 => ⟨S512x8x128x8, .f32⟩
  | 52 => ⟨S4096x1024, .f32⟩
  | 53 => ⟨S512x8, .f32⟩
  | 54 => ⟨S4096, .f32⟩
  | 55 => ⟨S1024x4096, .f32⟩
  | 56 => ⟨S8192x4096, .f32⟩
  | 57 => ⟨S1x4096, .f32⟩
  | 58 => ⟨S8192x4096, .f32⟩
  | 59 => ⟨S8192x4096, .f32⟩
  | 60 => ⟨S8192x8x8x64, .f32⟩
  | 61 => ⟨S8192x8x8x64, .f32⟩
  | 62 => ⟨S8, .i32⟩
  | 63 => ⟨S8x1, .i32⟩
  | 64 => ⟨S1x8, .i32⟩
  | 65 => ⟨S8x8, .i32⟩
  | 66 => ⟨S8x8, .i32⟩
  | 67 => ⟨S8x8, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S8x8, .i32⟩
  | 75 => ⟨S8x8, .i32⟩
  | 76 => ⟨S_, .i32⟩
  | 77 => ⟨S8x8, .i32⟩
  | 78 => ⟨S8x8, .i1⟩
  | 79 => ⟨S_, .i32⟩
  | 80 => ⟨S8x8, .i32⟩
  | 81 => ⟨S8x8, .i1⟩
  | 82 => ⟨S_, .i32⟩
  | 83 => ⟨S_, .i1⟩
  | 84 => ⟨S8x8, .i1⟩
  | 85 => ⟨S8x8, .i1⟩
  | 86 => ⟨S8x8, .i1⟩
  | 87 => ⟨S8x8, .i32⟩
  | 88 => ⟨S8x8, .i32⟩
  | 89 => ⟨S8x8, .i32⟩
  | 90 => ⟨S_, .i32⟩
  | 91 => ⟨S8x8, .i32⟩
  | 92 => ⟨S8x8, .i1⟩
  | 93 => ⟨S_, .i32⟩
  | 94 => ⟨S8x8, .i32⟩
  | 95 => ⟨S8x8, .i32⟩
  | 96 => ⟨S8x8, .i32⟩
  | 97 => ⟨S8x8x1, .i32⟩
  | 98 => ⟨S512x128x8x8, .f32⟩
  | 99 => ⟨S512x8x128x8, .f32⟩
  | 100 => ⟨S4096x1024, .f32⟩
  | 101 => ⟨S512x8, .f32⟩
  | 102 => ⟨S4096, .f32⟩
  | 103 => ⟨S1024x4096, .f32⟩
  | 104 => ⟨S8192x4096, .f32⟩
  | 105 => ⟨S1x4096, .f32⟩
  | 106 => ⟨S8192x4096, .f32⟩
  | 107 => ⟨S8192x4096, .f32⟩
  | 108 => ⟨S8192x8x8x64, .f32⟩
  | 109 => ⟨S8192x8x8x64, .f32⟩
  | 110 => ⟨S8, .i32⟩
  | 111 => ⟨S8x1, .i32⟩
  | 112 => ⟨S1x8, .i32⟩
  | 113 => ⟨S8x8, .i32⟩
  | 114 => ⟨S8x8, .i32⟩
  | 115 => ⟨S8x8, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S8x8, .i32⟩
  | 123 => ⟨S8x8, .i32⟩
  | 124 => ⟨S_, .i32⟩
  | 125 => ⟨S8x8, .i32⟩
  | 126 => ⟨S8x8, .i1⟩
  | 127 => ⟨S_, .i32⟩
  | _ => ⟨S8192x1024x1x1, .f32⟩

abbrev hbmTy0_1 (i : Nat) : BufTy := match i % 128 with
  | 0 => ⟨S8x8, .i32⟩
  | 1 => ⟨S8x8, .i1⟩
  | 2 => ⟨S_, .i32⟩
  | 3 => ⟨S_, .i1⟩
  | 4 => ⟨S8x8, .i1⟩
  | 5 => ⟨S8x8, .i1⟩
  | 6 => ⟨S8x8, .i1⟩
  | 7 => ⟨S8x8, .i32⟩
  | 8 => ⟨S8x8, .i32⟩
  | 9 => ⟨S8x8, .i32⟩
  | 10 => ⟨S_, .i32⟩
  | 11 => ⟨S8x8, .i32⟩
  | 12 => ⟨S8x8, .i1⟩
  | 13 => ⟨S_, .i32⟩
  | 14 => ⟨S8x8, .i32⟩
  | 15 => ⟨S8x8, .i32⟩
  | 16 => ⟨S8x8, .i32⟩
  | 17 => ⟨S8x8x1, .i32⟩
  | 18 => ⟨S512x128x8x8, .f32⟩
  | 19 => ⟨S512x8x128x8, .f32⟩
  | 20 => ⟨S4096x1024, .f32⟩
  | 21 => ⟨S512x8, .f32⟩
  | 22 => ⟨S4096, .f32⟩
  | 23 => ⟨S1024x4096, .f32⟩
  | 24 => ⟨S8192x4096, .f32⟩
  | 25 => ⟨S1x4096, .f32⟩
  | 26 => ⟨S8192x4096, .f32⟩
  | 27 => ⟨S8192x4096, .f32⟩
  | 28 => ⟨S8192x8x8x64, .f32⟩
  | 29 => ⟨S8192x8x8x64, .f32⟩
  | 30 => ⟨S_, .f32⟩
  | 31 => ⟨S8192x8x8x64, .f32⟩
  | 32 => ⟨S8192x8x8x64, .f32⟩
  | 33 => ⟨S8192x8x8x8, .f32⟩
  | 34 => ⟨S_, .f32⟩
  | 35 => ⟨S8192x8x8, .f32⟩
  | 36 => ⟨S_, .f32⟩
  | 37 => ⟨S8192x8x8, .f32⟩
  | 38 => ⟨S8192x8x8, .f32⟩
  | 39 => ⟨S8192x8x8x1, .f32⟩
  | 40 => ⟨S8192x8x8x8, .f32⟩
  | 41 => ⟨S8192x8x8x8, .f32⟩
  | 42 => ⟨S8192x8x8x8, .f32⟩
  | 43 => ⟨S_, .f32⟩
  | 44 => ⟨S8192x8x8, .f32⟩
  | 45 => ⟨S8192x8x8x1, .f32⟩
  | 46 => ⟨S8192x8x8x8, .f32⟩
  | 47 => ⟨S8192x8x8x8, .f32⟩
  | 48 => ⟨S8192x8x8x64, .f32⟩
  | 49 => ⟨S8192x8x8x64, .f32⟩
  | 50 => ⟨S8192x4096, .f32⟩
  | 51 => ⟨S8, .i32⟩
  | 52 => ⟨S8x1, .i32⟩
  | 53 => ⟨S1x8, .i32⟩
  | 54 => ⟨S8x8, .i32⟩
  | 55 => ⟨S8x8, .i32⟩
  | 56 => ⟨S8x8, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S8x8, .i32⟩
  | 64 => ⟨S8x8, .i32⟩
  | 65 => ⟨S_, .i32⟩
  | 66 => ⟨S8x8, .i32⟩
  | 67 => ⟨S8x8, .i1⟩
  | 68 => ⟨S_, .i32⟩
  | 69 => ⟨S8x8, .i32⟩
  | 70 => ⟨S8x8, .i1⟩
  | 71 => ⟨S_, .i32⟩
  | 72 => ⟨S_, .i1⟩
  | 73 => ⟨S8x8, .i1⟩
  | 74 => ⟨S8x8, .i1⟩
  | 75 => ⟨S8x8, .i1⟩
  | 76 => ⟨S8x8, .i32⟩
  | 77 => ⟨S8x8, .i32⟩
  | 78 => ⟨S8x8, .i32⟩
  | 79 => ⟨S_, .i32⟩
  | 80 => ⟨S8x8, .i32⟩
  | 81 => ⟨S8x8, .i1⟩
  | 82 => ⟨S_, .i32⟩
  | 83 => ⟨S8x8, .i32⟩
  | 84 => ⟨S8x8, .i32⟩
  | 85 => ⟨S8x8, .i32⟩
  | 86 => ⟨S8x8x1, .i32⟩
  | 87 => ⟨S128x512x8x8, .f32⟩
  | 88 => ⟨S128x8x512x8, .f32⟩
  | 89 => ⟨S1024x4096, .f32⟩
  | 90 => ⟨S128x8, .f32⟩
  | 91 => ⟨S1024, .f32⟩
  | 92 => ⟨S4096x1024, .f32⟩
  | 93 => ⟨S8192x1024, .f32⟩
  | 94 => ⟨S1x1024, .f32⟩
  | 95 => ⟨S8192x1024, .f32⟩
  | 96 => ⟨S8192x1024, .f32⟩
  | 97 => ⟨S8192x1024x1x1, .f32⟩
  | 98 => ⟨S8192x1024x1x1, .f32⟩
  | _ => ⟨S8192x1024x1x1, .f32⟩

abbrev hbmTy (i : Nat) : BufTy := match i / 128 with
  | 0 => hbmTy0_0 i
  | 1 => hbmTy0_1 i
  | _ => ⟨S8192x1024x1x1, .f32⟩

abbrev bufTy : (tb : Table) → Fin (tcTables nBuf tb) → BufTy
  | .hbm, ⟨i, _⟩ => hbmTy i
  | _, _ => ⟨S8192x1024x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v9 : Ref sig .tc := ⟨.hbm, 41, rfl⟩
abbrev main_c_0 : Ref sig .tc := ⟨.hbm, 42, rfl⟩
abbrev main_v10 : Ref sig .tc := ⟨.hbm, 43, rfl⟩
abbrev main_v11 : Ref sig .tc := ⟨.hbm, 44, rfl⟩
abbrev main_c_1 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_2 : Ref sig .tc := ⟨.hbm, 68, rfl⟩
abbrev main_call1_v0 : Ref sig .tc := ⟨.hbm, 69, rfl⟩
abbrev main_call1_c : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_c_1 : Ref sig .tc := ⟨.hbm, 76, rfl⟩
abbrev main_call1_v5 : Ref sig .tc := ⟨.hbm, 77, rfl⟩
abbrev main_call1_v6 : Ref sig .tc := ⟨.hbm, 78, rfl⟩
abbrev main_call1_c_2 : Ref sig .tc := ⟨.hbm, 79, rfl⟩
abbrev main_call1_v7 : Ref sig .tc := ⟨.hbm, 80, rfl⟩
abbrev main_call1_v8 : Ref sig .tc := ⟨.hbm, 81, rfl⟩
abbrev main_call1_c_3 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_v34 : Ref sig .tc := ⟨.hbm, 89, rfl⟩
abbrev main_c_3 : Ref sig .tc := ⟨.hbm, 90, rfl⟩
abbrev main_v35 : Ref sig .tc := ⟨.hbm, 91, rfl⟩
abbrev main_v36 : Ref sig .tc := ⟨.hbm, 92, rfl⟩
abbrev main_c_4 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_c_5 : Ref sig .tc := ⟨.hbm, 116, rfl⟩
abbrev main_call2_v0 : Ref sig .tc := ⟨.hbm, 117, rfl⟩
abbrev main_call2_c : Ref sig .tc := ⟨.hbm, 118, rfl⟩
abbrev main_call2_v1 : Ref sig .tc := ⟨.hbm, 119, rfl⟩
abbrev main_call2_c_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_c_1 : Ref sig .tc := ⟨.hbm, 124, rfl⟩
abbrev main_call2_v5 : Ref sig .tc := ⟨.hbm, 125, rfl⟩
abbrev main_call2_v6 : Ref sig .tc := ⟨.hbm, 126, rfl⟩
abbrev main_call2_c_2 : Ref sig .tc := ⟨.hbm, 127, rfl⟩
abbrev main_call2_v7 : Ref sig .tc := ⟨.hbm, 128, rfl⟩
abbrev main_call2_v8 : Ref sig .tc := ⟨.hbm, 129, rfl⟩
abbrev main_call2_c_3 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_v12 : Ref sig .tc := ⟨.hbm, 134, rfl⟩
abbrev main_call2_v13 : Ref sig .tc := ⟨.hbm, 135, rfl⟩
abbrev main_call2_v14 : Ref sig .tc := ⟨.hbm, 136, rfl⟩
abbrev main_v59 : Ref sig .tc := ⟨.hbm, 137, rfl⟩
abbrev main_c_6 : Ref sig .tc := ⟨.hbm, 138, rfl⟩
abbrev main_v60 : Ref sig .tc := ⟨.hbm, 139, rfl⟩
abbrev main_v61 : Ref sig .tc := ⟨.hbm, 140, rfl⟩
abbrev main_c_7 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_cst : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_cst_8 : Ref sig .tc := ⟨.hbm, 162, rfl⟩
abbrev main_v81 : Ref sig .tc := ⟨.hbm, 163, rfl⟩
abbrev main_cst_9 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_cst_10 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_c_11 : Ref sig .tc := ⟨.hbm, 185, rfl⟩
abbrev main_call3_v0 : Ref sig .tc := ⟨.hbm, 186, rfl⟩
abbrev main_call3_c : Ref sig .tc := ⟨.hbm, 187, rfl⟩
abbrev main_call3_v1 : Ref sig .tc := ⟨.hbm, 188, rfl⟩
abbrev main_call3_c_0 : Ref sig .tc := ⟨.hbm, 189, rfl⟩
abbrev main_call3_v2 : Ref sig .tc := ⟨.hbm, 190, rfl⟩
abbrev main_call3_v3 : Ref sig .tc := ⟨.hbm, 191, rfl⟩
abbrev main_call3_v4 : Ref sig .tc := ⟨.hbm, 192, rfl⟩
abbrev main_call3_c_1 : Ref sig .tc := ⟨.hbm, 193, rfl⟩
abbrev main_call3_v5 : Ref sig .tc := ⟨.hbm, 194, rfl⟩
abbrev main_call3_v6 : Ref sig .tc := ⟨.hbm, 195, rfl⟩
abbrev main_call3_c_2 : Ref sig .tc := ⟨.hbm, 196, rfl⟩
abbrev main_call3_v7 : Ref sig .tc := ⟨.hbm, 197, rfl⟩
abbrev main_call3_v8 : Ref sig .tc := ⟨.hbm, 198, rfl⟩
abbrev main_call3_c_3 : Ref sig .tc := ⟨.hbm, 199, rfl⟩
abbrev main_call3_v9 : Ref sig .tc := ⟨.hbm, 200, rfl⟩
abbrev main_call3_v10 : Ref sig .tc := ⟨.hbm, 201, rfl⟩
abbrev main_call3_v11 : Ref sig .tc := ⟨.hbm, 202, rfl⟩
abbrev main_call3_v12 : Ref sig .tc := ⟨.hbm, 203, rfl⟩
abbrev main_call3_v13 : Ref sig .tc := ⟨.hbm, 204, rfl⟩
abbrev main_call3_v14 : Ref sig .tc := ⟨.hbm, 205, rfl⟩
abbrev main_v101 : Ref sig .tc := ⟨.hbm, 206, rfl⟩
abbrev main_c_12 : Ref sig .tc := ⟨.hbm, 207, rfl⟩
abbrev main_v102 : Ref sig .tc := ⟨.hbm, 208, rfl⟩
abbrev main_v103 : Ref sig .tc := ⟨.hbm, 209, rfl⟩
abbrev main_c_13 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩

abbrev nD : Nat := 1
abbrev τ : Topo := Topo.v7x

variable {F : FTy → Type} [FloatOps F]

class Facts₀ : Prop where
  shapeCasts_S8192x1024x1x1_S8192x1024 : S8192x1024x1x1.ShapeCasts S8192x1024
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S_S8x8 : S_.BroadcastsInDim S8x8 (![] : Fin 0 → Fin S8x8.rank)
  bcast_S8x8_S8x8x1_0_1 : S8x8.BroadcastsInDim S8x8x1 (![0, 1] : Fin 2 → Fin S8x8x1.rank)
  transposes_S512x128x8x8_S512x8x128x8_0_2_1_3 : S512x128x8x8.Transposes [0, 2, 1, 3] S512x8x128x8
  shapeCasts_S512x8x128x8_S4096x1024 : S512x8x128x8.ShapeCasts S4096x1024
  bcast_S512_S512x8_0 : S512.BroadcastsInDim S512x8 (![0] : Fin 1 → Fin S512x8.rank)
  shapeCasts_S512x8_S4096 : S512x8.ShapeCasts S4096
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x8x8x64 : S8192x4096.ShapeCasts S8192x8x8x64
  transposes_S8192x8x8x64_S8192x8x8x64_0_2_1_3 : S8192x8x8x64.Transposes [0, 2, 1, 3] S8192x8x8x64
  bcast_S_S8192x8x8x64 : S_.BroadcastsInDim S8192x8x8x64 (![] : Fin 0 → Fin S8192x8x8x64.rank)
  reducesTo_S8192x8x8x8_S8192x8x8_d3 : S8192x8x8x8.ReducesTo [3] S8192x8x8
  h_S_ : 0 < S_.numel
  bcast_S_S8192x8x8 : S_.BroadcastsInDim S8192x8x8 (![] : Fin 0 → Fin S8192x8x8.rank)
  bcast_S8192x8x8_S8192x8x8x1_0_1_2 : S8192x8x8.BroadcastsInDim S8192x8x8x1 (![0, 1, 2] : Fin 3 → Fin S8192x8x8x1.rank)
  bcast_S8192x8x8x1_S8192x8x8x8_0_1_2_3 : S8192x8x8x1.BroadcastsInDim S8192x8x8x8 (![0, 1, 2, 3] : Fin 4 → Fin S8192x8x8x8.rank)
  shapeCasts_S8192x8x8x64_S8192x4096 : S8192x8x8x64.ShapeCasts S8192x4096
  transposes_S128x512x8x8_S128x8x512x8_0_2_1_3 : S128x512x8x8.Transposes [0, 2, 1, 3] S128x8x512x8
  shapeCasts_S128x8x512x8_S1024x4096 : S128x8x512x8.ShapeCasts S1024x4096
  bcast_S128_S128x8_0 : S128.BroadcastsInDim S128x8 (![0] : Fin 1 → Fin S128x8.rank)
  shapeCasts_S128x8_S1024 : S128x8.ShapeCasts S1024
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  shapeCasts_S8192x1024_S8192x1024x1x1 : S8192x1024.ShapeCasts S8192x1024x1x1
  gather_S512x128x8_S8x8x1_S512x128x8x8_01_2_n_n_2_2_5121281_wf : GatherDims.WF S512x128x8 S8x8x1 S512x128x8x8 [0, 1] [2] [] [2] [] 2 ![512, 128, 1]
  dot_S8192x1024_S1024x4096_S8192x4096_1_0_0_1_n_n_wf : DotDims.WF S8192x1024 S1024x4096 S8192x4096 [1] [0] [0] [1] [] []
  dot_S8192x8x8x64_S8192x8x8x64_S8192x8x8x8_3_3_2_2_01_01_wf : DotDims.WF S8192x8x8x64 S8192x8x8x64 S8192x8x8x8 [3] [3] [2] [2] [0, 1] [0, 1]
  dot_S8192x8x8x8_S8192x8x8x64_S8192x8x8x64_3_2_2_3_01_01_wf : DotDims.WF S8192x8x8x8 S8192x8x8x64 S8192x8x8x64 [3] [2] [2] [3] [0, 1] [0, 1]
  gather_S128x512x8_S8x8x1_S128x512x8x8_01_2_n_n_2_2_1285121_wf : GatherDims.WF S128x512x8 S8x8x1 S128x512x8x8 [0, 1] [2] [] [2] [] 2 ![128, 512, 1]
  dot_S8192x4096_S4096x1024_S8192x1024_1_0_0_1_n_n_wf : DotDims.WF S8192x4096 S4096x1024 S8192x1024 [1] [0] [0] [1] [] []

variable [Facts₀]

def gather_S512x128x8_S8x8x1_S512x128x8x8_01_2_n_n_2_2_5121281 : GatherDims S512x128x8 S8x8x1 S512x128x8x8 where
  offsetDims := [0, 1]
  collapsedSliceDims := [2]
  operandBatchingDims := []
  startIndicesBatchingDims := []
  startIndexMap := [2]
  indexVectorDim := 2
  sliceSizes := ![512, 128, 1]
  wf := gather_S512x128x8_S8x8x1_S512x128x8x8_01_2_n_n_2_2_5121281_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x8x8x64_S8192x8x8x64_S8192x8x8x8_3_3_2_2_01_01 : DotDims S8192x8x8x64 S8192x8x8x64 S8192x8x8x8 where
  lhsContracting := [3]
  rhsContracting := [3]
  lhsNonContracting := [2]
  rhsNonContracting := [2]
  lhsBatch := [0, 1]
  rhsBatch := [0, 1]
  wf := dot_S8192x8x8x64_S8192x8x8x64_S8192x8x8x8_3_3_2_2_01_01_wf
def dot_S8192x8x8x8_S8192x8x8x64_S8192x8x8x64_3_2_2_3_01_01 : DotDims S8192x8x8x8 S8192x8x8x64 S8192x8x8x64 where
  lhsContracting := [3]
  rhsContracting := [2]
  lhsNonContracting := [2]
  rhsNonContracting := [3]
  lhsBatch := [0, 1]
  rhsBatch := [0, 1]
  wf := dot_S8192x8x8x8_S8192x8x8x64_S8192x8x8x64_3_2_2_3_01_01_wf
def gather_S128x512x8_S8x8x1_S128x512x8x8_01_2_n_n_2_2_1285121 : GatherDims S128x512x8 S8x8x1 S128x512x8x8 where
  offsetDims := [0, 1]
  collapsedSliceDims := [2]
  operandBatchingDims := []
  startIndicesBatchingDims := []
  startIndexMap := [2]
  indexVectorDim := 2
  sliceSizes := ![128, 512, 1]
  wf := gather_S128x512x8_S8x8x1_S128x512x8x8_01_2_n_n_2_2_1285121_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.RefSpec.lean ====
/-
  The attention layer both programs compute, written once as a function of the eleven argument arrays.

  Each projection weight is the circulant expansion of a free parameter w[o, i, g]: the full matrix has the entry
  w[o, i, (go − gi) mod 8] at row o·8+go and column i·8+gi. The index table (go − gi) mod 8 is computed on the
  host (an iota, two broadcasts, a difference, Python's remainder), gathered from, transposed and flattened; the
  bias is each field's bias repeated over the eight group positions. A projection is x · Wᵀ + bias. The three
  projections of q, k and v are split into eight heads over the eight group positions, the scores q·k/8 go
  through a softmax over the last axis, the attention weights multiply v, the heads are merged back, the output
  projection is applied and the first argument is added as the residual. The results are that sum and the
  attention weights.
-/
import proofs.«144160_j59107339927555_1_alg».proof.Proof.Gen.ReferenceIdeal

noncomputable section

namespace Cert.ReferenceIdeal.Spec

open Idealize.ShloMosaic Cert.ReferenceIdeal Cert.ReferenceIdeal.Gen

variable {F : FTy → Type} [FloatOps F]

/-- An array of shape `s` with elements of type `e`. -/
abbrev Arr (F : FTy → Type) [FloatOps F] (s : Shape) (e : EltTy) : Type := (⟨s, e⟩ : BufTy).Contents (Elt F)

/-- `x mod d` entry by entry with the sign of the divisor (a zero divisor read as one): the truncated remainder,
    corrected by `d` where it is non-zero and its sign differs from the divisor's. -/
def pyRem (x : Arr F S8x8 .i32) (d : Arr F S_ .i32) : Arr F S8x8 .i32 :=
  let v0 : Arr F S_ .i32 := id d
  let c : Arr F S_ .i32 := constantI S_ 32 0#32
  let v1 : Arr F S_ .i1 := cmpi .eq v0 c
  let c0 : Arr F S_ .i32 := constantI S_ 32 1#32
  let v2 : Arr F S_ .i32 := select v1 c0 v0
  let v3 : Arr F S8x8 .i32 := broadcastInDim S8x8 ![] bcast_S_S8x8 v2
  let v4 : Arr F S8x8 .i32 := Host.remsi x v3
  let c1 : Arr F S_ .i32 := constantI S_ 32 0#32
  let v5 : Arr F S8x8 .i32 := broadcastInDim S8x8 ![] bcast_S_S8x8 c1
  let v6 : Arr F S8x8 .i1 := cmpi .ne v4 v5
  let c2 : Arr F S_ .i32 := constantI S_ 32 0#32
  let v7 : Arr F S8x8 .i32 := broadcastInDim S8x8 ![] bcast_S_S8x8 c2
  let v8 : Arr F S8x8 .i1 := cmpi .slt v4 v7
  let c3 : Arr F S_ .i32 := constantI S_ 32 0#32
  let v9 : Arr F S_ .i1 := cmpi .slt v2 c3
  let v10 : Arr F S8x8 .i1 := broadcastInDim S8x8 ![] bcast_S_S8x8 v9
  let v11 : Arr F S8x8 .i1 := cmpi .ne v8 v10
  let v12 : Arr F S8x8 .i1 := andi v11 v6
  let v13 : Arr F S8x8 .i32 := broadcastInDim S8x8 ![] bcast_S_S8x8 v2
  let v14 : Arr F S8x8 .i32 := addi v4 v13
  select v12 v14 v4

/-- The gather indices: the table `(go − gi) mod 8` over go, gi < 8, made non-negative, with a trailing unit axis. -/
def idxTab : Arr F S8x8x1 .i32 :=
  let v3 : Arr F S8 .i32 := iotaInDim S8 32 0
  let v4 : Arr F S8x1 .i32 := broadcastInDim S8x1 ![0] bcast_S8_S8x1_0 v3
  let v5 : Arr F S1x8 .i32 := broadcastInDim S1x8 ![1] bcast_S8_S1x8_1 v3
  let v6 : Arr F S8x8 .i32 := broadcastInDim S8x8 ![0, 1] bcast_S8x1_S8x8_0_1 v4
  let v7 : Arr F S8x8 .i32 := broadcastInDim S8x8 ![0, 1] bcast_S1x8_S8x8_0_1 v5
  let v8 : Arr F S8x8 .i32 := subi v6 v7
  let c : Arr F S_ .i32 := constantI S_ 32 8#32
  let v9 : Arr F S8x8 .i32 := pyRem v8 c
  let c0 : Arr F S_ .i32 := constantI S_ 32 0#32
  let v10 : Arr F S8x8 .i32 := broadcastInDim S8x8 ![] bcast_S_S8x8 c0
  let v11 : Arr F S8x8 .i1 := cmpi .slt v9 v10
  let c1 : Arr F S_ .i32 := constantI S_ 32 8#32
  let v12 : Arr F S8x8 .i32 := broadcastInDim S8x8 ![] bcast_S_S8x8 c1
  let v13 : Arr F S8x8 .i32 := addi v9 v12
  let v14 : Arr F S8x8 .i32 := select v11 v13 v9
  broadcastInDim S8x8x1 ![0, 1] bcast_S8x8_S8x8x1_0_1 v14

/-- The circulant expansion of a [512, 128, 8] parameter, as the [4096, 1024] matrix. -/
def expand (w : Arr F S512x128x8 .f32) : Arr F S4096x1024 .f32 :=
  let v16 : Arr F S512x128x8x8 .f32 := Host.gather gather_S512x128x8_S8x8x1_S512x128x8x8_01_2_n_n_2_2_5121281 w (idxTab (F := F))
  let v17 : Arr F S512x8x128x8 .f32 := transpose S512x8x128x8 [0, 2, 1, 3] v16 transposes_S512x128x8x8_S512x8x128x8_0_2_1_3
  shapeCast S4096x1024 v17 shapeCasts_S512x8x128x8_S4096x1024

/-- The transposed expansion, [1024, 4096]: what the activations are multiplied by. -/
def expandT (w : Arr F S512x128x8 .f32) : Arr F S1024x4096 .f32 :=
  transpose S1024x4096 [1, 0] (expand w) transposes_S4096x1024_S1024x4096_1_0

/-- A [512] bias repeated over the eight group positions: [4096]. -/
def rep (b : Arr F S512 .f32) : Arr F S4096 .f32 :=
  shapeCast S4096 (broadcastInDim S512x8 ![0] bcast_S512_S512x8_0 b : Arr F S512x8 .f32) shapeCasts_S512x8_S4096

/-- The output projection's parameter [128, 512, 8] expanded to [1024, 4096]. -/
def expandFc (w : Arr F S128x512x8 .f32) : Arr F S1024x4096 .f32 :=
  let v108 : Arr F S128x512x8x8 .f32 := Host.gather gather_S128x512x8_S8x8x1_S128x512x8x8_01_2_n_n_2_2_1285121 w (idxTab (F := F))
  let v109 : Arr F S128x8x512x8 .f32 := transpose S128x8x512x8 [0, 2, 1, 3] v108 transposes_S128x512x8x8_S128x8x512x8_0_2_1_3
  shapeCast S1024x4096 v109 shapeCasts_S128x8x512x8_S1024x4096

/-- Its transpose, [4096, 1024]. -/
def expandFcT (w : Arr F S128x512x8 .f32) : Arr F S4096x1024 .f32 :=
  transpose S4096x1024 [1, 0] (expandFc w) transposes_S1024x4096_S4096x1024_1_0

/-- A [128] bias repeated over the eight group positions: [1024]. -/
def repFc (b : Arr F S128 .f32) : Arr F S1024 .f32 :=
  shapeCast S1024 (broadcastInDim S128x8 ![0] bcast_S128_S128x8_0 b : Arr F S128x8 .f32) shapeCasts_S128x8_S1024

/-- A projection of the [8192, 1024] activations: `x · wt + b`, the bias added to every row. -/
def proj (x : Arr F S8192x1024 .f32) (wt : Arr F S1024x4096 .f32) (b : Arr F S4096 .f32) : Arr F S8192x4096 .f32 :=
  let v22 : Arr F S8192x4096 .f32 := Host.dotGeneral dot_S8192x1024_S1024x4096_S8192x4096_1_0_0_1_n_n none x wt
  let v23 : Arr F S1x4096 .f32 := broadcastInDim S1x4096 ![1] bcast_S4096_S1x4096_1 b
  let v24 : Arr F S8192x4096 .f32 := broadcastInDim S8192x4096 ![0, 1] bcast_S1x4096_S8192x4096_0_1 v23
  addf v22 v24

/-- The output projection of the [8192, 4096] merged heads: `y · wt + b`. -/
def projFc (y : Arr F S8192x4096 .f32) (wt : Arr F S4096x1024 .f32) (b : Arr F S1024 .f32) : Arr F S8192x1024 .f32 :=
  let v114 : Arr F S8192x1024 .f32 := Host.dotGeneral dot_S8192x4096_S4096x1024_S8192x1024_1_0_0_1_n_n none y wt
  let v115 : Arr F S1x1024 .f32 := broadcastInDim S1x1024 ![1] bcast_S1024_S1x1024_1 b
  let v116 : Arr F S8192x1024 .f32 := broadcastInDim S8192x1024 ![0, 1] bcast_S1x1024_S8192x1024_0_1 v115
  addf v114 v116

/-- A projection split into heads: [8192, 4096] read as [batch, group, head, 64] with group and head exchanged. -/
def heads (p : Arr F S8192x4096 .f32) : Arr F S8192x8x8x64 .f32 :=
  transpose S8192x8x8x64 [0, 2, 1, 3] (shapeCast S8192x8x8x64 p shapeCasts_S8192x4096_S8192x8x8x64 : Arr F S8192x8x8x64 .f32)
    transposes_S8192x8x8x64_S8192x8x8x64_0_2_1_3

/-- The attention weights: the softmax over the last axis of the scores `(q / 8) · k` summed over the 64 features. -/
def attn (qp kp : Arr F S8192x4096 .f32) : Arr F S8192x8x8x8 .f32 :=
  let cst : Arr F S_ .f32 := constant S_ .f32 0x41000000#32
  let v78 : Arr F S8192x8x8x64 .f32 := broadcastInDim S8192x8x8x64 ![] bcast_S_S8192x8x8x64 cst
  let v79 : Arr F S8192x8x8x64 .f32 := Host.divf (heads qp) v78
  let v80 : Arr F S8192x8x8x8 .f32 := Host.dotGeneral dot_S8192x8x8x64_S8192x8x8x64_S8192x8x8x8_3_3_2_2_01_01 none v79 (heads kp)
  let cst8 : Arr F S_ .f32 := constant S_ .f32 0xFF800000#32
  let v81 : Arr F S8192x8x8 .f32 := Host.reduce FloatOps.maximumf v80 cst8 reducesTo_S8192x8x8x8_S8192x8x8_d3 h_S_
  let cst9 : Arr F S_ .f32 := constant S_ .f32 0xFF800000#32
  let v82 : Arr F S8192x8x8 .f32 := broadcastInDim S8192x8x8 ![] bcast_S_S8192x8x8 cst9
  let v83 : Arr F S8192x8x8 .f32 := maximumf v82 v81
  let v84 : Arr F S8192x8x8x1 .f32 := broadcastInDim S8192x8x8x1 ![0, 1, 2] bcast_S8192x8x8_S8192x8x8x1_0_1_2 v83
  let v85 : Arr F S8192x8x8x8 .f32 := broadcastInDim S8192x8x8x8 ![0, 1, 2, 3] bcast_S8192x8x8x1_S8192x8x8x8_0_1_2_3 v84
  let v86 : Arr F S8192x8x8x8 .f32 := subf v80 v85
  let v87 : Arr F S8192x8x8x8 .f32 := Host.exp v86
  let cst10 : Arr F S_ .f32 := constant S_ .f32 0x00000000#32
  let v88 : Arr F S8192x8x8 .f32 := Host.reduceAdd v87 cst10 reducesTo_S8192x8x8x8_S8192x8x8_d3 h_S_
  let v89 : Arr F S8192x8x8x1 .f32 := broadcastInDim S8192x8x8x1 ![0, 1, 2] bcast_S8192x8x8_S8192x8x8x1_0_1_2 v88
  let v90 : Arr F S8192x8x8x8 .f32 := broadcastInDim S8192x8x8x8 ![0, 1, 2, 3] bcast_S8192x8x8x1_S8192x8x8x8_0_1_2_3 v89
  Host.divf v87 v90

/-- The attention weights applied to the value heads, the heads merged back to [8192, 4096]. -/
def merge (a : Arr F S8192x8x8x8 .f32) (vp : Arr F S8192x4096 .f32) : Arr F S8192x4096 .f32 :=
  let v92 : Arr F S8192x8x8x64 .f32 := Host.dotGeneral dot_S8192x8x8x8_S8192x8x8x64_S8192x8x8x64_3_2_2_3_01_01 none a (heads vp)
  let v93 : Arr F S8192x8x8x64 .f32 := transpose S8192x8x8x64 [0, 2, 1, 3] v92 transposes_S8192x8x8x64_S8192x8x8x64_0_2_1_3
  shapeCast S8192x4096 v93 shapeCasts_S8192x8x8x64_S8192x4096

/-- An argument [8192, 1024, 1, 1] read as the [8192, 1024] matrix. -/
def flat (x : Arr F S8192x1024x1x1 .f32) : Arr F S8192x1024 .f32 :=
  shapeCast S8192x1024 x shapeCasts_S8192x1024x1x1_S8192x1024

/-- The output projection's result read back as [8192, 1024, 1, 1], plus the residual. -/
def residual (y : Arr F S8192x1024 .f32) (q : Arr F S8192x1024x1x1 .f32) : Arr F S8192x1024x1x1 .f32 :=
  addf (shapeCast S8192x1024x1x1 y shapeCasts_S8192x1024_S8192x1024x1x1 : Arr F S8192x1024x1x1 .f32) q

/-- The three projections of the arguments q, k, v (each argument flattened, its weight expanded, its bias repeated). -/
def qkv (x : Arr F S8192x1024x1x1 .f32) (w : Arr F S512x128x8 .f32) (b : Arr F S512 .f32) : Arr F S8192x4096 .f32 :=
  proj (flat x) (expandT w) (rep b)

/-- The second result: the attention weights, a function of q, k and their projection parameters. -/
def attnOut (q k : Arr F S8192x1024x1x1 .f32) (wq : Arr F S512x128x8 .f32) (bq : Arr F S512 .f32)
    (wk : Arr F S512x128x8 .f32) (bk : Arr F S512 .f32) : Arr F S8192x8x8x8 .f32 :=
  attn (qkv q wq bq) (qkv k wk bk)

/-- The first result: the output projection of the attended values, plus q. -/
def out (q k v : Arr F S8192x1024x1x1 .f32) (wq : Arr F S512x128x8 .f32) (bq : Arr F S512 .f32)
    (wk : Arr F S512x128x8 .f32) (bk : Arr F S512 .f32) (wv : Arr F S512x128x8 .f32) (bv : Arr F S512 .f32)
    (wfc : Arr F S128x512x8 .f32) (bfc : Arr F S128 .f32) : Arr F S8192x1024x1x1 .f32 :=
  residual (projFc (merge (attnOut q k wq bq wk bk) (qkv v wv bv)) (expandFcT wfc) (repFc bfc)) q

end Cert.ReferenceIdeal.Spec

end
-- ==== Proof.KernelRun.lean ====
/-
  The idealized kernel program's run with its two results named.

  The program's @main is a chain of host stretches and four kernel regions; the contents of every TensorCore
  buffer at the end of the chain is the fold `W15` of the stretches' operations and the regions' write-backs over
  the launch memory. Every weakly fair execution terminates without a fault in a state whose unscoped buffers hold
  that fold: in particular the two result buffers do, and the eleven argument buffers end as launched.
-/
import proofs.«144160_j59107339927555_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from the memory `m` terminates without a fault, with the two result
    buffers at the final fold `W15` of the host operations and the regions' write-backs, and the arguments unchanged. -/
theorem run : θ_run defs (onTc (τ := τ) (main (F := F))) ⟨m, fun _ => 0, ρ⟩ (fun r => ∀ c : Dev nD,
      r.2.mem ((c.tc : Thread nD τ).loc main_v115) = W15 m ρ c (Proc.devRef .tc main_v115)
      ∧ r.2.mem ((c.tc : Thread nD τ).loc main_v109) = W15 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v115 (by decide)),
       h c _ (mem_uc main_v109 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c)⟩)

end Cert.KernelIdeal.KRun

end
-- ==== Proof.LinearSpec.lean ====
/-
  The specification of one linear layer over the extended reals.

  For a [B, K] array x, a [K, N] array w and a one-row [1, N] array b, the [B, N] array  x·w + b  has, at (i, j),

      (∑ k : Fin K, x (i, k) * w (k, j)) + b (0, j).

  The sum is the finite sum of extended reals in the order `Finset.sum` gives it; nothing here asks that the entries
  be finite. Row i of the result reads row i of x only, so a block of consecutive rows of the result is the same map
  applied to that block of rows of x (`lin_rows`).
-/
import Idealize.ShloMosaic.PureOps.Ideal
import Idealize.ShloMosaic.Lib.ValueIdx

noncomputable section

open scoped BigOperators

namespace Cert.LinearSpec

open Idealize.ShloMosaic Idealize.ShloMosaic.ValueIdx

/-- `x·w + b`: entry (i, j) is the sum over the contracted coordinate k of x(i, k)·w(k, j), plus the bias row's
    entry j. The three extents are explicit so that a use names its literal shapes. -/
def lin (B K N : Nat) (x : (⟨2, ![B, K]⟩ : Shape).Idx → EReal) (w : (⟨2, ![K, N]⟩ : Shape).Idx → EReal)
    (b : (⟨2, ![1, N]⟩ : Shape).Idx → EReal) : (⟨2, ![B, N]⟩ : Shape).Idx → EReal :=
  fun i => (∑ k : Fin K, x (ix2 (n0 := B) (n1 := K) (i 0) k) * w (ix2 (n0 := K) (n1 := N) k (i 1)))
    + b (ix2 (n0 := 1) (n1 := N) 0 (i 1))

/-- The entry at row p, column q. -/
theorem lin_apply (B K N : Nat) (x : (⟨2, ![B, K]⟩ : Shape).Idx → EReal) (w : (⟨2, ![K, N]⟩ : Shape).Idx → EReal)
    (b : (⟨2, ![1, N]⟩ : Shape).Idx → EReal) (p : Fin B) (q : Fin N) :
    lin B K N x w b (ix2 p q) = (∑ k : Fin K, x (ix2 p k) * w (ix2 k q)) + b (ix2 0 q) := rfl

/-- Rows are independent: if row r of a block xb is row p of x, the block's entry (r, q) under the same w and b is
    the whole array's entry (p, q). -/
theorem lin_rows (B K N R : Nat) (x : (⟨2, ![B, K]⟩ : Shape).Idx → EReal) (w : (⟨2, ![K, N]⟩ : Shape).Idx → EReal)
    (b : (⟨2, ![1, N]⟩ : Shape).Idx → EReal) (xb : (⟨2, ![R, K]⟩ : Shape).Idx → EReal) (r : Fin R) (p : Fin B) (q : Fin N)
    (hx : ∀ k : Fin K, xb (ix2 r k) = x (ix2 p k)) :
    (∑ k : Fin K, xb (ix2 r k) * w (ix2 k q)) + b (ix2 0 q) = lin B K N x w b (ix2 p q) := by
  rw [lin_apply]
  exact congrArg (· + b (ix2 0 q)) (Finset.sum_congr rfl fun k _ => by rw [hx k])

/-- The two layers of this program, at their literal extents: 8192 rows, 1024 → 4096 and 4096 → 1024. -/
abbrev lin4096 := lin 8192 1024 4096
abbrev lin1024 := lin 8192 4096 1024

end Cert.LinearSpec

end
-- ==== Proof.LinBridge.lean ====
/-
  A projection of the specification is the linear layer  x·w + b  entry by entry.

  The specification's projection is the host's matrix product of the activations with the transposed weight, plus the
  bias read as one row and repeated down the rows. At (p, q) the product is the sum over the contracted coordinate
  k of x(p, k)·wt(k, q), and the repeated row reads b(q). The kernel's operands are the same weight after a change of
  float format, which is the identity on extended reals, and the same bias reshaped from [n] to [1, n], which reads
  b(q) at (0, q). So both are the array whose entry (p, q) is (∑ k, x(p, k)·wt(k, q)) + b(q).
-/
import proofs.«144160_j59107339927555_1_alg».proof.Proof.RefSpec
import proofs.«144160_j59107339927555_1_alg».proof.Proof.LinearSpec
import Idealize.ShloMosaic.Lib.StackMember
import Idealize.ShloMosaic.Lib.ValueLayout
import Idealize.ShloMosaic.Lib.Pipeline.Value

noncomputable section

open scoped BigOperators

namespace Cert.ReferenceIdeal.LinBridge

open Idealize.ShloMosaic Idealize.ShloMosaic.ValueIdx Cert.ReferenceIdeal Cert.ReferenceIdeal.Gen

/-- The dimension numbers of the two projections' products are the plain rows × inner by inner × columns product. -/
theorem dims4096 : dot_S8192x1024_S1024x4096_S8192x4096_1_0_0_1_n_n = DotDims.plain 8192 1024 4096 := rfl
theorem dims1024 : dot_S8192x4096_S4096x1024_S8192x1024_1_0_0_1_n_n = DotDims.plain 8192 4096 1024 := rfl

/-- A length-n bias read as one row and repeated down the rows has, at (p, q), the entry q. -/
theorem bias4096_apply (b : FVec Ideal S4096 .f32) (p : Fin 8192) (q : Fin 4096) :
    broadcastInDim S8192x4096 ![0, 1] bcast_S1x4096_S8192x4096_0_1
      (broadcastInDim S1x4096 ![1] bcast_S4096_S1x4096_1 b) (ix2 p q) = b (ix1 q) := by
  rw [broadcastInDim_apply _ _ _ (ix2 p q) (ix2 (0 : Fin 1) q) (fun a => by
        match a with
        | ⟨0, _⟩ => rfl
        | ⟨1, _⟩ => rfl),
      broadcastInDim_apply _ _ _ (ix2 (0 : Fin 1) q) (ix1 q) (fun a => by
        match a with
        | ⟨0, _⟩ => rfl)]

theorem bias1024_apply (b : FVec Ideal S1024 .f32) (p : Fin 8192) (q : Fin 1024) :
    broadcastInDim S8192x1024 ![0, 1] bcast_S1x1024_S8192x1024_0_1
      (broadcastInDim S1x1024 ![1] bcast_S1024_S1x1024_1 b) (ix2 p q) = b (ix1 q) := by
  rw [broadcastInDim_apply _ _ _ (ix2 p q) (ix2 (0 : Fin 1) q) (fun a => by
        match a with
        | ⟨0, _⟩ => rfl
        | ⟨1, _⟩ => rfl),
      broadcastInDim_apply _ _ _ (ix2 (0 : Fin 1) q) (ix1 q) (fun a => by
        match a with
        | ⟨0, _⟩ => rfl)]

/-- The q, k, v projections: the specification's projection is the linear layer of the same activations, the weight
    in the narrower float format and the bias as a one-row array. -/
theorem proj_eq (x : FVec Ideal S8192x1024 .f32) (wt : FVec Ideal S1024x4096 .f32) (b : FVec Ideal S4096 .f32)
    (hb : FTy.bits .bf16 < FTy.bits .f32) (hc : S4096.ShapeCasts S1x4096) :
    Spec.proj (F := Ideal) x wt b = Cert.LinearSpec.lin4096 x (truncf .bf16 wt hb) (shapeCast S1x4096 b hc) := by
  funext i
  obtain ⟨p, q, rfl⟩ : ∃ (p : Fin 8192) (q : Fin 4096), i = ix2 p q := ⟨i 0, i 1, eq_ix2 i⟩
  refine Eq.trans ?_ (Cert.LinearSpec.lin_apply 8192 1024 4096 x (truncf .bf16 wt hb) (shapeCast S1x4096 b hc) p q).symm
  show addf (Host.dotGeneral dot_S8192x1024_S1024x4096_S8192x4096_1_0_0_1_n_n none x wt)
      (broadcastInDim S8192x4096 ![0, 1] bcast_S1x4096_S8192x4096_0_1
        (broadcastInDim S1x4096 ![1] bcast_S4096_S1x4096_1 b)) (ix2 p q) = _
  rw [addf_apply, dims4096, StackMember.dotGeneral_plain_apply, bias4096_apply, shapeCast_a_1a_apply]
  rfl

/-- The output projection, likewise. -/
theorem projFc_eq (y : FVec Ideal S8192x4096 .f32) (wt : FVec Ideal S4096x1024 .f32) (b : FVec Ideal S1024 .f32)
    (hb : FTy.bits .bf16 < FTy.bits .f32) (hc : S1024.ShapeCasts S1x1024) :
    Spec.projFc (F := Ideal) y wt b = Cert.LinearSpec.lin1024 y (truncf .bf16 wt hb) (shapeCast S1x1024 b hc) := by
  funext i
  obtain ⟨p, q, rfl⟩ : ∃ (p : Fin 8192) (q : Fin 1024), i = ix2 p q := ⟨i 0, i 1, eq_ix2 i⟩
  refine Eq.trans ?_ (Cert.LinearSpec.lin_apply 8192 4096 1024 y (truncf .bf16 wt hb) (shapeCast S1x1024 b hc) p q).symm
  show addf (Host.dotGeneral dot_S8192x4096_S4096x1024_S8192x1024_1_0_0_1_n_n none y wt)
      (broadcastInDim S8192x1024 ![0, 1] bcast_S1x1024_S8192x1024_0_1
        (broadcastInDim S1x1024 ![1] bcast_S1024_S1x1024_1 b)) (ix2 p q) = _
  rw [addf_apply, dims1024, StackMember.dotGeneral_plain_apply, bias1024_apply, shapeCast_a_1a_apply]
  rfl

end Cert.ReferenceIdeal.LinBridge

end
-- ==== Proof.FoldPass.lean ====
/-
  The buffers that pass through a region, or through a stretch of host operations, unchanged: a region rewrites
  only its own four arrays, and a stretch of host operations only its result buffers. Each input array of a later
  region therefore still holds at that region's entry what it held at the first region's entry; each projection's
  output survives the later regions; the attention weights survive the last region and the last stretch; and the
  first argument is still the launch memory's when the residual is added.
-/
import proofs.«144160_j59107339927555_1_alg».proof.Proof.Gen.KernelIdeal.Frame
import proofs.«144160_j59107339927555_1_alg».proof.Proof.RefSpec

set_option maxRecDepth 16384

noncomputable section

namespace Cert.KernelIdeal.Fold

open Idealize.ShloMosaic Idealize.ShloMosaic.TcCoe
open Cert.KernelIdeal Cert.KernelIdeal.Gen

variable {F : FTy → Type} [FloatOps F]

/-- A buffer that no operation of a literal line of host operations writes keeps its contents: the goal
    `StableHlo.after ops V b = V b` for the line named. -/
macro "host_skip " h:ident : tactic =>
  `(tactic| (refine StableHlo.after_of_forall_not_mem _ _ (List.forall_iff_forall_mem.mp ?_)
             simp only [$h:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

variable (m : (ℓ : Loc nD τ sig) → Buf (Elt F) ℓ) (ρ : Dev nD → PrngReg) (c : Dev nD)

/-! ## Region 1's inputs pass through region 0 -/

theorem V10_main_v1 : V10 m ρ c main_v1 = V9 m ρ c main_v1 := W10_of_ne m ρ c main_v1 (by decide)
theorem V10_main_v41 : V10 m ρ c main_v41 = V9 m ρ c main_v41 := W10_of_ne m ρ c main_v41 (by decide)
theorem V10_main_v44 : V10 m ρ c main_v44 = V9 m ρ c main_v44 := W10_of_ne m ρ c main_v44 (by decide)

/-! ## Region 2's inputs pass through regions 0 and 1 -/

theorem V11_main_v2 : V11 m ρ c main_v2 = V9 m ρ c main_v2 :=
  (W11_of_ne m ρ c main_v2 (by decide)).trans (W10_of_ne m ρ c main_v2 (by decide))
theorem V11_main_v62 : V11 m ρ c main_v62 = V9 m ρ c main_v62 :=
  (W11_of_ne m ρ c main_v62 (by decide)).trans (W10_of_ne m ρ c main_v62 (by decide))
theorem V11_main_v65 : V11 m ρ c main_v65 = V9 m ρ c main_v65 :=
  (W11_of_ne m ρ c main_v65 (by decide)).trans (W10_of_ne m ρ c main_v65 (by decide))

/-! ## The first two projections pass through the later projection regions -/

theorem V12_main_v87 : V12 m ρ c main_v87 = V10 m ρ c main_v87 :=
  (W12_of_ne m ρ c main_v87 (by decide)).trans (W11_of_ne m ρ c main_v87 (by decide))
theorem V12_main_v88 : V12 m ρ c main_v88 = V11 m ρ c main_v88 := W12_of_ne m ρ c main_v88 (by decide)

/-! ## Region 3's weight and bias pass through the three projection regions and the attention stretch -/

theorem V12_main_v83 : V12 m ρ c main_v83 = V9 m ρ c main_v83 :=
  ((W12_of_ne m ρ c main_v83 (by decide)).trans (W11_of_ne m ρ c main_v83 (by decide))).trans
    (W10_of_ne m ρ c main_v83 (by decide))
theorem V12_main_v86 : V12 m ρ c main_v86 = V9 m ρ c main_v86 :=
  ((W12_of_ne m ρ c main_v86 (by decide)).trans (W11_of_ne m ρ c main_v86 (by decide))).trans
    (W10_of_ne m ρ c main_v86 (by decide))
theorem V13_main_v83 : V13 m ρ c main_v83 = V9 m ρ c main_v83 :=
  (show StableHlo.after hostOps3 (W12 m ρ c) (Proc.devRef .tc main_v83) = W12 m ρ c (Proc.devRef .tc main_v83) by
    host_skip hostOps3).trans (V12_main_v83 m ρ c)
theorem V13_main_v86 : V13 m ρ c main_v86 = V9 m ρ c main_v86 :=
  (show StableHlo.after hostOps3 (W12 m ρ c) (Proc.devRef .tc main_v86) = W12 m ρ c (Proc.devRef .tc main_v86) by
    host_skip hostOps3).trans (V12_main_v86 m ρ c)

/-! ## The attention weights pass through region 3 and the last stretch -/

theorem W14_main_v109 : W14 m ρ c (Proc.devRef .tc main_v109) = W13 m ρ c (Proc.devRef .tc main_v109) :=
  W14_of_ne m ρ c main_v109 (by decide)
theorem W15_main_v109 : W15 m ρ c (Proc.devRef .tc main_v109) = W13 m ρ c (Proc.devRef .tc main_v109) :=
  (show StableHlo.after hostOps4 (W14 m ρ c) (Proc.devRef .tc main_v109) = W14 m ρ c (Proc.devRef .tc main_v109) by
    host_skip hostOps4).trans (W14_main_v109 m ρ c)

/-! ## The first argument is the launch memory's when the residual is added -/

theorem W14_main_arg0 : W14 m ρ c (Proc.devRef .tc main_arg0) = m ((c : Thread nD τ).loc main_arg0) :=
  (show W14 m ρ c (Proc.devRef .tc main_arg0) = StableHlo.after hostOps4 (W14 m ρ c) (Proc.devRef .tc main_arg0) by
    symm; host_skip hostOps4).trans (W15_main_arg0 m ρ c)

/-! ## The last stretch: the output projection's result, reshaped, plus the first argument -/

/-- The last stretch over any contents: its result buffer holds the residual sum of what the output projection's
    buffer and the first argument's buffer held. -/
theorem after_hostOps4_main_v115 (Wv : Valuation τ sig (Elt F)) :
    StableHlo.after hostOps4 Wv (Proc.devRef .tc main_v115)
      = Cert.ReferenceIdeal.Spec.residual (F := F) (Wv (Proc.devRef .tc main_v113)) (Wv (Proc.devRef .tc main_arg0)) := by
  after_results; rfl

theorem W15_main_v115 :
    W15 m ρ c (Proc.devRef .tc main_v115)
      = Cert.ReferenceIdeal.Spec.residual (F := F) (W14 m ρ c (Proc.devRef .tc main_v113)) (m ((c : Thread nD τ).loc main_arg0)) := by
  rw [← W14_main_arg0 m ρ c]; exact after_hostOps4_main_v115 (W14 m ρ c)

end Cert.KernelIdeal.Fold

end
-- ==== Proof.FoldStretch.lean ====
/-
  Each stretch of host operations before the first region, read as a function of the buffer contents it starts from.
  The circulant index table (go − gi) mod 8 is built four times, once per weight, by the same operations: an iota, two
  broadcasts and a difference (the table of differences), Python's remainder by the constant 8, and a last
  correction to the non-negative range. A weight is gathered from its parameter by that table, transposed and
  flattened, transposed again and rounded to bf16; a bias is repeated over the eight group positions. Every lemma
  here is over ARBITRARY starting contents, so nothing in it depends on the run.
-/
import proofs.«144160_j59107339927555_1_alg».proof.Proof.Gen.KernelIdeal.Frame
import proofs.«144160_j59107339927555_1_alg».proof.Proof.RefSpec

set_option maxRecDepth 16384

noncomputable section

namespace Cert.KernelIdeal.Fold

open Idealize.ShloMosaic Idealize.ShloMosaic.TcCoe
open Cert.KernelIdeal Cert.KernelIdeal.Gen

variable {F : FTy → Type} [FloatOps F]

/-- An array of shape `s` with elements of type `e`. -/
local notation "Arr" => Cert.ReferenceIdeal.Spec.Arr

/-- The table of differences go − gi over go, gi < 8. -/
def diffTab : Arr F S8x8 .i32 :=
  let i : Arr F S8 .i32 := iotaInDim S8 32 0
  subi (broadcastInDim S8x8 ![0, 1] bcast_S8x1_S8x8_0_1 (broadcastInDim S8x1 ![0] bcast_S8_S8x1_0 i : Arr F S8x1 .i32) : Arr F S8x8 .i32)
    (broadcastInDim S8x8 ![0, 1] bcast_S1x8_S8x8_0_1 (broadcastInDim S1x8 ![1] bcast_S8_S1x8_1 i : Arr F S1x8 .i32) : Arr F S8x8 .i32)

/-- The constant 8, as a scalar array. -/
def eight : Arr F S_ .i32 := constantI S_ 32 8#32

/-- The last correction of a remainder table to the range 0 … 7, with a trailing unit axis: the gather's indices. -/
def idxOf (r : Arr F S8x8 .i32) : Arr F S8x8x1 .i32 :=
  let z : Arr F S8x8 .i32 := broadcastInDim S8x8 ![] bcast_S_S8x8 (constantI S_ 32 0#32 : Arr F S_ .i32)
  let e : Arr F S8x8 .i32 := broadcastInDim S8x8 ![] bcast_S_S8x8 (constantI S_ 32 8#32 : Arr F S_ .i32)
  broadcastInDim S8x8x1 ![0, 1] bcast_S8x8_S8x8x1_0_1 (select (cmpi .slt r z : Arr F S8x8 .i1) (addi r e) r : Arr F S8x8 .i32)

/-- The remainder table: the differences mod 8 with the divisor's sign. -/
def remTab : Arr F S8x8 .i32 := Cert.ReferenceIdeal.Spec.pyRem (F := F) (diffTab (F := F)) (eight (F := F))

/-- The reference's index table is the corrected remainder table. -/
theorem idxTab_eq : Cert.ReferenceIdeal.Spec.idxTab (F := F) = idxOf (F := F) (remTab (F := F)) := rfl

/-- A [512, 128, 8] parameter gathered by an index table, transposed and flattened to [4096, 1024]. -/
def expandWith (w : Arr F S512x128x8 .f32) (idx : Arr F S8x8x1 .i32) : Arr F S4096x1024 .f32 :=
  shapeCast S4096x1024
    (transpose S512x8x128x8 [0, 2, 1, 3]
      (Host.gather gather_S512x128x8_S8x8x1_S512x128x8x8_01_2_n_n_2_2_5121281 w idx : Arr F S512x128x8x8 .f32)
      transposes_S512x128x8x8_S512x8x128x8_0_2_1_3 : Arr F S512x8x128x8 .f32)
    shapeCasts_S512x8x128x8_S4096x1024

/-- A [128, 512, 8] parameter gathered by an index table, transposed and flattened to [1024, 4096]. -/
def expandFcWith (w : Arr F S128x512x8 .f32) (idx : Arr F S8x8x1 .i32) : Arr F S1024x4096 .f32 :=
  shapeCast S1024x4096
    (transpose S128x8x512x8 [0, 2, 1, 3]
      (Host.gather gather_S128x512x8_S8x8x1_S128x512x8x8_01_2_n_n_2_2_1285121 w idx : Arr F S128x512x8x8 .f32)
      transposes_S128x512x8x8_S128x8x512x8_0_2_1_3 : Arr F S128x8x512x8 .f32)
    shapeCasts_S128x8x512x8_S1024x4096

attribute [local irreducible] Host.gather in
/-- Gathered by the reference's table, the expansion is the reference's. -/
theorem expandWith_idxTab (w : Arr F S512x128x8 .f32) :
    (transpose S1024x4096 [1, 0] (expandWith w (idxOf (F := F) (remTab (F := F)))) transposes_S4096x1024_S1024x4096_1_0 : Arr F S1024x4096 .f32)
      = Cert.ReferenceIdeal.Spec.expandT w := rfl

attribute [local irreducible] Host.gather in
theorem expandFcWith_idxTab (w : Arr F S128x512x8 .f32) :
    (transpose S4096x1024 [1, 0] (expandFcWith w (idxOf (F := F) (remTab (F := F)))) transposes_S1024x4096_S4096x1024_1_0 : Arr F S4096x1024 .f32)
      = Cert.ReferenceIdeal.Spec.expandFcT w := rfl

variable (Wv : Valuation τ sig (Elt F))

/-! ## The first stretch: the three activations flattened, the first table of differences, the constant 8 -/

theorem after0_main_v0 : StableHlo.after hostOps0 Wv (Proc.devRef .tc main_v0) = Cert.ReferenceIdeal.Spec.flat (F := F) (Wv (Proc.devRef .tc main_arg0)) := by
  after_results_simp; rfl
theorem after0_main_v1 : StableHlo.after hostOps0 Wv (Proc.devRef .tc main_v1) = Cert.ReferenceIdeal.Spec.flat (F := F) (Wv (Proc.devRef .tc main_arg1)) := by
  after_results_simp; rfl
theorem after0_main_v2 : StableHlo.after hostOps0 Wv (Proc.devRef .tc main_v2) = Cert.ReferenceIdeal.Spec.flat (F := F) (Wv (Proc.devRef .tc main_arg2)) := by
  after_results_simp; rfl
theorem after0_main_v8 : StableHlo.after hostOps0 Wv (Proc.devRef .tc main_v8) = diffTab (F := F) := by
  after_results_simp; rfl
theorem after0_main_c : StableHlo.after hostOps0 Wv (Proc.devRef .tc main_c) = eight (F := F) := by
  after_results_simp; rfl

/-! ## The four remainder stretches -/

theorem after0_1_main_v9 : StableHlo.after hostOps0_1 Wv (Proc.devRef .tc main_v9) = Cert.ReferenceIdeal.Spec.pyRem (F := F) (Wv (Proc.devRef .tc main_v8)) (Wv (Proc.devRef .tc main_c)) := by
  after_results_simp; simp only [cast_eq]; rfl

theorem after0_3_main_v30 : StableHlo.after hostOps0_3 Wv (Proc.devRef .tc main_v30) = Cert.ReferenceIdeal.Spec.pyRem (F := F) (Wv (Proc.devRef .tc main_v29)) (Wv (Proc.devRef .tc main_c_2)) := by
  after_results_simp; simp only [cast_eq]; rfl

theorem after0_5_main_v51 : StableHlo.after hostOps0_5 Wv (Proc.devRef .tc main_v51) = Cert.ReferenceIdeal.Spec.pyRem (F := F) (Wv (Proc.devRef .tc main_v50)) (Wv (Proc.devRef .tc main_c_5)) := by
  after_results_simp; simp only [cast_eq]; rfl

theorem after0_7_main_v72 : StableHlo.after hostOps0_7 Wv (Proc.devRef .tc main_v72) = Cert.ReferenceIdeal.Spec.pyRem (F := F) (Wv (Proc.devRef .tc main_v71)) (Wv (Proc.devRef .tc main_c_8)) := by
  after_results_simp; simp only [cast_eq]; rfl

/-! ## The three stretches that build a projection's weight and bias and start the next table -/

theorem after0_2_main_v15 : StableHlo.after hostOps0_2 Wv (Proc.devRef .tc main_v15) = idxOf (F := F) (Wv (Proc.devRef .tc main_v9)) := by
  after_results_simp; rfl
attribute [local irreducible] Host.gather in
theorem after0_2_main_v20 :
    StableHlo.after hostOps0_2 Wv (Proc.devRef .tc main_v20)
      = truncf .bf16 (transpose S1024x4096 [1, 0] (expandWith (Wv (Proc.devRef .tc main_arg3)) (idxOf (F := F) (Wv (Proc.devRef .tc main_v9))))
          transposes_S4096x1024_S1024x4096_1_0 : Arr F S1024x4096 .f32) bitsLt_bf16_f32 := by
  after_results_simp; rfl
theorem after0_2_main_v23 :
    StableHlo.after hostOps0_2 Wv (Proc.devRef .tc main_v23)
      = shapeCast S1x4096 (Cert.ReferenceIdeal.Spec.rep (F := F) (Wv (Proc.devRef .tc main_arg4))) shapeCasts_S4096_S1x4096 := by
  after_results_simp; rfl
theorem after0_2_main_v29 : StableHlo.after hostOps0_2 Wv (Proc.devRef .tc main_v29) = diffTab (F := F) := by
  after_results_simp; rfl
theorem after0_2_main_c_2 : StableHlo.after hostOps0_2 Wv (Proc.devRef .tc main_c_2) = eight (F := F) := by
  after_results_simp; rfl

theorem after0_4_main_v36 : StableHlo.after hostOps0_4 Wv (Proc.devRef .tc main_v36) = idxOf (F := F) (Wv (Proc.devRef .tc main_v30)) := by
  after_results_simp; rfl
attribute [local irreducible] Host.gather in
theorem after0_4_main_v41 :
    StableHlo.after hostOps0_4 Wv (Proc.devRef .tc main_v41)
      = truncf .bf16 (transpose S1024x4096 [1, 0] (expandWith (Wv (Proc.devRef .tc main_arg5)) (idxOf (F := F) (Wv (Proc.devRef .tc main_v30))))
          transposes_S4096x1024_S1024x4096_1_0 : Arr F S1024x4096 .f32) bitsLt_bf16_f32 := by
  after_results_simp; rfl
theorem after0_4_main_v44 :
    StableHlo.after hostOps0_4 Wv (Proc.devRef .tc main_v44)
      = shapeCast S1x4096 (Cert.ReferenceIdeal.Spec.rep (F := F) (Wv (Proc.devRef .tc main_arg6))) shapeCasts_S4096_S1x4096 := by
  after_results_simp; rfl
theorem after0_4_main_v50 : StableHlo.after hostOps0_4 Wv (Proc.devRef .tc main_v50) = diffTab (F := F) := by
  after_results_simp; rfl
theorem after0_4_main_c_5 : StableHlo.after hostOps0_4 Wv (Proc.devRef .tc main_c_5) = eight (F := F) := by
  after_results_simp; rfl

theorem after0_6_main_v57 : StableHlo.after hostOps0_6 Wv (Proc.devRef .tc main_v57) = idxOf (F := F) (Wv (Proc.devRef .tc main_v51)) := by
  after_results_simp; rfl
attribute [local irreducible] Host.gather in
theorem after0_6_main_v62 :
    StableHlo.after hostOps0_6 Wv (Proc.devRef .tc main_v62)
      = truncf .bf16 (transpose S1024x4096 [1, 0] (expandWith (Wv (Proc.devRef .tc main_arg7)) (idxOf (F := F) (Wv (Proc.devRef .tc main_v51))))
          transposes_S4096x1024_S1024x4096_1_0 : Arr F S1024x4096 .f32) bitsLt_bf16_f32 := by
  after_results_simp; rfl
theorem after0_6_main_v65 :
    StableHlo.after hostOps0_6 Wv (Proc.devRef .tc main_v65)
      = shapeCast S1x4096 (Cert.ReferenceIdeal.Spec.rep (F := F) (Wv (Proc.devRef .tc main_arg8))) shapeCasts_S4096_S1x4096 := by
  after_results_simp; rfl
theorem after0_6_main_v71 : StableHlo.after hostOps0_6 Wv (Proc.devRef .tc main_v71) = diffTab (F := F) := by
  after_results_simp; rfl
theorem after0_6_main_c_8 : StableHlo.after hostOps0_6 Wv (Proc.devRef .tc main_c_8) = eight (F := F) := by
  after_results_simp; rfl

/-! ## The last stretch: the output projection's weight and bias -/

theorem after0_8_main_v78 : StableHlo.after hostOps0_8 Wv (Proc.devRef .tc main_v78) = idxOf (F := F) (Wv (Proc.devRef .tc main_v72)) := by
  after_results_simp; rfl
attribute [local irreducible] Host.gather in
theorem after0_8_main_v83 :
    StableHlo.after hostOps0_8 Wv (Proc.devRef .tc main_v83)
      = truncf .bf16 (transpose S4096x1024 [1, 0] (expandFcWith (Wv (Proc.devRef .tc main_arg9)) (idxOf (F := F) (Wv (Proc.devRef .tc main_v72))))
          transposes_S1024x4096_S4096x1024_1_0 : Arr F S4096x1024 .f32) bitsLt_bf16_f32 := by
  after_results_simp; rfl
theorem after0_8_main_v86 :
    StableHlo.after hostOps0_8 Wv (Proc.devRef .tc main_v86)
      = shapeCast S1x1024 (Cert.ReferenceIdeal.Spec.repFc (F := F) (Wv (Proc.devRef .tc main_arg10))) shapeCasts_S1024_S1x1024 := by
  after_results_simp; rfl

end Cert.KernelIdeal.Fold

end
-- ==== Proof.FoldTab.lean ====
/-
  The fold of the host operations before the first region, read back at the buffers the weights are built from.
  No stretch writes an argument's buffer, so a parameter still holds the launch memory's contents where it is
  gathered from. Each of the four index tables is the same closed term, whatever the run: the table of
  differences and the constant 8 come from the stretch before, the remainder from the inlined call, and the
  last correction gives the reference's table.
-/
import proofs.«144160_j59107339927555_1_alg».proof.Proof.Gen.KernelIdeal.Frame
import proofs.«144160_j59107339927555_1_alg».proof.Proof.RefSpec
import proofs.«144160_j59107339927555_1_alg».proof.Proof.FoldPass
import proofs.«144160_j59107339927555_1_alg».proof.Proof.FoldStretch

set_option maxRecDepth 16384

noncomputable section

namespace Cert.KernelIdeal.Fold

open Idealize.ShloMosaic Idealize.ShloMosaic.TcCoe
open Cert.KernelIdeal Cert.KernelIdeal.Gen

variable {F : FTy → Type} [FloatOps F]

variable (m : (ℓ : Loc nD τ sig) → Buf (Elt F) ℓ) (ρ : Dev nD → PrngReg) (c : Dev nD)

/-! ## The parameters where they are read -/

theorem W2_main_arg3 : W2 m ρ c (Proc.devRef .tc main_arg3) = m ((c : Thread nD τ).loc main_arg3) :=
  calc W2 m ρ c (Proc.devRef .tc main_arg3)
    _ = W1 m ρ c (Proc.devRef .tc main_arg3) := by host_skip hostOps0_1
    _ = W0 m ρ c (Proc.devRef .tc main_arg3) := by host_skip hostOps0
    _ = m ((c : Thread nD τ).loc main_arg3) := rfl

theorem W2_main_arg4 : W2 m ρ c (Proc.devRef .tc main_arg4) = m ((c : Thread nD τ).loc main_arg4) :=
  calc W2 m ρ c (Proc.devRef .tc main_arg4)
    _ = W1 m ρ c (Proc.devRef .tc main_arg4) := by host_skip hostOps0_1
    _ = W0 m ρ c (Proc.devRef .tc main_arg4) := by host_skip hostOps0
    _ = m ((c : Thread nD τ).loc main_arg4) := rfl

theorem W4_main_arg5 : W4 m ρ c (Proc.devRef .tc main_arg5) = m ((c : Thread nD τ).loc main_arg5) :=
  calc W4 m ρ c (Proc.devRef .tc main_arg5)
    _ = W3 m ρ c (Proc.devRef .tc main_arg5) := by host_skip hostOps0_3
    _ = W2 m ρ c (Proc.devRef .tc main_arg5) := by host_skip hostOps0_2
    _ = W1 m ρ c (Proc.devRef .tc main_arg5) := by host_skip hostOps0_1
    _ = W0 m ρ c (Proc.devRef .tc main_arg5) := by host_skip hostOps0
    _ = m ((c : Thread nD τ).loc main_arg5) := rfl

theorem W4_main_arg6 : W4 m ρ c (Proc.devRef .tc main_arg6) = m ((c : Thread nD τ).loc main_arg6) :=
  calc W4 m ρ c (Proc.devRef .tc main_arg6)
    _ = W3 m ρ c (Proc.devRef .tc main_arg6) := by host_skip hostOps0_3
    _ = W2 m ρ c (Proc.devRef .tc main_arg6) := by host_skip hostOps0_2
    _ = W1 m ρ c (Proc.devRef .tc main_arg6) := by host_skip hostOps0_1
    _ = W0 m ρ c (Proc.devRef .tc main_arg6) := by host_skip hostOps0
    _ = m ((c : Thread nD τ).loc main_arg6) := rfl

theorem W6_main_arg7 : W6 m ρ c (Proc.devRef .tc main_arg7) = m ((c : Thread nD τ).loc main_arg7) :=
  calc W6 m ρ c (Proc.devRef .tc main_arg7)
    _ = W5 m ρ c (Proc.devRef .tc main_arg7) := by host_skip hostOps0_5
    _ = W4 m ρ c (Proc.devRef .tc main_arg7) := by host_skip hostOps0_4
    _ = W3 m ρ c (Proc.devRef .tc main_arg7) := by host_skip hostOps0_3
    _ = W2 m ρ c (Proc.devRef .tc main_arg7) := by host_skip hostOps0_2
    _ = W1 m ρ c (Proc.devRef .tc main_arg7) := by host_skip hostOps0_1
    _ = W0 m ρ c (Proc.devRef .tc main_arg7) := by host_skip hostOps0
    _ = m ((c : Thread nD τ).loc main_arg7) := rfl

theorem W6_main_arg8 : W6 m ρ c (Proc.devRef .tc main_arg8) = m ((c : Thread nD τ).loc main_arg8) :=
  calc W6 m ρ c (Proc.devRef .tc main_arg8)
    _ = W5 m ρ c (Proc.devRef .tc main_arg8) := by host_skip hostOps0_5
    _ = W4 m ρ c (Proc.devRef .tc main_arg8) := by host_skip hostOps0_4
    _ = W3 m ρ c (Proc.devRef .tc main_arg8) := by host_skip hostOps0_3
    _ = W2 m ρ c (Proc.devRef .tc main_arg8) := by host_skip hostOps0_2
    _ = W1 m ρ c (Proc.devRef .tc main_arg8) := by host_skip hostOps0_1
    _ = W0 m ρ c (Proc.devRef .tc main_arg8) := by host_skip hostOps0
    _ = m ((c : Thread nD τ).loc main_arg8) := rfl

theorem W8_main_arg9 : W8 m ρ c (Proc.devRef .tc main_arg9) = m ((c : Thread nD τ).loc main_arg9) :=
  calc W8 m ρ c (Proc.devRef .tc main_arg9)
    _ = W7 m ρ c (Proc.devRef .tc main_arg9) := by host_skip hostOps0_7
    _ = W6 m ρ c (Proc.devRef .tc main_arg9) := by host_skip hostOps0_6
    _ = W5 m ρ c (Proc.devRef .tc main_arg9) := by host_skip hostOps0_5
    _ = W4 m ρ c (Proc.devRef .tc main_arg9) := by host_skip hostOps0_4
    _ = W3 m ρ c (Proc.devRef .tc main_arg9) := by host_skip hostOps0_3
    _ = W2 m ρ c (Proc.devRef .tc main_arg9) := by host_skip hostOps0_2
    _ = W1 m ρ c (Proc.devRef .tc main_arg9) := by host_skip hostOps0_1
    _ = W0 m ρ c (Proc.devRef .tc main_arg9) := by host_skip hostOps0
    _ = m ((c : Thread nD τ).loc main_arg9) := rfl

theorem W8_main_arg10 : W8 m ρ c (Proc.devRef .tc main_arg10) = m ((c : Thread nD τ).loc main_arg10) :=
  calc W8 m ρ c (Proc.devRef .tc main_arg10)
    _ = W7 m ρ c (Proc.devRef .tc main_arg10) := by host_skip hostOps0_7
    _ = W6 m ρ c (Proc.devRef .tc main_arg10) := by host_skip hostOps0_6
    _ = W5 m ρ c (Proc.devRef .tc main_arg10) := by host_skip hostOps0_5
    _ = W4 m ρ c (Proc.devRef .tc main_arg10) := by host_skip hostOps0_4
    _ = W3 m ρ c (Proc.devRef .tc main_arg10) := by host_skip hostOps0_3
    _ = W2 m ρ c (Proc.devRef .tc main_arg10) := by host_skip hostOps0_2
    _ = W1 m ρ c (Proc.devRef .tc main_arg10) := by host_skip hostOps0_1
    _ = W0 m ρ c (Proc.devRef .tc main_arg10) := by host_skip hostOps0
    _ = m ((c : Thread nD τ).loc main_arg10) := rfl

/-! ## The four index tables -/

theorem W1_main_v8 : W1 m ρ c (Proc.devRef .tc main_v8) = diffTab (F := F) := after0_main_v8 (W0 m ρ c)
theorem W1_main_c : W1 m ρ c (Proc.devRef .tc main_c) = eight (F := F) := after0_main_c (W0 m ρ c)

theorem W2_main_v9 : W2 m ρ c (Proc.devRef .tc main_v9) = remTab (F := F) :=
  (after0_1_main_v9 (W1 m ρ c)).trans (by rw [W1_main_v8 m ρ c, W1_main_c m ρ c]; rfl)
theorem W3_main_v15 : W3 m ρ c (Proc.devRef .tc main_v15) = Cert.ReferenceIdeal.Spec.idxTab (F := F) :=
  (after0_2_main_v15 (W2 m ρ c)).trans (by rw [W2_main_v9 m ρ c]; exact (idxTab_eq (F := F)).symm)
theorem W3_main_v29 : W3 m ρ c (Proc.devRef .tc main_v29) = diffTab (F := F) := after0_2_main_v29 (W2 m ρ c)
theorem W3_main_c_2 : W3 m ρ c (Proc.devRef .tc main_c_2) = eight (F := F) := after0_2_main_c_2 (W2 m ρ c)

theorem W4_main_v30 : W4 m ρ c (Proc.devRef .tc main_v30) = remTab (F := F) :=
  (after0_3_main_v30 (W3 m ρ c)).trans (by rw [W3_main_v29 m ρ c, W3_main_c_2 m ρ c]; rfl)
theorem W5_main_v36 : W5 m ρ c (Proc.devRef .tc main_v36) = Cert.ReferenceIdeal.Spec.idxTab (F := F) :=
  (after0_4_main_v36 (W4 m ρ c)).trans (by rw [W4_main_v30 m ρ c]; exact (idxTab_eq (F := F)).symm)
theorem W5_main_v50 : W5 m ρ c (Proc.devRef .tc main_v50) = diffTab (F := F) := after0_4_main_v50 (W4 m ρ c)
theorem W5_main_c_5 : W5 m ρ c (Proc.devRef .tc main_c_5) = eight (F := F) := after0_4_main_c_5 (W4 m ρ c)

theorem W6_main_v51 : W6 m ρ c (Proc.devRef .tc main_v51) = remTab (F := F) :=
  (after0_5_main_v51 (W5 m ρ c)).trans (by rw [W5_main_v50 m ρ c, W5_main_c_5 m ρ c]; rfl)
theorem W7_main_v57 : W7 m ρ c (Proc.devRef .tc main_v57) = Cert.ReferenceIdeal.Spec.idxTab (F := F) :=
  (after0_6_main_v57 (W6 m ρ c)).trans (by rw [W6_main_v51 m ρ c]; exact (idxTab_eq (F := F)).symm)
theorem W7_main_v71 : W7 m ρ c (Proc.devRef .tc main_v71) = diffTab (F := F) := after0_6_main_v71 (W6 m ρ c)
theorem W7_main_c_8 : W7 m ρ c (Proc.devRef .tc main_c_8) = eight (F := F) := after0_6_main_c_8 (W6 m ρ c)

theorem W8_main_v72 : W8 m ρ c (Proc.devRef .tc main_v72) = remTab (F := F) :=
  (after0_7_main_v72 (W7 m ρ c)).trans (by rw [W7_main_v71 m ρ c, W7_main_c_8 m ρ c]; rfl)
theorem W9_main_v78 : W9 m ρ c (Proc.devRef .tc main_v78) = Cert.ReferenceIdeal.Spec.idxTab (F := F) :=
  (after0_8_main_v78 (W8 m ρ c)).trans (by rw [W8_main_v72 m ρ c]; exact (idxTab_eq (F := F)).symm)

end Cert.KernelIdeal.Fold

end
-- ==== Proof.FoldIn.lean ====
/-
  What each of the twelve input windows of the four regions holds when the first region is entered, as a function of
  the launch memory: an activation window holds its argument flattened; a weight window holds the circulant
  expansion of its parameter, transposed and rounded to bf16; a bias window holds its parameter repeated over the
  eight group positions, as one row. Each buffer is written in exactly one stretch of host operations; the
  stretches after it leave it alone, and the stretches before it feed it the parameter as launched and the index
  table.
-/
import proofs.«144160_j59107339927555_1_alg».proof.Proof.Gen.KernelIdeal.Frame
import proofs.«144160_j59107339927555_1_alg».proof.Proof.RefSpec
import proofs.«144160_j59107339927555_1_alg».proof.Proof.FoldTab

set_option maxRecDepth 16384

noncomputable section

namespace Cert.KernelIdeal.Fold

open Idealize.ShloMosaic Idealize.ShloMosaic.TcCoe
open Cert.KernelIdeal Cert.KernelIdeal.Gen

variable {F : FTy → Type} [FloatOps F]

variable (m : (ℓ : Loc nD τ sig) → Buf (Elt F) ℓ) (ρ : Dev nD → PrngReg) (c : Dev nD)

/-! ## The three activations -/

theorem V9_main_v0 : V9 m ρ c main_v0 = Cert.ReferenceIdeal.Spec.flat (F := F) (m ((c : Thread nD τ).loc main_arg0)) :=
  calc W9 m ρ c (Proc.devRef .tc main_v0)
    _ = W8 m ρ c (Proc.devRef .tc main_v0) := by host_skip hostOps0_8
    _ = W7 m ρ c (Proc.devRef .tc main_v0) := by host_skip hostOps0_7
    _ = W6 m ρ c (Proc.devRef .tc main_v0) := by host_skip hostOps0_6
    _ = W5 m ρ c (Proc.devRef .tc main_v0) := by host_skip hostOps0_5
    _ = W4 m ρ c (Proc.devRef .tc main_v0) := by host_skip hostOps0_4
    _ = W3 m ρ c (Proc.devRef .tc main_v0) := by host_skip hostOps0_3
    _ = W2 m ρ c (Proc.devRef .tc main_v0) := by host_skip hostOps0_2
    _ = W1 m ρ c (Proc.devRef .tc main_v0) := by host_skip hostOps0_1
    _ = Cert.ReferenceIdeal.Spec.flat (F := F) (W0 m ρ c (Proc.devRef .tc main_arg0)) := after0_main_v0 (W0 m ρ c)
    _ = Cert.ReferenceIdeal.Spec.flat (F := F) (m ((c : Thread nD τ).loc main_arg0)) := rfl

theorem V9_main_v1 : V9 m ρ c main_v1 = Cert.ReferenceIdeal.Spec.flat (F := F) (m ((c : Thread nD τ).loc main_arg1)) :=
  calc W9 m ρ c (Proc.devRef .tc main_v1)
    _ = W8 m ρ c (Proc.devRef .tc main_v1) := by host_skip hostOps0_8
    _ = W7 m ρ c (Proc.devRef .tc main_v1) := by host_skip hostOps0_7
    _ = W6 m ρ c (Proc.devRef .tc main_v1) := by host_skip hostOps0_6
    _ = W5 m ρ c (Proc.devRef .tc main_v1) := by host_skip hostOps0_5
    _ = W4 m ρ c (Proc.devRef .tc main_v1) := by host_skip hostOps0_4
    _ = W3 m ρ c (Proc.devRef .tc main_v1) := by host_skip hostOps0_3
    _ = W2 m ρ c (Proc.devRef .tc main_v1) := by host_skip hostOps0_2
    _ = W1 m ρ c (Proc.devRef .tc main_v1) := by host_skip hostOps0_1
    _ = Cert.ReferenceIdeal.Spec.flat (F := F) (W0 m ρ c (Proc.devRef .tc main_arg1)) := after0_main_v1 (W0 m ρ c)
    _ = Cert.ReferenceIdeal.Spec.flat (F := F) (m ((c : Thread nD τ).loc main_arg1)) := rfl

theorem V9_main_v2 : V9 m ρ c main_v2 = Cert.ReferenceIdeal.Spec.flat (F := F) (m ((c : Thread nD τ).loc main_arg2)) :=
  calc W9 m ρ c (Proc.devRef .tc main_v2)
    _ = W8 m ρ c (Proc.devRef .tc main_v2) := by host_skip hostOps0_8
    _ = W7 m ρ c (Proc.devRef .tc main_v2) := by host_skip hostOps0_7
    _ = W6 m ρ c (Proc.devRef .tc main_v2) := by host_skip hostOps0_6
    _ = W5 m ρ c (Proc.devRef .tc main_v2) := by host_skip hostOps0_5
    _ = W4 m ρ c (Proc.devRef .tc main_v2) := by host_skip hostOps0_4
    _ = W3 m ρ c (Proc.devRef .tc main_v2) := by host_skip hostOps0_3
    _ = W2 m ρ c (Proc.devRef .tc main_v2) := by host_skip hostOps0_2
    _ = W1 m ρ c (Proc.devRef .tc main_v2) := by host_skip hostOps0_1
    _ = Cert.ReferenceIdeal.Spec.flat (F := F) (W0 m ρ c (Proc.devRef .tc main_arg2)) := after0_main_v2 (W0 m ρ c)
    _ = Cert.ReferenceIdeal.Spec.flat (F := F) (m ((c : Thread nD τ).loc main_arg2)) := rfl

/-! ## The three projections' weights and biases -/

theorem V9_main_v20 :
    V9 m ρ c main_v20 = truncf .bf16 (Cert.ReferenceIdeal.Spec.expandT (F := F) (m ((c : Thread nD τ).loc main_arg3))) bitsLt_bf16_f32 :=
  calc W9 m ρ c (Proc.devRef .tc main_v20)
    _ = W8 m ρ c (Proc.devRef .tc main_v20) := by host_skip hostOps0_8
    _ = W7 m ρ c (Proc.devRef .tc main_v20) := by host_skip hostOps0_7
    _ = W6 m ρ c (Proc.devRef .tc main_v20) := by host_skip hostOps0_6
    _ = W5 m ρ c (Proc.devRef .tc main_v20) := by host_skip hostOps0_5
    _ = W4 m ρ c (Proc.devRef .tc main_v20) := by host_skip hostOps0_4
    _ = W3 m ρ c (Proc.devRef .tc main_v20) := by host_skip hostOps0_3
    _ = truncf .bf16 (Cert.ReferenceIdeal.Spec.expandT (F := F) (m ((c : Thread nD τ).loc main_arg3))) bitsLt_bf16_f32 :=
        (after0_2_main_v20 (W2 m ρ c)).trans (by rw [W2_main_arg3 m ρ c, W2_main_v9 m ρ c, expandWith_idxTab])

theorem V9_main_v23 :
    V9 m ρ c main_v23 = shapeCast S1x4096 (Cert.ReferenceIdeal.Spec.rep (F := F) (m ((c : Thread nD τ).loc main_arg4))) shapeCasts_S4096_S1x4096 :=
  calc W9 m ρ c (Proc.devRef .tc main_v23)
    _ = W8 m ρ c (Proc.devRef .tc main_v23) := by host_skip hostOps0_8
    _ = W7 m ρ c (Proc.devRef .tc main_v23) := by host_skip hostOps0_7
    _ = W6 m ρ c (Proc.devRef .tc main_v23) := by host_skip hostOps0_6
    _ = W5 m ρ c (Proc.devRef .tc main_v23) := by host_skip hostOps0_5
    _ = W4 m ρ c (Proc.devRef .tc main_v23) := by host_skip hostOps0_4
    _ = W3 m ρ c (Proc.devRef .tc main_v23) := by host_skip hostOps0_3
    _ = shapeCast S1x4096 (Cert.ReferenceIdeal.Spec.rep (F := F) (m ((c : Thread nD τ).loc main_arg4))) shapeCasts_S4096_S1x4096 :=
        (after0_2_main_v23 (W2 m ρ c)).trans (by rw [W2_main_arg4 m ρ c])

theorem V9_main_v41 :
    V9 m ρ c main_v41 = truncf .bf16 (Cert.ReferenceIdeal.Spec.expandT (F := F) (m ((c : Thread nD τ).loc main_arg5))) bitsLt_bf16_f32 :=
  calc W9 m ρ c (Proc.devRef .tc main_v41)
    _ = W8 m ρ c (Proc.devRef .tc main_v41) := by host_skip hostOps0_8
    _ = W7 m ρ c (Proc.devRef .tc main_v41) := by host_skip hostOps0_7
    _ = W6 m ρ c (Proc.devRef .tc main_v41) := by host_skip hostOps0_6
    _ = W5 m ρ c (Proc.devRef .tc main_v41) := by host_skip hostOps0_5
    _ = truncf .bf16 (Cert.ReferenceIdeal.Spec.expandT (F := F) (m ((c : Thread nD τ).loc main_arg5))) bitsLt_bf16_f32 :=
        (after0_4_main_v41 (W4 m ρ c)).trans (by rw [W4_main_arg5 m ρ c, W4_main_v30 m ρ c, expandWith_idxTab])

theorem V9_main_v44 :
    V9 m ρ c main_v44 = shapeCast S1x4096 (Cert.ReferenceIdeal.Spec.rep (F := F) (m ((c : Thread nD τ).loc main_arg6))) shapeCasts_S4096_S1x4096 :=
  calc W9 m ρ c (Proc.devRef .tc main_v44)
    _ = W8 m ρ c (Proc.devRef .tc main_v44) := by host_skip hostOps0_8
    _ = W7 m ρ c (Proc.devRef .tc main_v44) := by host_skip hostOps0_7
    _ = W6 m ρ c (Proc.devRef .tc main_v44) := by host_skip hostOps0_6
    _ = W5 m ρ c (Proc.devRef .tc main_v44) := by host_skip hostOps0_5
    _ = shapeCast S1x4096 (Cert.ReferenceIdeal.Spec.rep (F := F) (m ((c : Thread nD τ).loc main_arg6))) shapeCasts_S4096_S1x4096 :=
        (after0_4_main_v44 (W4 m ρ c)).trans (by rw [W4_main_arg6 m ρ c])

theorem V9_main_v62 :
    V9 m ρ c main_v62 = truncf .bf16 (Cert.ReferenceIdeal.Spec.expandT (F := F) (m ((c : Thread nD τ).loc main_arg7))) bitsLt_bf16_f32 :=
  calc W9 m ρ c (Proc.devRef .tc main_v62)
    _ = W8 m ρ c (Proc.devRef .tc main_v62) := by host_skip hostOps0_8
    _ = W7 m ρ c (Proc.devRef .tc main_v62) := by host_skip hostOps0_7
    _ = truncf .bf16 (Cert.ReferenceIdeal.Spec.expandT (F := F) (m ((c : Thread nD τ).loc main_arg7))) bitsLt_bf16_f32 :=
        (after0_6_main_v62 (W6 m ρ c)).trans (by rw [W6_main_arg7 m ρ c, W6_main_v51 m ρ c, expandWith_idxTab])

theorem V9_main_v65 :
    V9 m ρ c main_v65 = shapeCast S1x4096 (Cert.ReferenceIdeal.Spec.rep (F := F) (m ((c : Thread nD τ).loc main_arg8))) shapeCasts_S4096_S1x4096 :=
  calc W9 m ρ c (Proc.devRef .tc main_v65)
    _ = W8 m ρ c (Proc.devRef .tc main_v65) := by host_skip hostOps0_8
    _ = W7 m ρ c (Proc.devRef .tc main_v65) := by host_skip hostOps0_7
    _ = shapeCast S1x4096 (Cert.ReferenceIdeal.Spec.rep (F := F) (m ((c : Thread nD τ).loc main_arg8))) shapeCasts_S4096_S1x4096 :=
        (after0_6_main_v65 (W6 m ρ c)).trans (by rw [W6_main_arg8 m ρ c])

/-! ## The output projection's weight and bias -/

theorem V9_main_v83 :
    V9 m ρ c main_v83 = truncf .bf16 (Cert.ReferenceIdeal.Spec.expandFcT (F := F) (m ((c : Thread nD τ).loc main_arg9))) bitsLt_bf16_f32 :=
  (after0_8_main_v83 (W8 m ρ c)).trans (by rw [W8_main_arg9 m ρ c, W8_main_v72 m ρ c, expandFcWith_idxTab])

theorem V9_main_v86 :
    V9 m ρ c main_v86 = shapeCast S1x1024 (Cert.ReferenceIdeal.Spec.repFc (F := F) (m ((c : Thread nD τ).loc main_arg10))) shapeCasts_S1024_S1x1024 :=
  (after0_8_main_v86 (W8 m ρ c)).trans (by rw [W8_main_arg10 m ρ c])

end Cert.KernelIdeal.Fold

end
-- ==== Proof.FoldAttn.lean ====
/-
  The stretch of host operations between the third projection and the output projection, read as a function of
  the three projections' buffers: the attention weights are the softmax of the scaled scores of the first two
  projections' heads, and the output projection's input is those weights applied to the third projection's heads,
  merged back. Stated first over arbitrary buffer contents, then at the contents the three projection regions leave.
-/
import proofs.«144160_j59107339927555_1_alg».proof.Proof.Gen.KernelIdeal.Frame
import proofs.«144160_j59107339927555_1_alg».proof.Proof.RefSpec

set_option maxRecDepth 16384

noncomputable section

namespace Cert.KernelIdeal.Fold

open Idealize.ShloMosaic Idealize.ShloMosaic.TcCoe
open Cert.KernelIdeal Cert.KernelIdeal.Gen

variable {F : FTy → Type} [FloatOps F]

variable (m : (ℓ : Loc nD τ sig) → Buf (Elt F) ℓ) (ρ : Dev nD → PrngReg) (c : Dev nD)

attribute [local irreducible] Host.reduce Host.reduceAdd Host.exp Host.divf in
/-- The attention weights' buffer after the stretch, over any contents: the softmax of the scores of what the first
    two projections' buffers held. The reductions, the contraction and the exponential stay folded. -/
theorem after_hostOps3_main_v109 (Wv : Valuation τ sig (Elt F)) :
    StableHlo.after hostOps3 Wv (Proc.devRef .tc main_v109)
      = Cert.ReferenceIdeal.Spec.attn (F := F) (Wv (Proc.devRef .tc main_v87)) (Wv (Proc.devRef .tc main_v88)) := by
  after_results_simp
  rfl

attribute [local irreducible] Host.reduce Host.reduceAdd Host.exp Host.divf in
/-- The output projection's input buffer after the stretch, over any contents: the attention weights applied to the
    heads of what the third projection's buffer held, merged back. -/
theorem after_hostOps3_main_v112 (Wv : Valuation τ sig (Elt F)) :
    StableHlo.after hostOps3 Wv (Proc.devRef .tc main_v112)
      = Cert.ReferenceIdeal.Spec.merge (F := F)
          (Cert.ReferenceIdeal.Spec.attn (F := F) (Wv (Proc.devRef .tc main_v87)) (Wv (Proc.devRef .tc main_v88)))
          (Wv (Proc.devRef .tc main_v89)) := by
  after_results_simp
  rfl

theorem V13_main_v109 :
    V13 m ρ c main_v109 = Cert.ReferenceIdeal.Spec.attn (F := F) (V12 m ρ c main_v87) (V12 m ρ c main_v88) :=
  after_hostOps3_main_v109 (W12 m ρ c)

theorem V13_main_v112 :
    V13 m ρ c main_v112
      = Cert.ReferenceIdeal.Spec.merge (F := F)
          (Cert.ReferenceIdeal.Spec.attn (F := F) (V12 m ρ c main_v87) (V12 m ρ c main_v88)) (V12 m ρ c main_v89) :=
  after_hostOps3_main_v112 (W12 m ρ c)

end Cert.KernelIdeal.Fold

end
-- ==== Proof.LinearBlock.lean ====
/-
  One block of a linear layer, read at an index, at the ideal values.

  The kernel's arithmetic on a block of R rows is: the x block (its same-shape cast, then the change of float format,
  which is the identity on extended reals) times the resident w (its same-shape cast) on the matrix unit into a zero
  accumulator, plus the bias row broadcast down the R rows. At (p, q) this is

      (∑ k : Fin K, x (p, k) * w (k, q)) + b (0, q):

  the product into a zero accumulator is the plain product with no accumulator, whose entry is the sum over the one
  contracted coordinate; the broadcast row reads its entry q at every p.
-/
import Idealize.ShloMosaic.Lib.StackMember
import Idealize.ShloMosaic.Lib.ValueLayout

noncomputable section

open scoped BigOperators

namespace Cert.LinearBlock

open Idealize.ShloMosaic Idealize.ShloMosaic.ValueIdx

/-- The dimension numbers "contract axis 1 of the left with axis 0 of the right, no batch axis" are the library's plain
    M×K by K×N product, whatever proof of well-formedness the record carries. -/
theorem dims_eq_plain {R K N : Nat}
    (wf : DotDims.WF ⟨2, ![R, K]⟩ ⟨2, ![K, N]⟩ ⟨2, ![R, N]⟩ [1] [0] [0] [1] [] []) :
    (⟨[1], [0], [0], [1], [], [], wf⟩ : DotDims ⟨2, ![R, K]⟩ ⟨2, ![K, N]⟩ ⟨2, ![R, N]⟩) = DotDims.plain R K N := rfl

/-- The block's value at (p, q). -/
theorem block_apply {R K N : Nat}
    (d : DotDims ⟨2, ![R, K]⟩ ⟨2, ![K, N]⟩ ⟨2, ![R, N]⟩) (hd : d = DotDims.plain R K N)
    (hcx : (⟨2, ![R, K]⟩ : Shape).ShapeCasts ⟨2, ![R, K]⟩) (hcw : (⟨2, ![K, N]⟩ : Shape).ShapeCasts ⟨2, ![K, N]⟩)
    (hcb : (⟨2, ![1, N]⟩ : Shape).ShapeCasts ⟨2, ![1, N]⟩) (hbits : FTy.bits .bf16 < FTy.bits .f32)
    (hbc : (⟨2, ![1, N]⟩ : Shape).Broadcasts ⟨2, ![R, N]⟩)
    (x : FVec Ideal ⟨2, ![R, K]⟩ .f32) (w : FVec Ideal ⟨2, ![K, N]⟩ .bf16) (b : FVec Ideal ⟨2, ![1, N]⟩ .f32)
    (p : Fin R) (q : Fin N) :
    addf (matmul d none (truncf .bf16 (shapeCast ⟨2, ![R, K]⟩ x hcx) hbits) (shapeCast ⟨2, ![K, N]⟩ w hcw)
        (constant ⟨2, ![R, N]⟩ .f32 0x00000000#32))
      (broadcastTo ⟨2, ![R, N]⟩ (shapeCast ⟨2, ![1, N]⟩ b hcb) hbc) (ix2 p q)
      = (∑ k : Fin K, x (ix2 p k) * w (ix2 k q)) + b (ix2 0 q) := by
  subst hd
  rw [addf_apply, matmul_zero_eq_dotGeneral, StackMember.dotGeneral_plain_apply, broadcastTo_1b_ab_apply,
    shapeCast_self, shapeCast_self, shapeCast_self]
  rfl

end Cert.LinearBlock

end
-- ==== Proof.PayloadAtIndex.lean ====
/-
  The four kernels' arithmetic, read at one entry of the block they store, at the ideal values.

  Each kernel body computes, from its x block (512 rows), the resident w and the bias row b, the block  x·w + b :
  at (p, q) it is (∑ k, x (p, k) * w (k, q)) + b (0, q), the sum over the contracted coordinate k. The first three
  kernels contract 1024 coordinates into 4096 columns, the fourth 4096 coordinates into 1024 columns.
-/
import proofs.«144160_j59107339927555_1_alg».proof.Proof.Gen.KernelIdeal.Skeleton
import proofs.«144160_j59107339927555_1_alg».proof.Proof.LinearBlock

noncomputable section

open scoped BigOperators

namespace Cert.KernelIdeal.PayloadAtIndex

open Cert.KernelIdeal Cert.KernelIdeal.Gen
open Idealize.ShloMosaic Idealize.ShloMosaic.ValueIdx

/-- The first kernel's stored block at (p, q). -/
theorem pay0_apply (x0 : Vec Ideal S512x1024 .f32) (x1 : Vec Ideal S1024x4096 .bf16) (x2 : Vec Ideal S1x4096 .f32)
    (p : Fin 512) (q : Fin 4096) :
    k0_pay1 (F := Ideal) x0 x1 x2 (ix2 p q) = (∑ k : Fin 1024, x0 (ix2 p k) * x1 (ix2 k q)) + x2 (ix2 0 q) :=
  Cert.LinearBlock.block_apply dot_S512x1024_S1024x4096_S512x4096_1_0_0_1_n_n rfl _ _ _ _ _ x0 x1 x2 p q

/-- The second kernel's. -/
theorem pay1_apply (x0 : Vec Ideal S512x1024 .f32) (x1 : Vec Ideal S1024x4096 .bf16) (x2 : Vec Ideal S1x4096 .f32)
    (p : Fin 512) (q : Fin 4096) :
    k1_pay1 (F := Ideal) x0 x1 x2 (ix2 p q) = (∑ k : Fin 1024, x0 (ix2 p k) * x1 (ix2 k q)) + x2 (ix2 0 q) :=
  Cert.LinearBlock.block_apply dot_S512x1024_S1024x4096_S512x4096_1_0_0_1_n_n rfl _ _ _ _ _ x0 x1 x2 p q

/-- The third kernel's. -/
theorem pay2_apply (x0 : Vec Ideal S512x1024 .f32) (x1 : Vec Ideal S1024x4096 .bf16) (x2 : Vec Ideal S1x4096 .f32)
    (p : Fin 512) (q : Fin 4096) :
    k2_pay1 (F := Ideal) x0 x1 x2 (ix2 p q) = (∑ k : Fin 1024, x0 (ix2 p k) * x1 (ix2 k q)) + x2 (ix2 0 q) :=
  Cert.LinearBlock.block_apply dot_S512x1024_S1024x4096_S512x4096_1_0_0_1_n_n rfl _ _ _ _ _ x0 x1 x2 p q

/-- The fourth kernel's: 4096 contracted coordinates, 1024 columns. -/
theorem pay3_apply (x0 : Vec Ideal S512x4096 .f32) (x1 : Vec Ideal S4096x1024 .bf16) (x2 : Vec Ideal S1x1024 .f32)
    (p : Fin 512) (q : Fin 1024) :
    k3_pay1 (F := Ideal) x0 x1 x2 (ix2 p q) = (∑ k : Fin 4096, x0 (ix2 p k) * x1 (ix2 k q)) + x2 (ix2 0 q) :=
  Cert.LinearBlock.block_apply dot_S512x4096_S4096x1024_S512x1024_1_0_0_1_n_n rfl _ _ _ _ _ x0 x1 x2 p q

end Cert.KernelIdeal.PayloadAtIndex

end
-- ==== Proof.RegionValue0.lean ====
/-
  The first linear layer's output array after its region, as one function of the arrays the region finds.

  The region runs a grid of 16 points. Point t holds rows 512·t … 512·t + 511 of x (all 1024 columns), the whole of w
  and the whole bias row, and writes back rows 512·t … 512·t + 511 of the output (all 4096 columns). Row i of  x·w + b
  reads row i of x only, so what point t writes back is its block of the whole-array function  x·w + b ; every row
  lies in the block of point i / 512, so the array ends holding  x·w + b .
-/
import proofs.«144160_j59107339927555_1_alg».proof.Proof.Gen.KernelIdeal.Frame
import proofs.«144160_j59107339927555_1_alg».proof.Proof.LinearSpec
import proofs.«144160_j59107339927555_1_alg».proof.Proof.PayloadAtIndex
import Idealize.ShloMosaic.Lib.Pipeline.Value

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-- The zero offsets of a whole-buffer access, as the constant function. -/
theorem hz0 : (![0, 0] : Fin 2 → Nat) = fun _ => 0 := funext fun a => by fin_cases a <;> rfl

/-- The block indices at point t: x and the output are at row block t, column block 0; w and the bias row stay at
    block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of the x block at point t is row 512·t + r of x. -/
theorem xblk0 (c : Dev nD) (t : Fin cfg0.N) (r : Fin 512) (k : Fin 1024) (i : Fin 8192) (hi : i.val = 512 * t.val + r.val) :
    (iblk0 V c 0 t : Vec Ideal S512x1024 .f32) (ix2 r k) = (V c main_v0 : S8192x1024.Idx → EReal) (ix2 i k) := by
  obtain ⟨e0, e1, -⟩ := idx0 t
  unfold iblk0
  rw [View.read_apply]
  show V c main_v0 _ = V c main_v0 _
  refine congrArg (V c main_v0) (funext fun a => Fin.ext ?_)
  match a with
  | ⟨0, _⟩ => show win0_0.index t (0 : Fin 2) * 512 + 1 * r.val = i.val; rw [e0, hi]; omega
  | ⟨1, _⟩ => show win0_0.index t (1 : Fin 2) * 1024 + 1 * k.val = k.val; rw [e1]; omega

/-- The w block at any point is the whole of w. -/
theorem wblk0 (c : Dev nD) (t : Fin cfg0.N) : (iblk0 V c 1 t : Vec Ideal S1024x4096 .bf16) = V c main_v20 := by
  obtain ⟨-, -, e0, e1, -⟩ := idx0 t
  funext x
  unfold iblk0
  rw [View.read_apply]
  show V c main_v20 _ = V c main_v20 x
  refine congrArg (V c main_v20) (funext fun a => Fin.ext ?_)
  match a with
  | ⟨0, _⟩ => show win0_1.index t (0 : Fin 2) * 1024 + 1 * (x 0).val = (x 0).val; rw [e0]; omega
  | ⟨1, _⟩ => show win0_1.index t (1 : Fin 2) * 4096 + 1 * (x 1).val = (x 1).val; rw [e1]; omega

/-- The bias block at any point is the whole bias row. -/
theorem bblk0 (c : Dev nD) (t : Fin cfg0.N) : (iblk0 V c 2 t : Vec Ideal S1x4096 .f32) = V c main_v23 := by
  obtain ⟨-, -, -, -, e0, e1, -⟩ := idx0 t
  funext x
  unfold iblk0
  rw [View.read_apply]
  show V c main_v23 _ = V c main_v23 x
  refine congrArg (V c main_v23) (funext fun a => Fin.ext ?_)
  match a with
  | ⟨0, _⟩ => show win0_2.index t (0 : Fin 2) * 1 + 1 * (x 0).val = (x 0).val; rw [e0]; omega
  | ⟨1, _⟩ => show win0_2.index t (1 : Fin 2) * 4096 + 1 * (x 1).val = (x 1).val; rw [e1]; omega

/-- Entry (p, q) of the output block at point t sits at (512·t + p, q) of the output array. -/
theorem emb0 (t : Fin cfg0.N) (p : Fin 512) (q : Fin 4096) (i : Fin 8192) (hi : i.val = 512 * t.val + p.val) :
    ((cfg0.win 3).blk t).view.emb (ix2 p q) = (ix2 i q : S8192x4096.Idx) := by
  obtain ⟨-, -, -, -, -, -, e0, e1⟩ := idx0 t
  refine funext fun a => Fin.ext ?_
  match a with
  | ⟨0, _⟩ => show win0_3.index t (0 : Fin 2) * 512 + 1 * p.val = i.val; rw [e0, hi]; omega
  | ⟨1, _⟩ => show win0_3.index t (1 : Fin 2) * 4096 + 1 * q.val = q.val; rw [e1]; omega

/-- One entry of what the body leaves at point t is the entry of  x·w + b  at its place in the array. -/
theorem point0 (c : Dev nD) (t : Fin cfg0.N) (j : S512x4096.Idx) :
    k0_pay1 (F := Ideal) (iblk0 V c 0 t) (iblk0 V c 1 t) (iblk0 V c 2 t) j
      = Cert.LinearSpec.lin4096 (V c main_v0) (V c main_v20) (V c main_v23) (((cfg0.win 3).blk t).view.emb j) := by
  obtain ⟨p, q, rfl⟩ : ∃ (p : Fin 512) (q : Fin 4096), j = ix2 p q := ⟨j 0, j 1, eq_ix2 j⟩
  have hN : cfg0.N = 16 := N_0
  have ht : t.val < 16 := by have := t.isLt; omega
  have hp : p.val < 512 := p.isLt
  rw [emb0 t p q ⟨512 * t.val + p.val, by omega⟩ rfl]
  refine (PayloadAtIndex.pay0_apply (iblk0 V c 0 t) (iblk0 V c 1 t) (iblk0 V c 2 t) p q).trans ?_
  rw [wblk0 V c t, bblk0 V c t]
  exact Cert.LinearSpec.lin_rows 8192 1024 4096 512 (V c main_v0) (V c main_v20) (V c main_v23) (iblk0 V c 0 t) p
    ⟨512 * t.val + p.val, by omega⟩ q (fun k => xblk0 V c t p k _ rfl)

/-- What point t writes back is its block of  x·w + b . -/
theorem flushed0 (c : Dev nD) (t : Fin cfg0.N) :
    (dat0 (F := Ideal) V c).flushed 3 t
      = ((cfg0.win 3).blk t).view.read (Elt Ideal) (Cert.LinearSpec.lin4096 (V c main_v0) (V c main_v20) (V c main_v23)) := by
  show (cfg0.win 3).cut (grid0.coords t) ((dat0 (F := Ideal) V c).after 3 t) = _
  rw [after0_3]
  unfold out0_3
  rw [View.canon_unit_zero hz0]
  simp only [View.ld_unit_zero (S := S512x1024) hz0, View.ld_unit_zero (S := S1024x4096) hz0, View.ld_unit_zero (S := S1x4096) hz0]
  funext j
  exact point0 V c t j

/-- An index of the output array is in point t's block iff each coordinate is in the block's range on its axis. -/
theorem mem0 (t : Fin cfg0.N) (i : S8192x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v87).slice (win0_3.rect t)).set ↔ _
  rw [View.set_slice_whole, Rect.mem_set_unit]
  exact Iff.rfl

/-- Every index of the output array is in the block of the point its row falls in: row r is in block r / 512. -/
theorem covered0 (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 16 := N_0
  obtain ⟨t, ht⟩ : ∃ t : Fin cfg0.N, t.val = (i 0).val / 512 := ⟨⟨(i 0).val / 512, by omega⟩, rfl⟩
  obtain ⟨-, -, -, -, -, -, e0, e1⟩ := idx0 t
  refine ⟨t, flush0_3 t, ?_⟩
  rw [mem0]
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 4096 ≤ (i 1).val ∧ (i 1).val < win0_3.index t (1 : Fin 2) * 4096 + 4096; rw [e1]; omega

/-- THE OUTPUT ARRAY after the region:  x·w + b  of the x, w and bias arrays as the region finds them. -/
theorem arr0 (c : Dev nD) :
    (Gen.dat0 (F := Ideal) V c).arrAt 3 cfg0.N
      = Cert.LinearSpec.lin4096 (V c main_v0) (V c main_v20) (V c main_v23) :=
  (dat0 (F := Ideal) V c).arrAt_eq_of_cover 3 _ (fun t _ => flushed0 V c t) covered0

end Cert.KernelIdeal.RegionValue

end
-- ==== Proof.RegionValue1.lean ====
/-
  The second linear layer's output array after its region, as one function of the arrays the region finds.

  The region runs a grid of 16 points. Point t holds rows 512·t … 512·t + 511 of x (all 1024 columns), the whole of w
  and the whole bias row, and writes back rows 512·t … 512·t + 511 of the output (all 4096 columns). Row i of  x·w + b
  reads row i of x only, so what point t writes back is its block of the whole-array function  x·w + b ; every row
  lies in the block of point i / 512, so the array ends holding  x·w + b .
-/
import proofs.«144160_j59107339927555_1_alg».proof.Proof.Gen.KernelIdeal.Frame
import proofs.«144160_j59107339927555_1_alg».proof.Proof.LinearSpec
import proofs.«144160_j59107339927555_1_alg».proof.Proof.PayloadAtIndex
import Idealize.ShloMosaic.Lib.Pipeline.Value

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-- The zero offsets of a whole-buffer access, as the constant function. -/
theorem hz1 : (![0, 0] : Fin 2 → Nat) = fun _ => 0 := funext fun a => by fin_cases a <;> rfl

/-- The block indices at point t: x and the output are at row block t, column block 0; w and the bias row stay at
    block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row r of the x block at point t is row 512·t + r of x. -/
theorem xblk1 (c : Dev nD) (t : Fin cfg1.N) (r : Fin 512) (k : Fin 1024) (i : Fin 8192) (hi : i.val = 512 * t.val + r.val) :
    (iblk1 V c 0 t : Vec Ideal S512x1024 .f32) (ix2 r k) = (V c main_v1 : S8192x1024.Idx → EReal) (ix2 i k) := by
  obtain ⟨e0, e1, -⟩ := idx1 t
  unfold iblk1
  rw [View.read_apply]
  show V c main_v1 _ = V c main_v1 _
  refine congrArg (V c main_v1) (funext fun a => Fin.ext ?_)
  match a with
  | ⟨0, _⟩ => show win1_0.index t (0 : Fin 2) * 512 + 1 * r.val = i.val; rw [e0, hi]; omega
  | ⟨1, _⟩ => show win1_0.index t (1 : Fin 2) * 1024 + 1 * k.val = k.val; rw [e1]; omega

/-- The w block at any point is the whole of w. -/
theorem wblk1 (c : Dev nD) (t : Fin cfg1.N) : (iblk1 V c 1 t : Vec Ideal S1024x4096 .bf16) = V c main_v41 := by
  obtain ⟨-, -, e0, e1, -⟩ := idx1 t
  funext x
  unfold iblk1
  rw [View.read_apply]
  show V c main_v41 _ = V c main_v41 x
  refine congrArg (V c main_v41) (funext fun a => Fin.ext ?_)
  match a with
  | ⟨0, _⟩ => show win1_1.index t (0 : Fin 2) * 1024 + 1 * (x 0).val = (x 0).val; rw [e0]; omega
  | ⟨1, _⟩ => show win1_1.index t (1 : Fin 2) * 4096 + 1 * (x 1).val = (x 1).val; rw [e1]; omega

/-- The bias block at any point is the whole bias row. -/
theorem bblk1 (c : Dev nD) (t : Fin cfg1.N) : (iblk1 V c 2 t : Vec Ideal S1x4096 .f32) = V c main_v44 := by
  obtain ⟨-, -, -, -, e0, e1, -⟩ := idx1 t
  funext x
  unfold iblk1
  rw [View.read_apply]
  show V c main_v44 _ = V c main_v44 x
  refine congrArg (V c main_v44) (funext fun a => Fin.ext ?_)
  match a with
  | ⟨0, _⟩ => show win1_2.index t (0 : Fin 2) * 1 + 1 * (x 0).val = (x 0).val; rw [e0]; omega
  | ⟨1, _⟩ => show win1_2.index t (1 : Fin 2) * 4096 + 1 * (x 1).val = (x 1).val; rw [e1]; omega

/-- Entry (p, q) of the output block at point t sits at (512·t + p, q) of the output array. -/
theorem emb1 (t : Fin cfg1.N) (p : Fin 512) (q : Fin 4096) (i : Fin 8192) (hi : i.val = 512 * t.val + p.val) :
    ((cfg1.win 3).blk t).view.emb (ix2 p q) = (ix2 i q : S8192x4096.Idx) := by
  obtain ⟨-, -, -, -, -, -, e0, e1⟩ := idx1 t
  refine funext fun a => Fin.ext ?_
  match a with
  | ⟨0, _⟩ => show win1_3.index t (0 : Fin 2) * 512 + 1 * p.val = i.val; rw [e0, hi]; omega
  | ⟨1, _⟩ => show win1_3.index t (1 : Fin 2) * 4096 + 1 * q.val = q.val; rw [e1]; omega

/-- One entry of what the body leaves at point t is the entry of  x·w + b  at its place in the array. -/
theorem point1 (c : Dev nD) (t : Fin cfg1.N) (j : S512x4096.Idx) :
    k1_pay1 (F := Ideal) (iblk1 V c 0 t) (iblk1 V c 1 t) (iblk1 V c 2 t) j
      = Cert.LinearSpec.lin4096 (V c main_v1) (V c main_v41) (V c main_v44) (((cfg1.win 3).blk t).view.emb j) := by
  obtain ⟨p, q, rfl⟩ : ∃ (p : Fin 512) (q : Fin 4096), j = ix2 p q := ⟨j 0, j 1, eq_ix2 j⟩
  have hN : cfg1.N = 16 := N_1
  have ht : t.val < 16 := by have := t.isLt; omega
  have hp : p.val < 512 := p.isLt
  rw [emb1 t p q ⟨512 * t.val + p.val, by omega⟩ rfl]
  refine (PayloadAtIndex.pay1_apply (iblk1 V c 0 t) (iblk1 V c 1 t) (iblk1 V c 2 t) p q).trans ?_
  rw [wblk1 V c t, bblk1 V c t]
  exact Cert.LinearSpec.lin_rows 8192 1024 4096 512 (V c main_v1) (V c main_v41) (V c main_v44) (iblk1 V c 0 t) p
    ⟨512 * t.val + p.val, by omega⟩ q (fun k => xblk1 V c t p k _ rfl)

/-- What point t writes back is its block of  x·w + b . -/
theorem flushed1 (c : Dev nD) (t : Fin cfg1.N) :
    (dat1 (F := Ideal) V c).flushed 3 t
      = ((cfg1.win 3).blk t).view.read (Elt Ideal) (Cert.LinearSpec.lin4096 (V c main_v1) (V c main_v41) (V c main_v44)) := by
  show (cfg1.win 3).cut (grid1.coords t) ((dat1 (F := Ideal) V c).after 3 t) = _
  rw [after1_3]
  unfold out1_3
  rw [View.canon_unit_zero hz1]
  simp only [View.ld_unit_zero (S := S512x1024) hz1, View.ld_unit_zero (S := S1024x4096) hz1, View.ld_unit_zero (S := S1x4096) hz1]
  funext j
  exact point1 V c t j

/-- An index of the output array is in point t's block iff each coordinate is in the block's range on its axis. -/
theorem mem1 (t : Fin cfg1.N) (i : S8192x4096.Idx) :
    i ∈ ((cfg1.win 3).blk t).view.set ↔ ∀ a : Fin 2, win1_3.index t a * S512x4096.size a ≤ (i a).val ∧ (i a).val < win1_3.index t a * S512x4096.size a + S512x4096.size a := by
  show i ∈ ((View.whole main_v88).slice (win1_3.rect t)).set ↔ _
  rw [View.set_slice_whole, Rect.mem_set_unit]
  exact Iff.rfl

/-- Every index of the output array is in the block of the point its row falls in: row r is in block r / 512. -/
theorem covered1 (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 16 := N_1
  obtain ⟨t, ht⟩ : ∃ t : Fin cfg1.N, t.val = (i 0).val / 512 := ⟨⟨(i 0).val / 512, by omega⟩, rfl⟩
  obtain ⟨-, -, -, -, -, -, e0, e1⟩ := idx1 t
  refine ⟨t, flush1_3 t, ?_⟩
  rw [mem1]
  intro a
  match a with
  | ⟨0, _⟩ => show win1_3.index t (0 : Fin 2) * 512 ≤ (i 0).val ∧ (i 0).val < win1_3.index t (0 : Fin 2) * 512 + 512; rw [e0, ht]; omega
  | ⟨1, _⟩ => show win1_3.index t (1 : Fin 2) * 4096 ≤ (i 1).val ∧ (i 1).val < win1_3.index t (1 : Fin 2) * 4096 + 4096; rw [e1]; omega

/-- THE OUTPUT ARRAY after the region:  x·w + b  of the x, w and bias arrays as the region finds them. -/
theorem arr1 (c : Dev nD) :
    (Gen.dat1 (F := Ideal) V c).arrAt 3 cfg1.N
      = Cert.LinearSpec.lin4096 (V c main_v1) (V c main_v41) (V c main_v44) :=
  (dat1 (F := Ideal) V c).arrAt_eq_of_cover 3 _ (fun t _ => flushed1 V c t) covered1

end Cert.KernelIdeal.RegionValue

end
-- ==== Proof.RegionValue2.lean ====
/-
  The third linear layer's output array after its region, as one function of the arrays the region finds.

  The region runs a grid of 16 points. Point t holds rows 512·t … 512·t + 511 of x (all 1024 columns), the whole of w
  and the whole bias row, and writes back rows 512·t … 512·t + 511 of the output (all 4096 columns). Row i of  x·w + b
  reads row i of x only, so what point t writes back is its block of the whole-array function  x·w + b ; every row
  lies in the block of point i / 512, so the array ends holding  x·w + b .
-/
import proofs.«144160_j59107339927555_1_alg».proof.Proof.Gen.KernelIdeal.Frame
import proofs.«144160_j59107339927555_1_alg».proof.Proof.LinearSpec
import proofs.«144160_j59107339927555_1_alg».proof.Proof.PayloadAtIndex
import Idealize.ShloMosaic.Lib.Pipeline.Value

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-- The zero offsets of a whole-buffer access, as the constant function. -/
theorem hz2 : (![0, 0] : Fin 2 → Nat) = fun _ => 0 := funext fun a => by fin_cases a <;> rfl

/-- The block indices at point t: x and the output are at row block t, column block 0; w and the bias row stay at
    block (0, 0). -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row r of the x block at point t is row 512·t + r of x. -/
theorem xblk2 (c : Dev nD) (t : Fin cfg2.N) (r : Fin 512) (k : Fin 1024) (i : Fin 8192) (hi : i.val = 512 * t.val + r.val) :
    (iblk2 V c 0 t : Vec Ideal S512x1024 .f32) (ix2 r k) = (V c main_v2 : S8192x1024.Idx → EReal) (ix2 i k) := by
  obtain ⟨e0, e1, -⟩ := idx2 t
  unfold iblk2
  rw [View.read_apply]
  show V c main_v2 _ = V c main_v2 _
  refine congrArg (V c main_v2) (funext fun a => Fin.ext ?_)
  match a with
  | ⟨0, _⟩ => show win2_0.index t (0 : Fin 2) * 512 + 1 * r.val = i.val; rw [e0, hi]; omega
  | ⟨1, _⟩ => show win2_0.index t (1 : Fin 2) * 1024 + 1 * k.val = k.val; rw [e1]; omega

/-- The w block at any point is the whole of w. -/
theorem wblk2 (c : Dev nD) (t : Fin cfg2.N) : (iblk2 V c 1 t : Vec Ideal S1024x4096 .bf16) = V c main_v62 := by
  obtain ⟨-, -, e0, e1, -⟩ := idx2 t
  funext x
  unfold iblk2
  rw [View.read_apply]
  show V c main_v62 _ = V c main_v62 x
  refine congrArg (V c main_v62) (funext fun a => Fin.ext ?_)
  match a with
  | ⟨0, _⟩ => show win2_1.index t (0 : Fin 2) * 1024 + 1 * (x 0).val = (x 0).val; rw [e0]; omega
  | ⟨1, _⟩ => show win2_1.index t (1 : Fin 2) * 4096 + 1 * (x 1).val = (x 1).val; rw [e1]; omega

/-- The bias block at any point is the whole bias row. -/
theorem bblk2 (c : Dev nD) (t : Fin cfg2.N) : (iblk2 V c 2 t : Vec Ideal S1x4096 .f32) = V c main_v65 := by
  obtain ⟨-, -, -, -, e0, e1, -⟩ := idx2 t
  funext x
  unfold iblk2
  rw [View.read_apply]
  show V c main_v65 _ = V c main_v65 x
  refine congrArg (V c main_v65) (funext fun a => Fin.ext ?_)
  match a with
  | ⟨0, _⟩ => show win2_2.index t (0 : Fin 2) * 1 + 1 * (x 0).val = (x 0).val; rw [e0]; omega
  | ⟨1, _⟩ => show win2_2.index t (1 : Fin 2) * 4096 + 1 * (x 1).val = (x 1).val; rw [e1]; omega

/-- Entry (p, q) of the output block at point t sits at (512·t + p, q) of the output array. -/
theorem emb2 (t : Fin cfg2.N) (p : Fin 512) (q : Fin 4096) (i : Fin 8192) (hi : i.val = 512 * t.val + p.val) :
    ((cfg2.win 3).blk t).view.emb (ix2 p q) = (ix2 i q : S8192x4096.Idx) := by
  obtain ⟨-, -, -, -, -, -, e0, e1⟩ := idx2 t
  refine funext fun a => Fin.ext ?_
  match a with
  | ⟨0, _⟩ => show win2_3.index t (0 : Fin 2) * 512 + 1 * p.val = i.val; rw [e0, hi]; omega
  | ⟨1, _⟩ => show win2_3.index t (1 : Fin 2) * 4096 + 1 * q.val = q.val; rw [e1]; omega

/-- One entry of what the body leaves at point t is the entry of  x·w + b  at its place in the array. -/
theorem point2 (c : Dev nD) (t : Fin cfg2.N) (j : S512x4096.Idx) :
    k2_pay1 (F := Ideal) (iblk2 V c 0 t) (iblk2 V c 1 t) (iblk2 V c 2 t) j
      = Cert.LinearSpec.lin4096 (V c main_v2) (V c main_v62) (V c main_v65) (((cfg2.win 3).blk t).view.emb j) := by
  obtain ⟨p, q, rfl⟩ : ∃ (p : Fin 512) (q : Fin 4096), j = ix2 p q := ⟨j 0, j 1, eq_ix2 j⟩
  have hN : cfg2.N = 16 := N_2
  have ht : t.val < 16 := by have := t.isLt; omega
  have hp : p.val < 512 := p.isLt
  rw [emb2 t p q ⟨512 * t.val + p.val, by omega⟩ rfl]
  refine (PayloadAtIndex.pay2_apply (iblk2 V c 0 t) (iblk2 V c 1 t) (iblk2 V c 2 t) p q).trans ?_
  rw [wblk2 V c t, bblk2 V c t]
  exact Cert.LinearSpec.lin_rows 8192 1024 4096 512 (V c main_v2) (V c main_v62) (V c main_v65) (iblk2 V c 0 t) p
    ⟨512 * t.val + p.val, by omega⟩ q (fun k => xblk2 V c t p k _ rfl)

/-- What point t writes back is its block of  x·w + b . -/
theorem flushed2 (c : Dev nD) (t : Fin cfg2.N) :
    (dat2 (F := Ideal) V c).flushed 3 t
      = ((cfg2.win 3).blk t).view.read (Elt Ideal) (Cert.LinearSpec.lin4096 (V c main_v2) (V c main_v62) (V c main_v65)) := by
  show (cfg2.win 3).cut (grid2.coords t) ((dat2 (F := Ideal) V c).after 3 t) = _
  rw [after2_3]
  unfold out2_3
  rw [View.canon_unit_zero hz2]
  simp only [View.ld_unit_zero (S := S512x1024) hz2, View.ld_unit_zero (S := S1024x4096) hz2, View.ld_unit_zero (S := S1x4096) hz2]
  funext j
  exact point2 V c t j

/-- An index of the output array is in point t's block iff each coordinate is in the block's range on its axis. -/
theorem mem2 (t : Fin cfg2.N) (i : S8192x4096.Idx) :
    i ∈ ((cfg2.win 3).blk t).view.set ↔ ∀ a : Fin 2, win2_3.index t a * S512x4096.size a ≤ (i a).val ∧ (i a).val < win2_3.index t a * S512x4096.size a + S512x4096.size a := by
  show i ∈ ((View.whole main_v89).slice (win2_3.rect t)).set ↔ _
  rw [View.set_slice_whole, Rect.mem_set_unit]
  exact Iff.rfl

/-- Every index of the output array is in the block of the point its row falls in: row r is in block r / 512. -/
theorem covered2 (i : S8192x4096.Idx) :
    ∃ t : Fin cfg2.N, (cfg2.win 3).flush t = true ∧ i ∈ ((cfg2.win 3).blk t).view.set := by
  have hi0 : (i 0).val < 8192 := (i 0).isLt
  have hi1 : (i 1).val < 4096 := (i 1).isLt
  have hN : cfg2.N = 16 := N_2
  obtain ⟨t, ht⟩ : ∃ t : Fin cfg2.N, t.val = (i 0).val / 512 := ⟨⟨(i 0).val / 512, by omega⟩, rfl⟩
  obtain ⟨-, -, -, -, -, -, e0, e1⟩ := idx2 t
  refine ⟨t, flush2_3 t, ?_⟩
  rw [mem2]
  intro a
  match a with
  | ⟨0, _⟩ => show win2_3.index t (0 : Fin 2) * 512 ≤ (i 0).val ∧ (i 0).val < win2_3.index t (0 : Fin 2) * 512 + 512; rw [e0, ht]; omega
  | ⟨1, _⟩ => show win2_3.index t (1 : Fin 2) * 4096 ≤ (i 1).val ∧ (i 1).val < win2_3.index t (1 : Fin 2) * 4096 + 4096; rw [e1]; omega

/-- THE OUTPUT ARRAY after the region:  x·w + b  of the x, w and bias arrays as the region finds them. -/
theorem arr2 (c : Dev nD) :
    (Gen.dat2 (F := Ideal) V c).arrAt 3 cfg2.N
      = Cert.LinearSpec.lin4096 (V c main_v2) (V c main_v62) (V c main_v65) :=
  (dat2 (F := Ideal) V c).arrAt_eq_of_cover 3 _ (fun t _ => flushed2 V c t) covered2

end Cert.KernelIdeal.RegionValue

end
-- ==== Proof.RegionValue3.lean ====
/-
  The fourth linear layer's output array after its region, as one function of the arrays the region finds.

  The region runs a grid of 16 points. Point t holds rows 512·t … 512·t + 511 of x (all 4096 columns), the whole of w
  and the whole bias row, and writes back rows 512·t … 512·t + 511 of the output (all 1024 columns). Row i of  x·w + b
  reads row i of x only, so what point t writes back is its block of the whole-array function  x·w + b ; every row
  lies in the block of point i / 512, so the array ends holding  x·w + b .
-/
import proofs.«144160_j59107339927555_1_alg».proof.Proof.Gen.KernelIdeal.Frame
import proofs.«144160_j59107339927555_1_alg».proof.Proof.LinearSpec
import proofs.«144160_j59107339927555_1_alg».proof.Proof.PayloadAtIndex
import Idealize.ShloMosaic.Lib.Pipeline.Value

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-- The zero offsets of a whole-buffer access, as the constant function. -/
theorem hz3 : (![0, 0] : Fin 2 → Nat) = fun _ => 0 := funext fun a => by fin_cases a <;> rfl

/-- The block indices at point t: x and the output are at row block t, column block 0; w and the bias row stay at
    block (0, 0). -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row r of the x block at point t is row 512·t + r of x. -/
theorem xblk3 (c : Dev nD) (t : Fin cfg3.N) (r : Fin 512) (k : Fin 4096) (i : Fin 8192) (hi : i.val = 512 * t.val + r.val) :
    (iblk3 V c 0 t : Vec Ideal S512x4096 .f32) (ix2 r k) = (V c main_v112 : S8192x4096.Idx → EReal) (ix2 i k) := by
  obtain ⟨e0, e1, -⟩ := idx3 t
  unfold iblk3
  rw [View.read_apply]
  show V c main_v112 _ = V c main_v112 _
  refine congrArg (V c main_v112) (funext fun a => Fin.ext ?_)
  match a with
  | ⟨0, _⟩ => show win3_0.index t (0 : Fin 2) * 512 + 1 * r.val = i.val; rw [e0, hi]; omega
  | ⟨1, _⟩ => show win3_0.index t (1 : Fin 2) * 4096 + 1 * k.val = k.val; rw [e1]; omega

/-- The w block at any point is the whole of w. -/
theorem wblk3 (c : Dev nD) (t : Fin cfg3.N) : (iblk3 V c 1 t : Vec Ideal S4096x1024 .bf16) = V c main_v83 := by
  obtain ⟨-, -, e0, e1, -⟩ := idx3 t
  funext x
  unfold iblk3
  rw [View.read_apply]
  show V c main_v83 _ = V c main_v83 x
  refine congrArg (V c main_v83) (funext fun a => Fin.ext ?_)
  match a with
  | ⟨0, _⟩ => show win3_1.index t (0 : Fin 2) * 4096 + 1 * (x 0).val = (x 0).val; rw [e0]; omega
  | ⟨1, _⟩ => show win3_1.index t (1 : Fin 2) * 1024 + 1 * (x 1).val = (x 1).val; rw [e1]; omega

/-- The bias block at any point is the whole bias row. -/
theorem bblk3 (c : Dev nD) (t : Fin cfg3.N) : (iblk3 V c 2 t : Vec Ideal S1x1024 .f32) = V c main_v86 := by
  obtain ⟨-, -, -, -, e0, e1, -⟩ := idx3 t
  funext x
  unfold iblk3
  rw [View.read_apply]
  show V c main_v86 _ = V c main_v86 x
  refine congrArg (V c main_v86) (funext fun a => Fin.ext ?_)
  match a with
  | ⟨0, _⟩ => show win3_2.index t (0 : Fin 2) * 1 + 1 * (x 0).val = (x 0).val; rw [e0]; omega
  | ⟨1, _⟩ => show win3_2.index t (1 : Fin 2) * 1024 + 1 * (x 1).val = (x 1).val; rw [e1]; omega

/-- Entry (p, q) of the output block at point t sits at (512·t + p, q) of the output array. -/
theorem emb3 (t : Fin cfg3.N) (p : Fin 512) (q : Fin 1024) (i : Fin 8192) (hi : i.val = 512 * t.val + p.val) :
    ((cfg3.win 3).blk t).view.emb (ix2 p q) = (ix2 i q : S8192x1024.Idx) := by
  obtain ⟨-, -, -, -, -, -, e0, e1⟩ := idx3 t
  refine funext fun a => Fin.ext ?_
  match a with
  | ⟨0, _⟩ => show win3_3.index t (0 : Fin 2) * 512 + 1 * p.val = i.val; rw [e0, hi]; omega
  | ⟨1, _⟩ => show win3_3.index t (1 : Fin 2) * 1024 + 1 * q.val = q.val; rw [e1]; omega

/-- One entry of what the body leaves at point t is the entry of  x·w + b  at its place in the array. -/
theorem point3 (c : Dev nD) (t : Fin cfg3.N) (j : S512x1024.Idx) :
    k3_pay1 (F := Ideal) (iblk3 V c 0 t) (iblk3 V c 1 t) (iblk3 V c 2 t) j
      = Cert.LinearSpec.lin1024 (V c main_v112) (V c main_v83) (V c main_v86) (((cfg3.win 3).blk t).view.emb j) := by
  obtain ⟨p, q, rfl⟩ : ∃ (p : Fin 512) (q : Fin 1024), j = ix2 p q := ⟨j 0, j 1, eq_ix2 j⟩
  have hN : cfg3.N = 16 := N_3
  have ht : t.val < 16 := by have := t.isLt; omega
  have hp : p.val < 512 := p.isLt
  rw [emb3 t p q ⟨512 * t.val + p.val, by omega⟩ rfl]
  refine (PayloadAtIndex.pay3_apply (iblk3 V c 0 t) (iblk3 V c 1 t) (iblk3 V c 2 t) p q).trans ?_
  rw [wblk3 V c t, bblk3 V c t]
  exact Cert.LinearSpec.lin_rows 8192 4096 1024 512 (V c main_v112) (V c main_v83) (V c main_v86) (iblk3 V c 0 t) p
    ⟨512 * t.val + p.val, by omega⟩ q (fun k => xblk3 V c t p k _ rfl)

/-- What point t writes back is its block of  x·w + b . -/
theorem flushed3 (c : Dev nD) (t : Fin cfg3.N) :
    (dat3 (F := Ideal) V c).flushed 3 t
      = ((cfg3.win 3).blk t).view.read (Elt Ideal) (Cert.LinearSpec.lin1024 (V c main_v112) (V c main_v83) (V c main_v86)) := by
  show (cfg3.win 3).cut (grid3.coords t) ((dat3 (F := Ideal) V c).after 3 t) = _
  rw [after3_3]
  unfold out3_3
  rw [View.canon_unit_zero hz3]
  simp only [View.ld_unit_zero (S := S512x4096) hz3, View.ld_unit_zero (S := S4096x1024) hz3, View.ld_unit_zero (S := S1x1024) hz3]
  funext j
  exact point3 V c t j

/-- An index of the output array is in point t's block iff each coordinate is in the block's range on its axis. -/
theorem mem3 (t : Fin cfg3.N) (i : S8192x1024.Idx) :
    i ∈ ((cfg3.win 3).blk t).view.set ↔ ∀ a : Fin 2, win3_3.index t a * S512x1024.size a ≤ (i a).val ∧ (i a).val < win3_3.index t a * S512x1024.size a + S512x1024.size a := by
  show i ∈ ((View.whole main_v113).slice (win3_3.rect t)).set ↔ _
  rw [View.set_slice_whole, Rect.mem_set_unit]
  exact Iff.rfl

/-- Every index of the output array is in the block of the point its row falls in: row r is in block r / 512. -/
theorem covered3 (i : S8192x1024.Idx) :
    ∃ t : Fin cfg3.N, (cfg3.win 3).flush t = true ∧ i ∈ ((cfg3.win 3).blk t).view.set := by
  have hi0 : (i 0).val < 8192 := (i 0).isLt
  have hi1 : (i 1).val < 1024 := (i 1).isLt
  have hN : cfg3.N = 16 := N_3
  obtain ⟨t, ht⟩ : ∃ t : Fin cfg3.N, t.val = (i 0).val / 512 := ⟨⟨(i 0).val / 512, by omega⟩, rfl⟩
  obtain ⟨-, -, -, -, -, -, e0, e1⟩ := idx3 t
  refine ⟨t, flush3_3 t, ?_⟩
  rw [mem3]
  intro a
  match a with
  | ⟨0, _⟩ => show win3_3.index t (0 : Fin 2) * 512 ≤ (i 0).val ∧ (i 0).val < win3_3.index t (0 : Fin 2) * 512 + 512; rw [e0, ht]; omega
  | ⟨1, _⟩ => show win3_3.index t (1 : Fin 2) * 1024 ≤ (i 1).val ∧ (i 1).val < win3_3.index t (1 : Fin 2) * 1024 + 1024; rw [e1]; omega

/-- THE OUTPUT ARRAY after the region:  x·w + b  of the x, w and bias arrays as the region finds them. -/
theorem arr3 (c : Dev nD) :
    (Gen.dat3 (F := Ideal) V c).arrAt 3 cfg3.N
      = Cert.LinearSpec.lin1024 (V c main_v112) (V c main_v83) (V c main_v86) :=
  (dat3 (F := Ideal) V c).arrAt_eq_of_cover 3 _ (fun t _ => flushed3 V c t) covered3

end Cert.KernelIdeal.RegionValue

end
-- ==== Proof.KernelValue.lean ====
/-
  The idealized kernel program's two results as functions of its arguments.

  Read back through the chain of host stretches and regions: each of the first three regions leaves in its output
  array the linear layer of its three input arrays, which are the flattened argument, the expanded weight in the
  narrower float format and the repeated bias as one row — the specification's projection of q, k, v; the host
  stretch between computes the attention weights and the merged heads from them; the fourth region leaves the
  output projection of the merged heads; the last stretch adds the residual.
-/
import proofs.«144160_j59107339927555_1_alg».proof.Proof.Gen.KernelIdeal.Frame
import proofs.«144160_j59107339927555_1_alg».proof.Proof.RefSpec
import proofs.«144160_j59107339927555_1_alg».proof.Proof.LinBridge
import proofs.«144160_j59107339927555_1_alg».proof.Proof.FoldPass
import proofs.«144160_j59107339927555_1_alg».proof.Proof.FoldIn
import proofs.«144160_j59107339927555_1_alg».proof.Proof.FoldAttn
import proofs.«144160_j59107339927555_1_alg».proof.Proof.RegionValue0
import proofs.«144160_j59107339927555_1_alg».proof.Proof.RegionValue1
import proofs.«144160_j59107339927555_1_alg».proof.Proof.RegionValue2
import proofs.«144160_j59107339927555_1_alg».proof.Proof.RegionValue3

noncomputable section

namespace Cert.KernelIdeal.KValue

open Cert.KernelIdeal Cert.KernelIdeal.Gen Cert.KernelIdeal.Fold Cert.KernelIdeal.RegionValue
open Idealize.ShloMosaic Idealize.ShloMosaic.TcCoe Idealize.SL.Sem
open Cert.ReferenceIdeal (Spec.qkv Spec.attnOut Spec.out)

variable (m : (ℓ : Loc nD τ sig) → Buf (Elt Ideal) ℓ) (ρ : Dev nD → PrngReg) (c : Dev nD)

/-- Region 0 leaves q's projection in its output array. -/
theorem qp : V12 m ρ c main_v87 = Cert.ReferenceIdeal.Spec.qkv (m ((c : Thread nD τ).loc main_arg0)) (m ((c : Thread nD τ).loc main_arg3)) (m ((c : Thread nD τ).loc main_arg4)) := by
  rw [V12_main_v87]
  show W10 m ρ c (Proc.devRef .tc (Pipeline.arrRef spec0 3)) = _
  rw [W10_arr, arr0, V9_main_v0, V9_main_v20, V9_main_v23, ← Cert.ReferenceIdeal.LinBridge.proj_eq]
  rfl

/-- Region 1 leaves k's projection. -/
theorem kp : V12 m ρ c main_v88 = Cert.ReferenceIdeal.Spec.qkv (m ((c : Thread nD τ).loc main_arg1)) (m ((c : Thread nD τ).loc main_arg5)) (m ((c : Thread nD τ).loc main_arg6)) := by
  rw [V12_main_v88]
  show W11 m ρ c (Proc.devRef .tc (Pipeline.arrRef spec1 3)) = _
  rw [W11_arr, arr1, V10_main_v1, V10_main_v41, V10_main_v44, V9_main_v1, V9_main_v41, V9_main_v44,
    ← Cert.ReferenceIdeal.LinBridge.proj_eq]
  rfl

/-- Region 2 leaves v's projection. -/
theorem vp : V12 m ρ c main_v89 = Cert.ReferenceIdeal.Spec.qkv (m ((c : Thread nD τ).loc main_arg2)) (m ((c : Thread nD τ).loc main_arg7)) (m ((c : Thread nD τ).loc main_arg8)) := by
  show W12 m ρ c (Proc.devRef .tc (Pipeline.arrRef spec2 3)) = _
  rw [W12_arr, arr2, V11_main_v2, V11_main_v62, V11_main_v65, V9_main_v2, V9_main_v62, V9_main_v65,
    ← Cert.ReferenceIdeal.LinBridge.proj_eq]
  rfl

/-- The second result: the attention weights of q's and k's projections. -/
theorem attn_eq : W15 m ρ c (Proc.devRef .tc main_v109)
    = Cert.ReferenceIdeal.Spec.attnOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [W15_main_v109]
  show V13 m ρ c main_v109 = _
  rw [V13_main_v109, qp, kp]
  rfl

/-- The first result: the output projection of the merged heads, plus q. -/
theorem out_eq : W15 m ρ c (Proc.devRef .tc main_v115)
    = Cert.ReferenceIdeal.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h113 : W14 m ρ c (Proc.devRef .tc main_v113)
      = Cert.ReferenceIdeal.Spec.projFc
          (Cert.ReferenceIdeal.Spec.merge
            (Cert.ReferenceIdeal.Spec.attnOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
            (Cert.ReferenceIdeal.Spec.qkv (m ((c : Thread nD τ).loc main_arg2)) (m ((c : Thread nD τ).loc main_arg7)) (m ((c : Thread nD τ).loc main_arg8))))
          (Cert.ReferenceIdeal.Spec.expandFcT (m ((c : Thread nD τ).loc main_arg9))) (Cert.ReferenceIdeal.Spec.repFc (m ((c : Thread nD τ).loc main_arg10))) := by
    show W14 m ρ c (Proc.devRef .tc (Pipeline.arrRef spec3 3)) = _
    rw [W14_arr, arr3, V13_main_v112, V13_main_v83, V13_main_v86, V9_main_v83, V9_main_v86, qp, kp, vp,
      ← Cert.ReferenceIdeal.LinBridge.projFc_eq]
    rfl
  rw [W15_main_v115, h113]
  rfl

end Cert.KernelIdeal.KValue

end
-- ==== Proof.RefOps.lean ====
/-
  The reference program's @main as one list of operations: the statements of its three windows in order, each call of
  the outlined remainder replaced by that function's twenty-one operations over the call's own buffers. The list
  is cut into the pieces the attention layer is made of — an index table (in three parts around the remainder), a
  projection, the split into heads, the attention weights, the merge, the output projection, the residual — so
  that a buffer's final contents can be read back piece by piece. Every operation touches only buffers of the
  TensorCore, and every operation determines its result.
-/
import proofs.«144160_j59107339927555_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lines in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Two lines whose operations each determine their results: so does every operation of the two in a row. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

/-- The three argument arrays q, k, v read as [8192, 1024] matrices. -/
abbrev opsFlat : List (HloOp τ sig (Elt F)) :=
  [ StableHlo.reshape main_arg0 main_v0 rfl shapeCasts_S8192x1024x1x1_S8192x1024,
    StableHlo.reshape main_arg1 main_v1 rfl shapeCasts_S8192x1024x1x1_S8192x1024,
    StableHlo.reshape main_arg2 main_v2 rfl shapeCasts_S8192x1024x1x1_S8192x1024 ]
theorem opsFlat_sub : (opsFlat : List (HloOp τ sig (Elt F))).Forall fun op => op.bufs ⊆ tcRefs τ sig :=
  ⟨StableHlo.reshape_bufs_sub .., StableHlo.reshape_bufs_sub .., StableHlo.reshape_bufs_sub ..⟩
theorem opsFlat_fresh : ∀ op ∈ (opsFlat : List (HloOp τ sig (Elt F))), op.fresh = ∅ := by
  intro _ h; (repeat (cases h with | head => rfl | tail _ h => ?_)); exact nomatch h

/-- First index table: the iota over the eight group positions, its two broadcasts to [8, 8], their difference go − gi, and the divisor 8. -/
abbrev opsIdx0a : List (HloOp τ sig (Elt F)) :=
  [ StableHlo.nullary main_v3 (iotaInDim S8 32 0),
    StableHlo.unary main_v3 main_v4 (broadcastInDim S8x1 ![0] bcast_S8_S8x1_0 : (⟨S8, .i32⟩ : BufTy).Contents (Elt F) → (⟨S8x1, .i32⟩ : BufTy).Contents (Elt F)),
    StableHlo.unary main_v3 main_v5 (broadcastInDim S1x8 ![1] bcast_S8_S1x8_1 : (⟨S8, .i32⟩ : BufTy).Contents (Elt F) → (⟨S1x8, .i32⟩ : BufTy).Contents (Elt F)),
    StableHlo.unary main_v4 main_v6 (broadcastInDim S8x8 ![0, 1] bcast_S8x1_S8x8_0_1 : (⟨S8x1, .i32⟩ : BufTy).Contents (Elt F) → (⟨S8x8, .i32⟩ : BufTy).Contents (Elt F)),
    StableHlo.unary main_v5 main_v7 (broadcastInDim S8x8 ![0, 1] bcast_S1x8_S8x8_0_1 : (⟨S1x8, .i32⟩ : BufTy).Contents (Elt F) → (⟨S8x8, .i32⟩ : BufTy).Contents (Elt F)),
    StableHlo.binary main_v6 main_v7 main_v8 (subi : (⟨S8x8, .i32⟩ : BufTy).Contents (Elt F) → (⟨S8x8, .i32⟩ : BufTy).Contents (Elt F) → (⟨S8x8, .i32⟩ : BufTy).Contents (Elt F)),
    StableHlo.nullary main_c (constantI S_ 32 8#32) ]
theorem opsIdx0a_sub : (opsIdx0a : List (HloOp τ sig (Elt F))).Forall fun op => op.bufs ⊆ tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.nullary_bufs_sub ..⟩
theorem opsIdx0a_fresh : ∀ op ∈ (opsIdx0a : List (HloOp τ sig (Elt F))), op.fresh = ∅ := by
  intro _ h; (repeat (cases h with | head => rfl | tail _ h => ?_)); exact nomatch h

/-- First index table: the remainder (go − gi) mod 8 with the sign of the divisor, the outlined remainder's twenty-one operations over the first call's buffers. -/
abbrev opsRem0 : List (HloOp τ sig (Elt F)) :=
  [ StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S8x8, .i32⟩) (broadcastInDim S8x8 ![] bcast_S_S8x8),
    StableHlo.TRef.binary (.of main_v8 : StableHlo.TRef sig ⟨S8x8, .i32⟩) (.of main_call0_v3 : StableHlo.TRef sig ⟨S8x8, .i32⟩) (.of main_call0_v4 : StableHlo.TRef sig ⟨S8x8, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S8x8, .i32⟩) (broadcastInDim S8x8 ![] bcast_S_S8x8),
    StableHlo.TRef.binary (.of main_call0_v4 : StableHlo.TRef sig ⟨S8x8, .i32⟩) (.of main_call0_v5 : StableHlo.TRef sig ⟨S8x8, .i32⟩) (.of main_call0_v6 : StableHlo.TRef sig ⟨S8x8, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S8x8, .i32⟩) (broadcastInDim S8x8 ![] bcast_S_S8x8),
    StableHlo.TRef.binary (.of main_call0_v4 : StableHlo.TRef sig ⟨S8x8, .i32⟩) (.of main_call0_v7 : StableHlo.TRef sig ⟨S8x8, .i32⟩) (.of main_call0_v8 : StableHlo.TRef sig ⟨S8x8, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S8x8, .i1⟩) (broadcastInDim S8x8 ![] bcast_S_S8x8),
    StableHlo.TRef.binary (.of main_call0_v8 : StableHlo.TRef sig ⟨S8x8, .i1⟩) (.of main_call0_v10 : StableHlo.TRef sig ⟨S8x8, .i1⟩) (.of main_call0_v11 : StableHlo.TRef sig ⟨S8x8, .i1⟩) (cmpi .ne),
    StableHlo.TRef.binary (.of main_call0_v11 : StableHlo.TRef sig ⟨S8x8, .i1⟩) (.of main_call0_v6 : StableHlo.TRef sig ⟨S8x8, .i1⟩) (.of main_call0_v12 : StableHlo.TRef sig ⟨S8x8, .i1⟩) andi,
    StableHlo.TRef.unary main_call0_call0.v0 (.of main_call0_v13 : StableHlo.TRef sig ⟨S8x8, .i32⟩) (broadcastInDim S8x8 ![] bcast_S_S8x8),
    StableHlo.TRef.binary (.of main_call0_v4 : StableHlo.TRef sig ⟨S8x8, .i32⟩) (.of main_call0_v13 : StableHlo.TRef sig ⟨S8x8, .i32⟩) (.of main_call0_v14 : StableHlo.TRef sig ⟨S8x8, .i32⟩) addi,
    StableHlo.TRef.ternary (.of main_call0_v12 : StableHlo.TRef sig ⟨S8x8, .i1⟩) (.of main_call0_v14 : StableHlo.TRef sig ⟨S8x8, .i32⟩) (.of main_call0_v4 : StableHlo.TRef sig ⟨S8x8, .i32⟩) (.of main_v9 : StableHlo.TRef sig ⟨S8x8, .i32⟩) select ]
theorem opsRem0_sub : (opsRem0 : List (HloOp τ sig (Elt F))).Forall fun op => op.bufs ⊆ tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem opsRem0_fresh : ∀ op ∈ (opsRem0 : List (HloOp τ sig (Elt F))), op.fresh = ∅ := by
  intro _ h; (repeat (cases h with | head => rfl | tail _ h => ?_)); exact nomatch h

/-- First index table: the remainder made non-negative (8 added where it is negative) and given a trailing unit axis. -/
abbrev opsIdx0b : List (HloOp τ sig (Elt F)) :=
  [ StableHlo.nullary main_c_0 (constantI S_ 32 0#32),
    StableHlo.unary main_c_0 main_v10 (broadcastInDim S8x8 ![] bcast_S_S8x8 : (⟨S_, .i32⟩ : BufTy).Contents (Elt F) → (⟨S8x8, .i32⟩ : BufTy).Contents (Elt F)),
    StableHlo.binary main_v9 main_v10 main_v11 (cmpi .slt : (⟨S8x8, .i32⟩ : BufTy).Contents (Elt F) → (⟨S8x8, .i32⟩ : BufTy).Contents (Elt F) → (⟨S8x8, .i1⟩ : BufTy).Contents (Elt F)),
    StableHlo.nullary main_c_1 (constantI S_ 32 8#32),
    StableHlo.unary main_c_1 main_v12 (broadcastInDim S8x8 ![] bcast_S_S8x8 : (⟨S_, .i32⟩ : BufTy).Contents (Elt F) → (⟨S8x8, .i32⟩ : BufTy).Contents (Elt F)),
    StableHlo.binary main_v9 main_v12 main_v13 (addi : (⟨S8x8, .i32⟩ : BufTy).Contents (Elt F) → (⟨S8x8, .i32⟩ : BufTy).Contents (Elt F) → (⟨S8x8, .i32⟩ : BufTy).Contents (Elt F)),
    StableHlo.ternary main_v11 main_v13 main_v9 main_v14 (select : (⟨S8x8, .i1⟩ : BufTy).Contents (Elt F) → (⟨S8x8, .i32⟩ : BufTy).Contents (Elt F) → (⟨S8x8, .i32⟩ : BufTy).Contents (Elt F) → (⟨S8x8, .i32⟩ : BufTy).Contents (Elt F)),
    StableHlo.unary main_v14 main_v15 (broadcastInDim S8x8x1 ![0, 1] bcast_S8x8_S8x8x1_0_1 : (⟨S8x8, .i32⟩ : BufTy).Contents (Elt F) → (⟨S8x8x1, .i32⟩ : BufTy).Contents (Elt F)) ]
theorem opsIdx0b_sub : (opsIdx0b : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩
theorem opsIdx0b_fresh : ∀ op ∈ (opsIdx0b : List (HloOp τ sig (Elt F))), op.fresh = ∅ := by
  intro _ h; (repeat (cases h with | head => rfl | tail _ h => ?_)); exact nomatch h

/-- The projection of q: the weight gathered through the table, transposed and flattened to [4096, 1024], the bias repeated to [4096], the weight transposed, the product x · Wᵀ and the bias added to every row. -/
abbrev opsProj0 : List (HloOp τ sig (Elt F)) :=
  [ StableHlo.binary main_arg3 main_v15 main_v16 ((fun x i => Host.gather gather_S512x128x8_S8x8x1_S512x128x8x8_01_2_n_n_2_2_5121281 x i) : (⟨S512x128x8, .f32⟩ : BufTy).Contents (Elt F) → (⟨S8x8x1, .i32⟩ : BufTy).Contents (Elt F) → (⟨S512x128x8x8, .f32⟩ : BufTy).Contents (Elt F)),
    StableHlo.unary main_v16 main_v17 ((transpose S512x8x128x8 [0, 2, 1, 3] · transposes_S512x128x8x8_S512x8x128x8_0_2_1_3) : (⟨S512x128x8x8, .f32⟩ : BufTy).Contents (Elt F) → (⟨S512x8x128x8, .f32⟩ : BufTy).Contents (Elt F)),
    StableHlo.reshape main_v17 main_v18 rfl shapeCasts_S512x8x128x8_S4096x1024,
    StableHlo.unary main_arg4 main_v19 (broadcastInDim S512x8 ![0] bcast_S512_S512x8_0 : (⟨S512, .f32⟩ : BufTy).Contents (Elt F) → (⟨S512x8, .f32⟩ : BufTy).Contents (Elt F)),
    StableHlo.reshape main_v19 main_v20 rfl shapeCasts_S512x8_S4096,
    StableHlo.unary main_v18 main_v21 ((transpose S1024x4096 [1, 0] · transposes_S4096x1024_S1024x4096_1_0) : (⟨S4096x1024, .f32⟩ : BufTy).Contents (Elt F) → (⟨S1024x4096, .f32⟩ : BufTy).Contents (Elt F)),
    StableHlo.binary main_v0 main_v21 main_v22 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    StableHlo.unary main_v20 main_v23 (broadcastInDim S1x4096 ![1] bcast_S4096_S1x4096_1 : (⟨S4096, .f32⟩ : BufTy).Contents (Elt F) → (⟨S1x4096, .f32⟩ : BufTy).Contents (Elt F)),
    StableHlo.unary main_v23 main_v24 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v22 main_v24 main_v25 (addf : (⟨S8192x4096, .f32⟩ : BufTy).Contents (Elt F) → (⟨S8192x4096, .f32⟩ : BufTy).Contents (Elt F) → (⟨S8192x4096, .f32⟩ : BufTy).Contents (Elt F)) ]
theorem opsProj0_sub : (opsProj0 : List (HloOp τ sig (Elt F))).Forall fun op => op.bufs ⊆ tcRefs τ sig :=
  ⟨StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.unary_bufs_sub .., StableHlo.binary_bufs_sub ..⟩
theorem opsProj0_fresh : ∀ op ∈ (opsProj0 : List (HloOp τ sig (Elt F))), op.fresh = ∅ := by
  intro _ h; (repeat (cases h with | head => rfl | tail _ h => ?_)); exact nomatch h

/-- The projection of q split into heads: read as [8192, 8, 8, 64], the two middle axes exchanged. -/
abbrev opsHeads0 : List (HloOp τ sig (Elt F)) :=
  [ StableHlo.reshape main_v25 main_v26 rfl shapeCasts_S8192x4096_S8192x8x8x64,
    StableHlo.unary main_v26 main_v27 ((transpose S8192x8x8x64 [0, 2, 1, 3] · transposes_S8192x8x8x64_S8192x8x8x64_0_2_1_3) : (⟨S8192x8x8x64, .f32⟩ : BufTy).Contents (Elt F) → (⟨S8192x8x8x64, .f32⟩ : BufTy).Contents (Elt F)) ]
theorem opsHeads0_sub : (opsHeads0 : List (HloOp τ sig (Elt F))).Forall fun op => op.bufs ⊆ tcRefs τ sig :=
  ⟨StableHlo.reshape_bufs_sub .., StableHlo.unary_bufs_sub ..⟩
theorem opsHeads0_fresh : ∀ op ∈ (opsHeads0 : List (HloOp τ sig (Elt F))), op.fresh = ∅ := by
  intro _ h; (repeat (cases h with | head => rfl | tail _ h => ?_)); exact nomatch h

/-- Second index table: the iota, its two broadcasts, their difference, and the divisor 8. -/
abbrev opsIdx1a : List (HloOp τ sig (Elt F)) :=
  [ StableHlo.nullary main_v28 (iotaInDim S8 32 0),
    StableHlo.unary main_v28 main_v29 (broadcastInDim S8x1 ![0] bcast_S8_S8x1_0 : (⟨S8, .i32⟩ : BufTy).Contents (Elt F) → (⟨S8x1, .i32⟩ : BufTy).Contents (Elt F)),
    StableHlo.unary main_v28 main_v30 (broadcastInDim S1x8 ![1] bcast_S8_S1x8_1 : (⟨S8, .i32⟩ : BufTy).Contents (Elt F) → (⟨S1x8, .i32⟩ : BufTy).Contents (Elt F)),
    StableHlo.unary main_v29 main_v31 (broadcastInDim S8x8 ![0, 1] bcast_S8x1_S8x8_0_1 : (⟨S8x1, .i32⟩ : BufTy).Contents (Elt F) → (⟨S8x8, .i32⟩ : BufTy).Contents (Elt F)),
    StableHlo.unary main_v30 main_v32 (broadcastInDim S8x8 ![0, 1] bcast_S1x8_S8x8_0_1 : (⟨S1x8, .i32⟩ : BufTy).Contents (Elt F) → (⟨S8x8, .i32⟩ : BufTy).Contents (Elt F)),
    StableHlo.binary main_v31 main_v32 main_v33 (subi : (⟨S8x8, .i32⟩ : BufTy).Contents (Elt F) → (⟨S8x8, .i32⟩ : BufTy).Contents (Elt F) → (⟨S8x8, .i32⟩ : BufTy).Contents (Elt F)),
    StableHlo.nullary main_c_2 (constantI S_ 32 8#32) ]
theorem opsIdx1a_sub : (opsIdx1a : List (HloOp τ sig (Elt F))).Forall fun op => op.bufs ⊆ tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.nullary_bufs_sub ..⟩
theorem opsIdx1a_fresh : ∀ op ∈ (opsIdx1a : List (HloOp τ sig (Elt F))), op.fresh = ∅ := by
  intro _ h; (repeat (cases h with | head => rfl | tail _ h => ?_)); exact nomatch h

/-- Second index table: the remainder, over the second call's buffers. -/
abbrev opsRem1 : List (HloOp τ sig (Elt F)) :=
  [ StableHlo.TRef.unary (.of main_c_2 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S8x8, .i32⟩) (broadcastInDim S8x8 ![] bcast_S_S8x8),
    StableHlo.TRef.binary (.of main_v33 : StableHlo.TRef sig ⟨S8x8, .i32⟩) (.of main_call1_v3 : StableHlo.TRef sig ⟨S8x8, .i32⟩) (.of main_call1_v4 : StableHlo.TRef sig ⟨S8x8, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S8x8, .i32⟩) (broadcastInDim S8x8 ![] bcast_S_S8x8),
    StableHlo.TRef.binary (.of main_call1_v4 : StableHlo.TRef sig ⟨S8x8, .i32⟩) (.of main_call1_v5 : StableHlo.TRef sig ⟨S8x8, .i32⟩) (.of main_call1_v6 : StableHlo.TRef sig ⟨S8x8, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S8x8, .i32⟩) (broadcastInDim S8x8 ![] bcast_S_S8x8),
    StableHlo.TRef.binary (.of main_call1_v4 : StableHlo.TRef sig ⟨S8x8, .i32⟩) (.of main_call1_v7 : StableHlo.TRef sig ⟨S8x8, .i32⟩) (.of main_call1_v8 : StableHlo.TRef sig ⟨S8x8, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S8x8, .i1⟩) (broadcastInDim S8x8 ![] bcast_S_S8x8),
    StableHlo.TRef.binary (.of main_call1_v8 : StableHlo.TRef sig ⟨S8x8, .i1⟩) (.of main_call1_v10 : StableHlo.TRef sig ⟨S8x8, .i1⟩) (.of main_call1_v11 : StableHlo.TRef sig ⟨S8x8, .i1⟩) (cmpi .ne),
    StableHlo.TRef.binary (.of main_call1_v11 : StableHlo.TRef sig ⟨S8x8, .i1⟩) (.of main_call1_v6 : StableHlo.TRef sig ⟨S8x8, .i1⟩) (.of main_call1_v12 : StableHlo.TRef sig ⟨S8x8, .i1⟩) andi,
    StableHlo.TRef.unary main_call1_call0.v0 (.of main_call1_v13 : StableHlo.TRef sig ⟨S8x8, .i32⟩) (broadcastInDim S8x8 ![] bcast_S_S8x8),
    StableHlo.TRef.binary (.of main_call1_v4 : StableHlo.TRef sig ⟨S8x8, .i32⟩) (.of main_call1_v13 : StableHlo.TRef sig ⟨S8x8, .i32⟩) (.of main_call1_v14 : StableHlo.TRef sig ⟨S8x8, .i32⟩) addi,
    StableHlo.TRef.ternary (.of main_call1_v12 : StableHlo.TRef sig ⟨S8x8, .i1⟩) (.of main_call1_v14 : StableHlo.TRef sig ⟨S8x8, .i32⟩) (.of main_call1_v4 : StableHlo.TRef sig ⟨S8x8, .i32⟩) (.of main_v34 : StableHlo.TRef sig ⟨S8x8, .i32⟩) select ]
theorem opsRem1_sub : (opsRem1 : List (HloOp τ sig (Elt F))).Forall fun op => op.bufs ⊆ tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem opsRem1_fresh : ∀ op ∈ (opsRem1 : List (HloOp τ sig (Elt F))), op.fresh = ∅ := by
  intro _ h; (repeat (cases h with | head => rfl | tail _ h => ?_)); exact nomatch h

/-- Second index table: made non-negative, with a trailing unit axis. -/
abbrev opsIdx1b : List (HloOp τ sig (Elt F)) :=
  [ StableHlo.nullary main_c_3 (constantI S_ 32 0#32),
    StableHlo.unary main_c_3 main_v35 (broadcastInDim S8x8 ![] bcast_S_S8x8 : (⟨S_, .i32⟩ : BufTy).Contents (Elt F) → (⟨S8x8, .i32⟩ : BufTy).Contents (Elt F)),
    StableHlo.binary main_v34 main_v35 main_v36 (cmpi .slt : (⟨S8x8, .i32⟩ : BufTy).Contents (Elt F) → (⟨S8x8, .i32⟩ : BufTy).Contents (Elt F) → (⟨S8x8, .i1⟩ : BufTy).Contents (Elt F)),
    StableHlo.nullary main_c_4 (constantI S_ 32 8#32),
    StableHlo.unary main_c_4 main_v37 (broadcastInDim S8x8 ![] bcast_S_S8x8 : (⟨S_, .i32⟩ : BufTy).Contents (Elt F) → (⟨S8x8, .i32⟩ : BufTy).Contents (Elt F)),
    StableHlo.binary main_v34 main_v37 main_v38 (addi : (⟨S8x8, .i32⟩ : BufTy).Contents (Elt F) → (⟨S8x8, .i32⟩ : BufTy).Contents (Elt F) → (⟨S8x8, .i32⟩ : BufTy).Contents (Elt F)),
    StableHlo.ternary main_v36 main_v38 main_v34 main_v39 (select : (⟨S8x8, .i1⟩ : BufTy).Contents (Elt F) → (⟨S8x8, .i32⟩ : BufTy).Contents (Elt F) → (⟨S8x8, .i32⟩ : BufTy).Contents (Elt F) → (⟨S8x8, .i32⟩ : BufTy).Contents (Elt F)),
    StableHlo.unary main_v39 main_v40 (broadcastInDim S8x8x1 ![0, 1] bcast_S8x8_S8x8x1_0_1 : (⟨S8x8, .i32⟩ : BufTy).Contents (Elt F) → (⟨S8x8x1, .i32⟩ : BufTy).Contents (Elt F)) ]
theorem opsIdx1b_sub : (opsIdx1b : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩
theorem opsIdx1b_fresh : ∀ op ∈ (opsIdx1b : List (HloOp τ sig (Elt F))), op.fresh = ∅ := by
  intro _ h; (repeat (cases h with | head => rfl | tail _ h => ?_)); exact nomatch h

/-- The projection of k. -/
abbrev opsProj1 : List (HloOp τ sig (Elt F)) :=
  [ StableHlo.binary main_arg5 main_v40 main_v41 ((fun x i => Host.gather gather_S512x128x8_S8x8x1_S512x128x8x8_01_2_n_n_2_2_5121281 x i) : (⟨S512x128x8, .f32⟩ : BufTy).Contents (Elt F) → (⟨S8x8x1, .i32⟩ : BufTy).Contents (Elt F) → (⟨S512x128x8x8, .f32⟩ : BufTy).Contents (Elt F)),
    StableHlo.unary main_v41 main_v42 ((transpose S512x8x128x8 [0, 2, 1, 3] · transposes_S512x128x8x8_S512x8x128x8_0_2_1_3) : (⟨S512x128x8x8, .f32⟩ : BufTy).Contents (Elt F) → (⟨S512x8x128x8, .f32⟩ : BufTy).Contents (Elt F)),
    StableHlo.reshape main_v42 main_v43 rfl shapeCasts_S512x8x128x8_S4096x1024,
    StableHlo.unary main_arg6 main_v44 (broadcastInDim S512x8 ![0] bcast_S512_S512x8_0 : (⟨S512, .f32⟩ : BufTy).Contents (Elt F) → (⟨S512x8, .f32⟩ : BufTy).Contents (Elt F)),
    StableHlo.reshape main_v44 main_v45 rfl shapeCasts_S512x8_S4096,
    StableHlo.unary main_v43 main_v46 ((transpose S1024x4096 [1, 0] · transposes_S4096x1024_S1024x4096_1_0) : (⟨S4096x1024, .f32⟩ : BufTy).Contents (Elt F) → (⟨S1024x4096, .f32⟩ : BufTy).Contents (Elt F)),
    StableHlo.binary main_v1 main_v46 main_v47 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    StableHlo.unary main_v45 main_v48 (broadcastInDim S1x4096 ![1] bcast_S4096_S1x4096_1 : (⟨S4096, .f32⟩ : BufTy).Contents (Elt F) → (⟨S1x4096, .f32⟩ : BufTy).Contents (Elt F)),
    StableHlo.unary main_v48 main_v49 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v47 main_v49 main_v50 (addf : (⟨S8192x4096, .f32⟩ : BufTy).Contents (Elt F) → (⟨S8192x4096, .f32⟩ : BufTy).Contents (Elt F) → (⟨S8192x4096, .f32⟩ : BufTy).Contents (Elt F)) ]
theorem opsProj1_sub : (opsProj1 : List (HloOp τ sig (Elt F))).Forall fun op => op.bufs ⊆ tcRefs τ sig :=
  ⟨StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.unary_bufs_sub .., StableHlo.binary_bufs_sub ..⟩
theorem opsProj1_fresh : ∀ op ∈ (opsProj1 : List (HloOp τ sig (Elt F))), op.fresh = ∅ := by
  intro _ h; (repeat (cases h with | head => rfl | tail _ h => ?_)); exact nomatch h

/-- The projection of k split into heads. -/
abbrev opsHeads1 : List (HloOp τ sig (Elt F)) :=
  [ StableHlo.reshape main_v50 main_v51 rfl shapeCasts_S8192x4096_S8192x8x8x64,
    StableHlo.unary main_v51 main_v52 ((transpose S8192x8x8x64 [0, 2, 1, 3] · transposes_S8192x8x8x64_S8192x8x8x64_0_2_1_3) : (⟨S8192x8x8x64, .f32⟩ : BufTy).Contents (Elt F) → (⟨S8192x8x8x64, .f32⟩ : BufTy).Contents (Elt F)) ]
theorem opsHeads1_sub : (opsHeads1 : List (HloOp τ sig (Elt F))).Forall fun op => op.bufs ⊆ tcRefs τ sig :=
  ⟨StableHlo.reshape_bufs_sub .., StableHlo.unary_bufs_sub ..⟩
theorem opsHeads1_fresh : ∀ op ∈ (opsHeads1 : List (HloOp τ sig (Elt F))), op.fresh = ∅ := by
  intro _ h; (repeat (cases h with | head => rfl | tail _ h => ?_)); exact nomatch h

/-- Third index table: the iota. -/
abbrev opsIdx2a : List (HloOp τ sig (Elt F)) :=
  [ StableHlo.nullary main_v53 (iotaInDim S8 32 0) ]
theorem opsIdx2a_sub : (opsIdx2a : List (HloOp τ sig (Elt F))).Forall fun op => op.bufs ⊆ tcRefs τ sig :=
  StableHlo.nullary_bufs_sub ..
theorem opsIdx2a_fresh : ∀ op ∈ (opsIdx2a : List (HloOp τ sig (Elt F))), op.fresh = ∅ := by
  intro _ h; (repeat (cases h with | head => rfl | tail _ h => ?_)); exact nomatch h

/-- Third index table: the iota's two broadcasts, their difference, and the divisor 8. -/
abbrev opsIdx2b : List (HloOp τ sig (Elt F)) :=
  [ StableHlo.unary main_v53 main_v54 (broadcastInDim S8x1 ![0] bcast_S8_S8x1_0 : (⟨S8, .i32⟩ : BufTy).Contents (Elt F) → (⟨S8x1, .i32⟩ : BufTy).Contents (Elt F)),
    StableHlo.unary main_v53 main_v55 (broadcastInDim S1x8 ![1] bcast_S8_S1x8_1 : (⟨S8, .i32⟩ : BufTy).Contents (Elt F) → (⟨S1x8, .i32⟩ : BufTy).Contents (Elt F)),
    StableHlo.unary main_v54 main_v56 (broadcastInDim S8x8 ![0, 1] bcast_S8x1_S8x8_0_1 : (⟨S8x1, .i32⟩ : BufTy).Contents (Elt F) → (⟨S8x8, .i32⟩ : BufTy).Contents (Elt F)),
    StableHlo.unary main_v55 main_v57 (broadcastInDim S8x8 ![0, 1] bcast_S1x8_S8x8_0_1 : (⟨S1x8, .i32⟩ : BufTy).Contents (Elt F) → (⟨S8x8, .i32⟩ : BufTy).Contents (Elt F)),
    StableHlo.binary main_v56 main_v57 main_v58 (subi : (⟨S8x8, .i32⟩ : BufTy).Contents (Elt F) → (⟨S8x8, .i32⟩ : BufTy).Contents (Elt F) → (⟨S8x8, .i32⟩ : BufTy).Contents (Elt F)),
    StableHlo.nullary main_c_5 (constantI S_ 32 8#32) ]
theorem opsIdx2b_sub : (opsIdx2b : List (HloOp τ sig (Elt F))).Forall fun op => op.bufs ⊆ tcRefs τ sig :=
  ⟨StableHlo.unary_bufs_sub .., StableHlo.unary_bufs_sub .., StableHlo.unary_bufs_sub .., StableHlo.unary_bufs_sub .., StableHlo.binary_bufs_sub .., StableHlo.nullary_bufs_sub ..⟩
theorem opsIdx2b_fresh : ∀ op ∈ (opsIdx2b : List (HloOp τ sig (Elt F))), op.fresh = ∅ := by
  intro _ h; (repeat (cases h with | head => rfl | tail _ h => ?_)); exact nomatch h

/-- Third index table: the remainder, over the third call's buffers. -/
abbrev opsRem2 : List (HloOp τ sig (Elt F)) :=
  [ StableHlo.TRef.unary (.of main_c_5 : StableHlo.TRef sig ⟨S_, .i32⟩) (.of main_call2_v0 : StableHlo.TRef sig ⟨S_, .i32⟩) id,
    StableHlo.TRef.nullary (.of main_call2_c : StableHlo.TRef sig ⟨S_, .i32⟩) (constantI S_ 32 0#32),
    StableHlo.TRef.binary (.of main_call2_v0 : StableHlo.TRef sig ⟨S_, .i32⟩) (.of main_call2_c : StableHlo.TRef sig ⟨S_, .i32⟩) (.of main_call2_v1 : StableHlo.TRef sig ⟨S_, .i1⟩) (cmpi .eq),
    StableHlo.TRef.nullary (.of main_call2_c_0 : StableHlo.TRef sig ⟨S_, .i32⟩) (constantI S_ 32 1#32),
    StableHlo.TRef.ternary (.of main_call2_v1 : StableHlo.TRef sig ⟨S_, .i1⟩) (.of main_call2_c_0 : StableHlo.TRef sig ⟨S_, .i32⟩) (.of main_call2_v0 : StableHlo.TRef sig ⟨S_, .i32⟩) (.of main_call2_v2 : StableHlo.TRef sig ⟨S_, .i32⟩) select,
    StableHlo.TRef.unary main_call2_call0.v0 (.of main_call2_v3 : StableHlo.TRef sig ⟨S8x8, .i32⟩) (broadcastInDim S8x8 ![] bcast_S_S8x8),
    StableHlo.TRef.binary (.of main_v58 : StableHlo.TRef sig ⟨S8x8, .i32⟩) (.of main_call2_v3 : StableHlo.TRef sig ⟨S8x8, .i32⟩) (.of main_call2_v4 : StableHlo.TRef sig ⟨S8x8, .i32⟩) Host.remsi,
    StableHlo.TRef.nullary (.of main_call2_c_1 : StableHlo.TRef sig ⟨S_, .i32⟩) (constantI S_ 32 0#32),
    StableHlo.TRef.unary (.of main_call2_c_1 : StableHlo.TRef sig ⟨S_, .i32⟩) (.of main_call2_v5 : StableHlo.TRef sig ⟨S8x8, .i32⟩) (broadcastInDim S8x8 ![] bcast_S_S8x8),
    StableHlo.TRef.binary (.of main_call2_v4 : StableHlo.TRef sig ⟨S8x8, .i32⟩) (.of main_call2_v5 : StableHlo.TRef sig ⟨S8x8, .i32⟩) (.of main_call2_v6 : StableHlo.TRef sig ⟨S8x8, .i1⟩) (cmpi .ne),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v7 : StableHlo.TRef sig ⟨S8x8, .i32⟩) (broadcastInDim S8x8 ![] bcast_S_S8x8),
    StableHlo.TRef.binary (.of main_call2_v4 : StableHlo.TRef sig ⟨S8x8, .i32⟩) (.of main_call2_v7 : StableHlo.TRef sig ⟨S8x8, .i32⟩) (.of main_call2_v8 : StableHlo.TRef sig ⟨S8x8, .i1⟩) (cmpi .slt),
    StableHlo.TRef.nullary (.of main_call2_c_3 : StableHlo.TRef sig ⟨S_, .i32⟩) (constantI S_ 32 0#32),
    StableHlo.TRef.binary main_call2_call0.v0 (.of main_call2_c_3 : StableHlo.TRef sig ⟨S_, .i32⟩) (.of main_call2_v9 : StableHlo.TRef sig ⟨S_, .i1⟩) (cmpi .slt),
    StableHlo.TRef.unary (.of main_call2_v9 : StableHlo.TRef sig ⟨S_, .i1⟩) (.of main_call2_v10 : StableHlo.TRef sig ⟨S8x8, .i1⟩) (broadcastInDim S8x8 ![] bcast_S_S8x8),
    StableHlo.TRef.binary (.of main_call2_v8 : StableHlo.TRef sig ⟨S8x8, .i1⟩) (.of main_call2_v10 : StableHlo.TRef sig ⟨S8x8, .i1⟩) (.of main_call2_v11 : StableHlo.TRef sig ⟨S8x8, .i1⟩) (cmpi .ne),
    StableHlo.TRef.binary (.of main_call2_v11 : StableHlo.TRef sig ⟨S8x8, .i1⟩) (.of main_call2_v6 : StableHlo.TRef sig ⟨S8x8, .i1⟩) (.of main_call2_v12 : StableHlo.TRef sig ⟨S8x8, .i1⟩) andi,
    StableHlo.TRef.unary main_call2_call0.v0 (.of main_call2_v13 : StableHlo.TRef sig ⟨S8x8, .i32⟩) (broadcastInDim S8x8 ![] bcast_S_S8x8),
    StableHlo.TRef.binary (.of main_call2_v4 : StableHlo.TRef sig ⟨S8x8, .i32⟩) (.of main_call2_v13 : StableHlo.TRef sig ⟨S8x8, .i32⟩) (.of main_call2_v14 : StableHlo.TRef sig ⟨S8x8, .i32⟩) addi,
    StableHlo.TRef.ternary (.of main_call2_v12 : StableHlo.TRef sig ⟨S8x8, .i1⟩) (.of main_call2_v14 : StableHlo.TRef sig ⟨S8x8, .i32⟩) (.of main_call2_v4 : StableHlo.TRef sig ⟨S8x8, .i32⟩) (.of main_v59 : StableHlo.TRef sig ⟨S8x8, .i32⟩) select ]
theorem opsRem2_sub : (opsRem2 : List (HloOp τ sig (Elt F))).Forall fun op => op.bufs ⊆ tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem opsRem2_fresh : ∀ op ∈ (opsRem2 : List (HloOp τ sig (Elt F))), op.fresh = ∅ := by
  intro _ h; (repeat (cases h with | head => rfl | tail _ h => ?_)); exact nomatch h

/-- Third index table: made non-negative, with a trailing unit axis. -/
abbrev opsIdx2c : List (HloOp τ sig (Elt F)) :=
  [ StableHlo.nullary main_c_6 (constantI S_ 32 0#32),
    StableHlo.unary main_c_6 main_v60 (broadcastInDim S8x8 ![] bcast_S_S8x8 : (⟨S_, .i32⟩ : BufTy).Contents (Elt F) → (⟨S8x8, .i32⟩ : BufTy).Contents (Elt F)),
    StableHlo.binary main_v59 main_v60 main_v61 (cmpi .slt : (⟨S8x8, .i32⟩ : BufTy).Contents (Elt F) → (⟨S8x8, .i32⟩ : BufTy).Contents (Elt F) → (⟨S8x8, .i1⟩ : BufTy).Contents (Elt F)),
    StableHlo.nullary main_c_7 (constantI S_ 32 8#32),
    StableHlo.unary main_c_7 main_v62 (broadcastInDim S8x8 ![] bcast_S_S8x8 : (⟨S_, .i32⟩ : BufTy).Contents (Elt F) → (⟨S8x8, .i32⟩ : BufTy).Contents (Elt F)),
    StableHlo.binary main_v59 main_v62 main_v63 (addi : (⟨S8x8, .i32⟩ : BufTy).Contents (Elt F) → (⟨S8x8, .i32⟩ : BufTy).Contents (Elt F) → (⟨S8x8, .i32⟩ : BufTy).Contents (Elt F)),
    StableHlo.ternary main_v61 main_v63 main_v59 main_v64 (select : (⟨S8x8, .i1⟩ : BufTy).Contents (Elt F) → (⟨S8x8, .i32⟩ : BufTy).Contents (Elt F) → (⟨S8x8, .i32⟩ : BufTy).Contents (Elt F) → (⟨S8x8, .i32⟩ : BufTy).Contents (Elt F)),
    StableHlo.unary main_v64 main_v65 (broadcastInDim S8x8x1 ![0, 1] bcast_S8x8_S8x8x1_0_1 : (⟨S8x8, .i32⟩ : BufTy).Contents (Elt F) → (⟨S8x8x1, .i32⟩ : BufTy).Contents (Elt F)) ]
theorem opsIdx2c_sub : (opsIdx2c : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩
theorem opsIdx2c_fresh : ∀ op ∈ (opsIdx2c : List (HloOp τ sig (Elt F))), op.fresh = ∅ := by
  intro _ h; (repeat (cases h with | head => rfl | tail _ h => ?_)); exact nomatch h

/-- The projection of v. -/
abbrev opsProj2 : List (HloOp τ sig (Elt F)) :=
  [ StableHlo.binary main_arg7 main_v65 main_v66 ((fun x i => Host.gather gather_S512x128x8_S8x8x1_S512x128x8x8_01_2_n_n_2_2_5121281 x i) : (⟨S512x128x8, .f32⟩ : BufTy).Contents (Elt F) → (⟨S8x8x1, .i32⟩ : BufTy).Contents (Elt F) → (⟨S512x128x8x8, .f32⟩ : BufTy).Contents (Elt F)),
    StableHlo.unary main_v66 main_v67 ((transpose S512x8x128x8 [0, 2, 1, 3] · transposes_S512x128x8x8_S512x8x128x8_0_2_1_3) : (⟨S512x128x8x8, .f32⟩ : BufTy).Contents (Elt F) → (⟨S512x8x128x8, .f32⟩ : BufTy).Contents (Elt F)),
    StableHlo.reshape main_v67 main_v68 rfl shapeCasts_S512x8x128x8_S4096x1024,
    StableHlo.unary main_arg8 main_v69 (broadcastInDim S512x8 ![0] bcast_S512_S512x8_0 : (⟨S512, .f32⟩ : BufTy).Contents (Elt F) → (⟨S512x8, .f32⟩ : BufTy).Contents (Elt F)),
    StableHlo.reshape main_v69 main_v70 rfl shapeCasts_S512x8_S4096,
    StableHlo.unary main_v68 main_v71 ((transpose S1024x4096 [1, 0] · transposes_S4096x1024_S1024x4096_1_0) : (⟨S4096x1024, .f32⟩ : BufTy).Contents (Elt F) → (⟨S1024x4096, .f32⟩ : BufTy).Contents (Elt F)),
    StableHlo.binary main_v2 main_v71 main_v72 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    StableHlo.unary main_v70 main_v73 (broadcastInDim S1x4096 ![1] bcast_S4096_S1x4096_1 : (⟨S4096, .f32⟩ : BufTy).Contents (Elt F) → (⟨S1x4096, .f32⟩ : BufTy).Contents (Elt F)),
    StableHlo.unary main_v73 main_v74 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v72 main_v74 main_v75 (addf : (⟨S8192x4096, .f32⟩ : BufTy).Contents (Elt F) → (⟨S8192x4096, .f32⟩ : BufTy).Contents (Elt F) → (⟨S8192x4096, .f32⟩ : BufTy).Contents (Elt F)) ]
theorem opsProj2_sub : (opsProj2 : List (HloOp τ sig (Elt F))).Forall fun op => op.bufs ⊆ tcRefs τ sig :=
  ⟨StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.unary_bufs_sub .., StableHlo.binary_bufs_sub ..⟩
theorem opsProj2_fresh : ∀ op ∈ (opsProj2 : List (HloOp τ sig (Elt F))), op.fresh = ∅ := by
  intro _ h; (repeat (cases h with | head => rfl | tail _ h => ?_)); exact nomatch h

/-- The projection of v split into heads. -/
abbrev opsHeads2 : List (HloOp τ sig (Elt F)) :=
  [ StableHlo.reshape main_v75 main_v76 rfl shapeCasts_S8192x4096_S8192x8x8x64,
    StableHlo.unary main_v76 main_v77 ((transpose S8192x8x8x64 [0, 2, 1, 3] · transposes_S8192x8x8x64_S8192x8x8x64_0_2_1_3) : (⟨S8192x8x8x64, .f32⟩ : BufTy).Contents (Elt F) → (⟨S8192x8x8x64, .f32⟩ : BufTy).Contents (Elt F)) ]
theorem opsHeads2_sub : (opsHeads2 : List (HloOp τ sig (Elt F))).Forall fun op => op.bufs ⊆ tcRefs τ sig :=
  ⟨StableHlo.reshape_bufs_sub .., StableHlo.unary_bufs_sub ..⟩
theorem opsHeads2_fresh : ∀ op ∈ (opsHeads2 : List (HloOp τ sig (Elt F))), op.fresh = ∅ := by
  intro _ h; (repeat (cases h with | head => rfl | tail _ h => ?_)); exact nomatch h

/-- The attention weights: the query heads divided by 8, the scores against the key heads, the softmax over the last axis (the maximum subtracted, the exponential, the sum, the quotient). -/
abbrev opsAttn : List (HloOp τ sig (Elt F)) :=
  [ StableHlo.nullary main_cst (constant S_ .f32 0x41000000#32),
    StableHlo.unary main_cst main_v78 (broadcastInDim S8192x8x8x64 ![] bcast_S_S8192x8x8x64 : (⟨S_, .f32⟩ : BufTy).Contents (Elt F) → (⟨S8192x8x8x64, .f32⟩ : BufTy).Contents (Elt F)),
    StableHlo.binary main_v27 main_v78 main_v79 (Host.divf : (⟨S8192x8x8x64, .f32⟩ : BufTy).Contents (Elt F) → (⟨S8192x8x8x64, .f32⟩ : BufTy).Contents (Elt F) → (⟨S8192x8x8x64, .f32⟩ : BufTy).Contents (Elt F)),
    StableHlo.binary main_v79 main_v52 main_v80 ((fun l r => Host.dotGeneral dot_S8192x8x8x64_S8192x8x8x64_S8192x8x8x8_3_3_2_2_01_01 none l r) : (⟨S8192x8x8x64, .f32⟩ : BufTy).Contents (Elt F) → (⟨S8192x8x8x64, .f32⟩ : BufTy).Contents (Elt F) → (⟨S8192x8x8x8, .f32⟩ : BufTy).Contents (Elt F)),
    StableHlo.nullary main_cst_8 (constant S_ .f32 0xFF800000#32),
    StableHlo.binary main_v80 main_cst_8 main_v81 ((fun x v => Host.reduce FloatOps.maximumf x v reducesTo_S8192x8x8x8_S8192x8x8_d3 h_S_) : (⟨S8192x8x8x8, .f32⟩ : BufTy).Contents (Elt F) → (⟨S_, .f32⟩ : BufTy).Contents (Elt F) → (⟨S8192x8x8, .f32⟩ : BufTy).Contents (Elt F)),
    StableHlo.nullary main_cst_9 (constant S_ .f32 0xFF800000#32),
    StableHlo.unary main_cst_9 main_v82 (broadcastInDim S8192x8x8 ![] bcast_S_S8192x8x8 : (⟨S_, .f32⟩ : BufTy).Contents (Elt F) → (⟨S8192x8x8, .f32⟩ : BufTy).Contents (Elt F)),
    StableHlo.binary main_v82 main_v81 main_v83 (maximumf : (⟨S8192x8x8, .f32⟩ : BufTy).Contents (Elt F) → (⟨S8192x8x8, .f32⟩ : BufTy).Contents (Elt F) → (⟨S8192x8x8, .f32⟩ : BufTy).Contents (Elt F)),
    StableHlo.unary main_v83 main_v84 (broadcastInDim S8192x8x8x1 ![0, 1, 2] bcast_S8192x8x8_S8192x8x8x1_0_1_2 : (⟨S8192x8x8, .f32⟩ : BufTy).Contents (Elt F) → (⟨S8192x8x8x1, .f32⟩ : BufTy).Contents (Elt F)),
    StableHlo.unary main_v84 main_v85 (broadcastInDim S8192x8x8x8 ![0, 1, 2, 3] bcast_S8192x8x8x1_S8192x8x8x8_0_1_2_3 : (⟨S8192x8x8x1, .f32⟩ : BufTy).Contents (Elt F) → (⟨S8192x8x8x8, .f32⟩ : BufTy).Contents (Elt F)),
    StableHlo.binary main_v80 main_v85 main_v86 (subf : (⟨S8192x8x8x8, .f32⟩ : BufTy).Contents (Elt F) → (⟨S8192x8x8x8, .f32⟩ : BufTy).Contents (Elt F) → (⟨S8192x8x8x8, .f32⟩ : BufTy).Contents (Elt F)),
    StableHlo.unary main_v86 main_v87 (Host.exp : (⟨S8192x8x8x8, .f32⟩ : BufTy).Contents (Elt F) → (⟨S8192x8x8x8, .f32⟩ : BufTy).Contents (Elt F)),
    StableHlo.nullary main_cst_10 (constant S_ .f32 0x00000000#32),
    StableHlo.binary main_v87 main_cst_10 main_v88 ((fun x v => Host.reduceAdd x v reducesTo_S8192x8x8x8_S8192x8x8_d3 h_S_) : (⟨S8192x8x8x8, .f32⟩ : BufTy).Contents (Elt F) → (⟨S_, .f32⟩ : BufTy).Contents (Elt F) → (⟨S8192x8x8, .f32⟩ : BufTy).Contents (Elt F)),
    StableHlo.unary main_v88 main_v89 (broadcastInDim S8192x8x8x1 ![0, 1, 2] bcast_S8192x8x8_S8192x8x8x1_0_1_2 : (⟨S8192x8x8, .f32⟩ : BufTy).Contents (Elt F) → (⟨S8192x8x8x1, .f32⟩ : BufTy).Contents (Elt F)),
    StableHlo.unary main_v89 main_v90 (broadcastInDim S8192x8x8x8 ![0, 1, 2, 3] bcast_S8192x8x8x1_S8192x8x8x8_0_1_2_3 : (⟨S8192x8x8x1, .f32⟩ : BufTy).Contents (Elt F) → (⟨S8192x8x8x8, .f32⟩ : BufTy).Contents (Elt F)),
    StableHlo.binary main_v87 main_v90 main_v91 (Host.divf : (⟨S8192x8x8x8, .f32⟩ : BufTy).Contents (Elt F) → (⟨S8192x8x8x8, .f32⟩ : BufTy).Contents (Elt F) → (⟨S8192x8x8x8, .f32⟩ : BufTy).Contents (Elt F)) ]
theorem opsAttn_sub : (opsAttn : List (HloOp τ sig (Elt F))).Forall fun op => op.bufs ⊆ tcRefs τ sig :=
  ⟨StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
theorem opsAttn_fresh : ∀ op ∈ (opsAttn : List (HloOp τ sig (Elt F))), op.fresh = ∅ := by
  intro _ h; (repeat (cases h with | head => rfl | tail _ h => ?_)); exact nomatch h

/-- The attention weights applied to the value heads, the two middle axes exchanged back, the heads merged to [8192, 4096]. -/
abbrev opsMerge : List (HloOp τ sig (Elt F)) :=
  [ StableHlo.binary main_v91 main_v77 main_v92 ((fun l r => Host.dotGeneral dot_S8192x8x8x8_S8192x8x8x64_S8192x8x8x64_3_2_2_3_01_01 none l r) : (⟨S8192x8x8x8, .f32⟩ : BufTy).Contents (Elt F) → (⟨S8192x8x8x64, .f32⟩ : BufTy).Contents (Elt F) → (⟨S8192x8x8x64, .f32⟩ : BufTy).Contents (Elt F)),
    StableHlo.unary main_v92 main_v93 ((transpose S8192x8x8x64 [0, 2, 1, 3] · transposes_S8192x8x8x64_S8192x8x8x64_0_2_1_3) : (⟨S8192x8x8x64, .f32⟩ : BufTy).Contents (Elt F) → (⟨S8192x8x8x64, .f32⟩ : BufTy).Contents (Elt F)),
    StableHlo.reshape main_v93 main_v94 rfl shapeCasts_S8192x8x8x64_S8192x4096 ]
theorem opsMerge_sub : (opsMerge : List (HloOp τ sig (Elt F))).Forall fun op => op.bufs ⊆ tcRefs τ sig :=
  ⟨StableHlo.binary_bufs_sub .., StableHlo.unary_bufs_sub .., StableHlo.reshape_bufs_sub ..⟩
theorem opsMerge_fresh : ∀ op ∈ (opsMerge : List (HloOp τ sig (Elt F))), op.fresh = ∅ := by
  intro _ h; (repeat (cases h with | head => rfl | tail _ h => ?_)); exact nomatch h

/-- Fourth index table: the iota, its two broadcasts, their difference, and the divisor 8. -/
abbrev opsIdx3a : List (HloOp τ sig (Elt F)) :=
  [ StableHlo.nullary main_v95 (iotaInDim S8 32 0),
    StableHlo.unary main_v95 main_v96 (broadcastInDim S8x1 ![0] bcast_S8_S8x1_0 : (⟨S8, .i32⟩ : BufTy).Contents (Elt F) → (⟨S8x1, .i32⟩ : BufTy).Contents (Elt F)),
    StableHlo.unary main_v95 main_v97 (broadcastInDim S1x8 ![1] bcast_S8_S1x8_1 : (⟨S8, .i32⟩ : BufTy).Contents (Elt F) → (⟨S1x8, .i32⟩ : BufTy).Contents (Elt F)),
    StableHlo.unary main_v96 main_v98 (broadcastInDim S8x8 ![0, 1] bcast_S8x1_S8x8_0_1 : (⟨S8x1, .i32⟩ : BufTy).Contents (Elt F) → (⟨S8x8, .i32⟩ : BufTy).Contents (Elt F)),
    StableHlo.unary main_v97 main_v99 (broadcastInDim S8x8 ![0, 1] bcast_S1x8_S8x8_0_1 : (⟨S1x8, .i32⟩ : BufTy).Contents (Elt F) → (⟨S8x8, .i32⟩ : BufTy).Contents (Elt F)),
    StableHlo.binary main_v98 main_v99 main_v100 (subi : (⟨S8x8, .i32⟩ : BufTy).Contents (Elt F) → (⟨S8x8, .i32⟩ : BufTy).Contents (Elt F) → (⟨S8x8, .i32⟩ : BufTy).Contents (Elt F)),
    StableHlo.nullary main_c_11 (constantI S_ 32 8#32) ]
theorem opsIdx3a_sub : (opsIdx3a : List (HloOp τ sig (Elt F))).Forall fun op => op.bufs ⊆ tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.nullary_bufs_sub ..⟩
theorem opsIdx3a_fresh : ∀ op ∈ (opsIdx3a : List (HloOp τ sig (Elt F))), op.fresh = ∅ := by
  intro _ h; (repeat (cases h with | head => rfl | tail _ h => ?_)); exact nomatch h

/-- Fourth index table: the remainder, over the fourth call's buffers. -/
abbrev opsRem3 : List (HloOp τ sig (Elt F)) :=
  [ StableHlo.TRef.unary (.of main_c_11 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary main_call3_call0.v0 (.of main_call3_v3 : StableHlo.TRef sig ⟨S8x8, .i32⟩) (broadcastInDim S8x8 ![] bcast_S_S8x8),
    StableHlo.TRef.binary (.of main_v100 : StableHlo.TRef sig ⟨S8x8, .i32⟩) (.of main_call3_v3 : StableHlo.TRef sig ⟨S8x8, .i32⟩) (.of main_call3_v4 : StableHlo.TRef sig ⟨S8x8, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S8x8, .i32⟩) (broadcastInDim S8x8 ![] bcast_S_S8x8),
    StableHlo.TRef.binary (.of main_call3_v4 : StableHlo.TRef sig ⟨S8x8, .i32⟩) (.of main_call3_v5 : StableHlo.TRef sig ⟨S8x8, .i32⟩) (.of main_call3_v6 : StableHlo.TRef sig ⟨S8x8, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S8x8, .i32⟩) (broadcastInDim S8x8 ![] bcast_S_S8x8),
    StableHlo.TRef.binary (.of main_call3_v4 : StableHlo.TRef sig ⟨S8x8, .i32⟩) (.of main_call3_v7 : StableHlo.TRef sig ⟨S8x8, .i32⟩) (.of main_call3_v8 : StableHlo.TRef sig ⟨S8x8, .i1⟩) (cmpi .slt),
    StableHlo.TRef.nullary (.of main_call3_c_3 : StableHlo.TRef sig ⟨S_, .i32⟩) (constantI S_ 32 0#32),
    StableHlo.TRef.binary main_call3_call0.v0 (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S8x8, .i1⟩) (broadcastInDim S8x8 ![] bcast_S_S8x8),
    StableHlo.TRef.binary (.of main_call3_v8 : StableHlo.TRef sig ⟨S8x8, .i1⟩) (.of main_call3_v10 : StableHlo.TRef sig ⟨S8x8, .i1⟩) (.of main_call3_v11 : StableHlo.TRef sig ⟨S8x8, .i1⟩) (cmpi .ne),
    StableHlo.TRef.binary (.of main_call3_v11 : StableHlo.TRef sig ⟨S8x8, .i1⟩) (.of main_call3_v6 : StableHlo.TRef sig ⟨S8x8, .i1⟩) (.of main_call3_v12 : StableHlo.TRef sig ⟨S8x8, .i1⟩) andi,
    StableHlo.TRef.unary main_call3_call0.v0 (.of main_call3_v13 : StableHlo.TRef sig ⟨S8x8, .i32⟩) (broadcastInDim S8x8 ![] bcast_S_S8x8),
    StableHlo.TRef.binary (.of main_call3_v4 : StableHlo.TRef sig ⟨S8x8, .i32⟩) (.of main_call3_v13 : StableHlo.TRef sig ⟨S8x8, .i32⟩) (.of main_call3_v14 : StableHlo.TRef sig ⟨S8x8, .i32⟩) addi,
    StableHlo.TRef.ternary (.of main_call3_v12 : StableHlo.TRef sig ⟨S8x8, .i1⟩) (.of main_call3_v14 : StableHlo.TRef sig ⟨S8x8, .i32⟩) (.of main_call3_v4 : StableHlo.TRef sig ⟨S8x8, .i32⟩) (.of main_v101 : StableHlo.TRef sig ⟨S8x8, .i32⟩) select ]
theorem opsRem3_sub : (opsRem3 : List (HloOp τ sig (Elt F))).Forall fun op => op.bufs ⊆ tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem opsRem3_fresh : ∀ op ∈ (opsRem3 : List (HloOp τ sig (Elt F))), op.fresh = ∅ := by
  intro _ h; (repeat (cases h with | head => rfl | tail _ h => ?_)); exact nomatch h

/-- Fourth index table: the zero and the eight it is compared with and corrected by. -/
abbrev opsIdx3b : List (HloOp τ sig (Elt F)) :=
  [ StableHlo.nullary main_c_12 (constantI S_ 32 0#32),
    StableHlo.unary main_c_12 main_v102 (broadcastInDim S8x8 ![] bcast_S_S8x8 : (⟨S_, .i32⟩ : BufTy).Contents (Elt F) → (⟨S8x8, .i32⟩ : BufTy).Contents (Elt F)),
    StableHlo.binary main_v101 main_v102 main_v103 (cmpi .slt : (⟨S8x8, .i32⟩ : BufTy).Contents (Elt F) → (⟨S8x8, .i32⟩ : BufTy).Contents (Elt F) → (⟨S8x8, .i1⟩ : BufTy).Contents (Elt F)),
    StableHlo.nullary main_c_13 (constantI S_ 32 8#32) ]
theorem opsIdx3b_sub : (opsIdx3b : List (HloOp τ sig (Elt F))).Forall fun op => op.bufs ⊆ tcRefs τ sig :=
  ⟨StableHlo.nullary_bufs_sub .., StableHlo.unary_bufs_sub .., StableHlo.binary_bufs_sub .., StableHlo.nullary_bufs_sub ..⟩
theorem opsIdx3b_fresh : ∀ op ∈ (opsIdx3b : List (HloOp τ sig (Elt F))), op.fresh = ∅ := by
  intro _ h; (repeat (cases h with | head => rfl | tail _ h => ?_)); exact nomatch h

/-- Fourth index table: made non-negative, with a trailing unit axis. -/
abbrev opsIdx3c : List (HloOp τ sig (Elt F)) :=
  [ StableHlo.unary main_c_13 main_v104 (broadcastInDim S8x8 ![] bcast_S_S8x8 : (⟨S_, .i32⟩ : BufTy).Contents (Elt F) → (⟨S8x8, .i32⟩ : BufTy).Contents (Elt F)),
    StableHlo.binary main_v101 main_v104 main_v105 (addi : (⟨S8x8, .i32⟩ : BufTy).Contents (Elt F) → (⟨S8x8, .i32⟩ : BufTy).Contents (Elt F) → (⟨S8x8, .i32⟩ : BufTy).Contents (Elt F)),
    StableHlo.ternary main_v103 main_v105 main_v101 main_v106 (select : (⟨S8x8, .i1⟩ : BufTy).Contents (Elt F) → (⟨S8x8, .i32⟩ : BufTy).Contents (Elt F) → (⟨S8x8, .i32⟩ : BufTy).Contents (Elt F) → (⟨S8x8, .i32⟩ : BufTy).Contents (Elt F)),
    StableHlo.unary main_v106 main_v107 (broadcastInDim S8x8x1 ![0, 1] bcast_S8x8_S8x8x1_0_1 : (⟨S8x8, .i32⟩ : BufTy).Contents (Elt F) → (⟨S8x8x1, .i32⟩ : BufTy).Contents (Elt F)) ]
theorem opsIdx3c_sub : (opsIdx3c : List (HloOp τ sig (Elt F))).Forall fun op => op.bufs ⊆ tcRefs τ sig :=
  ⟨StableHlo.unary_bufs_sub .., StableHlo.binary_bufs_sub .., StableHlo.ternary_bufs_sub .., StableHlo.unary_bufs_sub ..⟩
theorem opsIdx3c_fresh : ∀ op ∈ (opsIdx3c : List (HloOp τ sig (Elt F))), op.fresh = ∅ := by
  intro _ h; (repeat (cases h with | head => rfl | tail _ h => ?_)); exact nomatch h

/-- The output projection: the weight gathered through the table, transposed and flattened to [1024, 4096], the bias repeated to [1024], the weight transposed, the product and the bias added. -/
abbrev opsProj3 : List (HloOp τ sig (Elt F)) :=
  [ StableHlo.binary main_arg9 main_v107 main_v108 ((fun x i => Host.gather gather_S128x512x8_S8x8x1_S128x512x8x8_01_2_n_n_2_2_1285121 x i) : (⟨S128x512x8, .f32⟩ : BufTy).Contents (Elt F) → (⟨S8x8x1, .i32⟩ : BufTy).Contents (Elt F) → (⟨S128x512x8x8, .f32⟩ : BufTy).Contents (Elt F)),
    StableHlo.unary main_v108 main_v109 ((transpose S128x8x512x8 [0, 2, 1, 3] · transposes_S128x512x8x8_S128x8x512x8_0_2_1_3) : (⟨S128x512x8x8, .f32⟩ : BufTy).Contents (Elt F) → (⟨S128x8x512x8, .f32⟩ : BufTy).Contents (Elt F)),
    StableHlo.reshape main_v109 main_v110 rfl shapeCasts_S128x8x512x8_S1024x4096,
    StableHlo.unary main_arg10 main_v111 (broadcastInDim S128x8 ![0] bcast_S128_S128x8_0 : (⟨S128, .f32⟩ : BufTy).Contents (Elt F) → (⟨S128x8, .f32⟩ : BufTy).Contents (Elt F)),
    StableHlo.reshape main_v111 main_v112 rfl shapeCasts_S128x8_S1024,
    StableHlo.unary main_v110 main_v113 ((transpose S4096x1024 [1, 0] · transposes_S1024x4096_S4096x1024_1_0) : (⟨S1024x4096, .f32⟩ : BufTy).Contents (Elt F) → (⟨S4096x1024, .f32⟩ : BufTy).Contents (Elt F)),
    StableHlo.binary main_v94 main_v113 main_v114 ((fun l r => Host.dotGeneral dot_S8192x4096_S4096x1024_S8192x1024_1_0_0_1_n_n none l r) : (⟨S8192x4096, .f32⟩ : BufTy).Contents (Elt F) → (⟨S4096x1024, .f32⟩ : BufTy).Contents (Elt F) → (⟨S8192x1024, .f32⟩ : BufTy).Contents (Elt F)),
    StableHlo.unary main_v112 main_v115 (broadcastInDim S1x1024 ![1] bcast_S1024_S1x1024_1 : (⟨S1024, .f32⟩ : BufTy).Contents (Elt F) → (⟨S1x1024, .f32⟩ : BufTy).Contents (Elt F)),
    StableHlo.unary main_v115 main_v116 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v114 main_v116 main_v117 (addf : (⟨S8192x1024, .f32⟩ : BufTy).Contents (Elt F) → (⟨S8192x1024, .f32⟩ : BufTy).Contents (Elt F) → (⟨S8192x1024, .f32⟩ : BufTy).Contents (Elt F)) ]
theorem opsProj3_sub : (opsProj3 : List (HloOp τ sig (Elt F))).Forall fun op => op.bufs ⊆ tcRefs τ sig :=
  ⟨StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.unary_bufs_sub .., StableHlo.binary_bufs_sub ..⟩
theorem opsProj3_fresh : ∀ op ∈ (opsProj3 : List (HloOp τ sig (Elt F))), op.fresh = ∅ := by
  intro _ h; (repeat (cases h with | head => rfl | tail _ h => ?_)); exact nomatch h

/-- The result read as [8192, 1024, 1, 1] and the first argument added. -/
abbrev opsResid : List (HloOp τ sig (Elt F)) :=
  [ StableHlo.reshape main_v117 main_v118 rfl shapeCasts_S8192x1024_S8192x1024x1x1,
    StableHlo.binary main_v118 main_arg0 main_v119 (addf : (⟨S8192x1024x1x1, .f32⟩ : BufTy).Contents (Elt F) → (⟨S8192x1024x1x1, .f32⟩ : BufTy).Contents (Elt F) → (⟨S8192x1024x1x1, .f32⟩ : BufTy).Contents (Elt F)) ]
theorem opsResid_sub : (opsResid : List (HloOp τ sig (Elt F))).Forall fun op => op.bufs ⊆ tcRefs τ sig :=
  ⟨StableHlo.reshape_bufs_sub .., StableHlo.binary_bufs_sub ..⟩
theorem opsResid_fresh : ∀ op ∈ (opsResid : List (HloOp τ sig (Elt F))), op.fresh = ∅ := by
  intro _ h; (repeat (cases h with | head => rfl | tail _ h => ?_)); exact nomatch h

/-- @main's 216 operations, in order. -/
abbrev ops : List (HloOp τ sig (Elt F)) :=
  opsFlat ++ (opsIdx0a ++ (opsRem0 ++ (opsIdx0b ++ (opsProj0 ++ (opsHeads0 ++ (opsIdx1a ++ (opsRem1 ++ (opsIdx1b ++ (opsProj1 ++ (opsHeads1 ++ (opsIdx2a ++ (opsIdx2b ++ (opsRem2 ++ (opsIdx2c ++ (opsProj2 ++ (opsHeads2 ++ (opsAttn ++ (opsMerge ++ (opsIdx3a ++ (opsRem3 ++ (opsIdx3b ++ (opsIdx3c ++ (opsProj3 ++ (opsResid))))))))))))))))))))))))

theorem ops_sub : (ops : List (HloOp τ sig (Elt F))).Forall fun op => op.bufs ⊆ tcRefs τ sig :=
  List.forall_append.mpr ⟨opsFlat_sub, List.forall_append.mpr ⟨opsIdx0a_sub, List.forall_append.mpr ⟨opsRem0_sub, List.forall_append.mpr ⟨opsIdx0b_sub, List.forall_append.mpr ⟨opsProj0_sub, List.forall_append.mpr ⟨opsHeads0_sub, List.forall_append.mpr ⟨opsIdx1a_sub, List.forall_append.mpr ⟨opsRem1_sub, List.forall_append.mpr ⟨opsIdx1b_sub, List.forall_append.mpr ⟨opsProj1_sub, List.forall_append.mpr ⟨opsHeads1_sub, List.forall_append.mpr ⟨opsIdx2a_sub, List.forall_append.mpr ⟨opsIdx2b_sub, List.forall_append.mpr ⟨opsRem2_sub, List.forall_append.mpr ⟨opsIdx2c_sub, List.forall_append.mpr ⟨opsProj2_sub, List.forall_append.mpr ⟨opsHeads2_sub, List.forall_append.mpr ⟨opsAttn_sub, List.forall_append.mpr ⟨opsMerge_sub, List.forall_append.mpr ⟨opsIdx3a_sub, List.forall_append.mpr ⟨opsRem3_sub, List.forall_append.mpr ⟨opsIdx3b_sub, List.forall_append.mpr ⟨opsIdx3c_sub, List.forall_append.mpr ⟨opsProj3_sub, opsResid_sub⟩⟩⟩⟩⟩⟩⟩⟩⟩⟩⟩⟩⟩⟩⟩⟩⟩⟩⟩⟩⟩⟩⟩⟩

theorem ops_fresh : ∀ op ∈ (ops : List (HloOp τ sig (Elt F))), op.fresh = ∅ :=
  fresh_append opsFlat_fresh (fresh_append opsIdx0a_fresh (fresh_append opsRem0_fresh (fresh_append opsIdx0b_fresh (fresh_append opsProj0_fresh (fresh_append opsHeads0_fresh (fresh_append opsIdx1a_fresh (fresh_append opsRem1_fresh (fresh_append opsIdx1b_fresh (fresh_append opsProj1_fresh (fresh_append opsHeads1_fresh (fresh_append opsIdx2a_fresh (fresh_append opsIdx2b_fresh (fresh_append opsRem2_fresh (fresh_append opsIdx2c_fresh (fresh_append opsProj2_fresh (fresh_append opsHeads2_fresh (fresh_append opsAttn_fresh (fresh_append opsMerge_fresh (fresh_append opsIdx3a_fresh (fresh_append opsRem3_fresh (fresh_append opsIdx3b_fresh (fresh_append opsIdx3c_fresh (fresh_append opsProj3_fresh (opsResid_fresh))))))))))))))))))))))))

end Cert.ReferenceIdeal.RefRun

end
-- ==== Proof.RefMainEq.lean ====
/-
  The reference program's @main IS the straight line of its 216 operations: each window of @main is the pieces of
  the list that fall in it, run in a row (the calls of the outlined remainder unfold to that function's
  operations), and three windows run in a row are their pieces' concatenation run as one line.
-/
import proofs.«144160_j59107339927555_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's first window (statements 1 … 60) is its twelve pieces in a row. Both sides are the same chain of operations once the outlined function's definition is
    unfolded at its call and sequencing is re-associated: an equation of terms, by computation. -/
theorem main_part0_eq (c : Dev nD) : main_part0 (F := F) c = (Pipeline.chainK
  [ seq opsFlat,
    seq opsIdx0a,
    seq opsRem0,
    seq opsIdx0b,
    seq opsProj0,
    seq opsHeads0,
    seq opsIdx1a,
    seq opsRem1,
    seq opsIdx1b,
    seq opsProj1,
    seq opsHeads1 ]
  (seq opsIdx2a) : Prog (TpuEff nD τ sig (Elt F) (Pipeline.Sig Λ₀ (Fin 0) fun p => (pcfgs (F := F) p).Adm) .tc) PUnit) := by
  chain_rfl

/-- @main's second window (statements 61 … 120) is its ten pieces in a row. Both sides are the same chain of operations once the outlined function's definition is
    unfolded at its call and sequencing is re-associated: an equation of terms, by computation. -/
theorem main_part1_eq (c : Dev nD) : main_part1 (F := F) c = (Pipeline.chainK
  [ seq opsIdx2b,
    seq opsRem2,
    seq opsIdx2c,
    seq opsProj2,
    seq opsHeads2,
    seq opsAttn,
    seq opsMerge,
    seq opsIdx3a,
    seq opsRem3 ]
  (seq opsIdx3b) : Prog (TpuEff nD τ sig (Elt F) (Pipeline.Sig Λ₀ (Fin 0) fun p => (pcfgs (F := F) p).Adm) .tc) PUnit) := by
  chain_rfl

/-- @main's last window (statements 121 … 137) is its three pieces in a row. Both sides are the same chain of operations once the outlined function's definition is
    unfolded at its call and sequencing is re-associated: an equation of terms, by computation. -/
theorem main_part2_eq (c : Dev nD) : main_part2 (F := F) c = (Pipeline.chainK
  [ seq opsIdx3c,
    seq opsProj3 ]
  (seq opsResid) : Prog (TpuEff nD τ sig (Elt F) (Pipeline.Sig Λ₀ (Fin 0) fun p => (pcfgs (F := F) p).Adm) .tc) PUnit) := by
  chain_rfl

/-- @main runs its three windows in order. -/
theorem main_windows (c : Dev nD) :
    main (F := F) c = (main_part0 c >>= fun _ => main_part1 c >>= fun _ => main_part2 c) := rfl

/-- @main is the straight line of its operations: the windows' pieces in a row are the concatenation as one line
    (`seq_append`), sequencing re-associated. -/
theorem main_eq (c : Dev nD) : main (F := F) c = seq ops := by
  rw [main_windows, main_part0_eq, main_part1_eq, main_part2_eq]
  simp only [ops, Pipeline.chainK, seq_append, bind_assoc]

end Cert.ReferenceIdeal.RefRun

end
-- ==== Proof.RefRun.lean ====
/-
  The reference program's run: on a signature that scopes no buffer and no semaphore, a straight line of
  operations run on every TensorCore from any memory with zero counters terminates, and each TensorCore buffer ends at
  the fold of the operations' results over its launch contents.
-/
import proofs.«144160_j59107339927555_1_alg».proof.Proof.RefMainEq

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- On every device, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefValueAttn.lean ====
/-
  The second result read back: after the reference's 216 operations the buffer of the attention weights holds
  the softmax of the scaled scores of the projected q and k, as a function of the launch contents of the six
  argument buffers it depends on. The fold is unrolled one operation at a time — an operation's result at its own
  buffer is its function of its operands' contents, at any other buffer what was there — and what is left is the
  layer's own term, equal by computation (the typed references' transports are the identity at literal references).
  The reductions and the gather stay folded meanwhile: the equation never looks inside them.
-/
import proofs.«144160_j59107339927555_1_alg».proof.Proof.RefOps
import proofs.«144160_j59107339927555_1_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather in
set_option maxRecDepth 8192 in
set_option maxHeartbeats 4000000 in
/-- The attention weights' buffer after the line, from any contents `V`. -/
theorem attn_eq (V : Valuation τ sig (Elt F)) :
    after ops V (main_v91 : DevRef τ sig)
      = Spec.attnOut (V (main_arg0 : DevRef τ sig)) (V (main_arg1 : DevRef τ sig)) (V (main_arg3 : DevRef τ sig))
          (V (main_arg4 : DevRef τ sig)) (V (main_arg5 : DevRef τ sig)) (V (main_arg6 : DevRef τ sig)) := by
  simp only [ops, after_app]
  after_results_simp
  simp only [cast_eq]
  rfl

end Cert.ReferenceIdeal.RefRun

end
-- ==== Proof.RefValueOut.lean ====
/-
  The first result read back: after the reference's 216 operations the result buffer holds the output projection of
  the attended values plus the first argument, as a function of the launch contents of the eleven argument buffers.
  The fold is unrolled one operation at a time and what is left is the layer's own term, equal by computation; the
  reductions and the gathers stay folded meanwhile.
-/
import proofs.«144160_j59107339927555_1_alg».proof.Proof.RefOps
import proofs.«144160_j59107339927555_1_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather in
set_option maxRecDepth 8192 in
set_option maxHeartbeats 4000000 in
/-- The result buffer after the line, from any contents `V`. -/
theorem out_eq (V : Valuation τ sig (Elt F)) :
    after ops V (main_v119 : DevRef τ sig)
      = Spec.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) := by
  simp only [ops, after_app]
  after_results_simp
  simp only [cast_eq]
  rfl

end Cert.ReferenceIdeal.RefRun

end
-- ==== Proof.RefValueArgs.lean ====
/-
  The eleven argument buffers after the reference's 216 operations: no operation writes one, so each holds what
  it held at launch.
-/
import proofs.«144160_j59107339927555_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Argument 0 is unchanged by the line. -/
theorem arg0_eq (V : Valuation τ sig (Elt F)) : after ops V (main_arg0 : DevRef τ sig) = (V (main_arg0 : DevRef τ sig)) := by
  simp only [ops, after_app]
  after_results_simp

set_option maxRecDepth 8192 in
/-- Argument 1 is unchanged by the line. -/
theorem arg1_eq (V : Valuation τ sig (Elt F)) : after ops V (main_arg1 : DevRef τ sig) = (V (main_arg1 : DevRef τ sig)) := by
  simp only [ops, after_app]
  after_results_simp

set_option maxRecDepth 8192 in
/-- Argument 2 is unchanged by the line. -/
theorem arg2_eq (V : Valuation τ sig (Elt F)) : after ops V (main_arg2 : DevRef τ sig) = (V (main_arg2 : DevRef τ sig)) := by
  simp only [ops, after_app]
  after_results_simp

set_option maxRecDepth 8192 in
/-- Argument 3 is unchanged by the line. -/
theorem arg3_eq (V : Valuation τ sig (Elt F)) : after ops V (main_arg3 : DevRef τ sig) = (V (main_arg3 : DevRef τ sig)) := by
  simp only [ops, after_app]
  after_results_simp

set_option maxRecDepth 8192 in
/-- Argument 4 is unchanged by the line. -/
theorem arg4_eq (V : Valuation τ sig (Elt F)) : after ops V (main_arg4 : DevRef τ sig) = (V (main_arg4 : DevRef τ sig)) := by
  simp only [ops, after_app]
  after_results_simp

set_option maxRecDepth 8192 in
/-- Argument 5 is unchanged by the line. -/
theorem arg5_eq (V : Valuation τ sig (Elt F)) : after ops V (main_arg5 : DevRef τ sig) = (V (main_arg5 : DevRef τ sig)) := by
  simp only [ops, after_app]
  after_results_simp

set_option maxRecDepth 8192 in
/-- Argument 6 is unchanged by the line. -/
theorem arg6_eq (V : Valuation τ sig (Elt F)) : after ops V (main_arg6 : DevRef τ sig) = (V (main_arg6 : DevRef τ sig)) := by
  simp only [ops, after_app]
  after_results_simp

set_option maxRecDepth 8192 in
/-- Argument 7 is unchanged by the line. -/
theorem arg7_eq (V : Valuation τ sig (Elt F)) : after ops V (main_arg7 : DevRef τ sig) = (V (main_arg7 : DevRef τ sig)) := by
  simp only [ops, after_app]
  after_results_simp

set_option maxRecDepth 8192 in
/-- Argument 8 is unchanged by the line. -/
theorem arg8_eq (V : Valuation τ sig (Elt F)) : after ops V (main_arg8 : DevRef τ sig) = (V (main_arg8 : DevRef τ sig)) := by
  simp only [ops, after_app]
  after_results_simp

set_option maxRecDepth 8192 in
/-- Argument 9 is unchanged by the line. -/
theorem arg9_eq (V : Valuation τ sig (Elt F)) : after ops V (main_arg9 : DevRef τ sig) = (V (main_arg9 : DevRef τ sig)) := by
  simp only [ops, after_app]
  after_results_simp

set_option maxRecDepth 8192 in
/-- Argument 10 is unchanged by the line. -/
theorem arg10_eq (V : Valuation τ sig (Elt F)) : after ops V (main_arg10 : DevRef τ sig) = (V (main_arg10 : DevRef τ sig)) := by
  simp only [ops, after_app]
  after_results_simp

end Cert.ReferenceIdeal.RefRun

end
-- ==== Proof.RefValue.lean ====
/-
  The reference's run, read back: every weakly fair execution of the reference program's @main terminates with the
  result buffer at the layer's output (the output projection of the attended values plus q), the attention
  weights' buffer at the softmax of the scaled scores, both as functions of the launch contents of the argument
  buffers, and the eleven argument buffers unchanged.
-/
import proofs.«144160_j59107339927555_1_alg».proof.Proof.RefRun
import proofs.«144160_j59107339927555_1_alg».proof.Proof.RefValueAttn
import proofs.«144160_j59107339927555_1_alg».proof.Proof.RefValueOut
import proofs.«144160_j59107339927555_1_alg».proof.Proof.RefValueArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of
    @main terminates with each of the two results at the layer's function of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119)
          = Spec.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10))
      ∧ r.2.mem ((c.tc : Thread nD τ).loc main_v91)
          = Spec.attnOut (m ((c.tc : Thread nD τ).loc main_arg0)) (m ((c.tc : Thread nD τ).loc main_arg1)) (m ((c.tc : Thread nD τ).loc main_arg3))
              (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v119).trans (out_eq _), (h c main_v91).trans (attn_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_main m ρ)

end Cert.ReferenceIdeal.RefRun

end
-- ==== Proof.lean ====
/-
  The certificate: the tiled linear kernel, used four times around a plain attention, against its jnp reference.

  Both programs expand the four circulant projection weights and repeat the biases with the same host operations, and
  compute the same attention (scores, softmax, weighted values) and the same residual sum with the same host
  operations. They differ in the four projections only: the kernel program runs a pallas region over sixteen blocks of
  512 rows, each block the matrix-unit product of the block with the resident weight (rounded to a narrower float
  format, the identity on extended reals) plus the bias row, where the reference takes one host matrix product and
  adds the bias. Entry by entry both are the sum over the contracted coordinate of the products plus the bias entry,
  the same finite sum of extended reals, so no finiteness of the inputs is used.

  The three frames: the kernel programs' are the generated frame certificates; the reference's is its run with the
  results dropped. The idealization rewrote nothing, so its conjunct is trivial.
-/
import proofs.«144160_j59107339927555_1_alg».proof.Defs
import proofs.«144160_j59107339927555_1_alg».proof.Proof.Gen.Kernel
import proofs.«144160_j59107339927555_1_alg».proof.Proof.Gen.Kernel.Skeleton
import proofs.«144160_j59107339927555_1_alg».proof.Proof.Gen.Kernel.Launch
import proofs.«144160_j59107339927555_1_alg».proof.Proof.Gen.Kernel.Points
import proofs.«144160_j59107339927555_1_alg».proof.Proof.Gen.Kernel.Frame
import proofs.«144160_j59107339927555_1_alg».proof.Proof.Gen.KernelIdeal
import proofs.«144160_j59107339927555_1_alg».proof.Proof.Gen.KernelIdeal.Skeleton
import proofs.«144160_j59107339927555_1_alg».proof.Proof.Gen.KernelIdeal.Launch
import proofs.«144160_j59107339927555_1_alg».proof.Proof.Gen.KernelIdeal.Points
import proofs.«144160_j59107339927555_1_alg».proof.Proof.Gen.KernelIdeal.Frame
import proofs.«144160_j59107339927555_1_alg».proof.Proof.Gen.ReferenceIdeal
import proofs.«144160_j59107339927555_1_alg».proof.Proof.Gen.Pre_finite_inputs
import proofs.«144160_j59107339927555_1_alg».proof.Proof.RefSpec
import proofs.«144160_j59107339927555_1_alg».proof.Proof.KernelRun
import proofs.«144160_j59107339927555_1_alg».proof.Proof.KernelValue
import proofs.«144160_j59107339927555_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run names its two results; the frame keeps the arguments' part of it. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

/-- Both programs end with the specification's two arrays of the (agreeing) arguments. -/
theorem algebraic : Cert.algebraic_KernelIdeal_ReferenceIdeal := by
  intro m ρ m' ρ' _ hagree
  refine ⟨fun c => Cert.ReferenceIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Spec.attnOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KValue.out_eq m ρ c),
        (h c).2.1.trans (Cert.KernelIdeal.KValue.attn_eq m ρ c), (h c).2.2⟩)
      (Cert.KernelIdeal.KRun.run (F := Ideal) m ρ)
  · refine (θ_run Cert.ReferenceIdeal.defs _ _).mono (fun _ h c => ?_)
      (Cert.ReferenceIdeal.RefRun.run (F := Ideal) m' ρ')
    obtain ⟨h0, h1, h2, h3, h4, h5, h6, h7, h8, h9, h10⟩ := hagree c
    refine ⟨?_, ?_, (h c).2.2⟩
    · rw [(h c).1, h0, h1, h2, h3, h4, h5, h6, h7, h8, h9, h10]
    · rw [(h c).2.1, h0, h1, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
